-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64 .f32) (main_arg8 : FVec F S64x64 .f32) (main_arg9 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S128x128 .f32) (main_arg5 : FVec F S128x64 .f32) (main_arg6 : FVec F S128x64 .f32) (main_arg7 : FVec F S64 .f32) (main_arg8 : FVec F S64x64 .f32) (main_arg9 : FVec F S1 .f32) (main_v13 : IVec S_ 1) (main_v16 : IVec S10000x10000 1) : IVec S_ 1 :=
  let main_c_5 : IVec S_ 1 := constantI S_ 1 1#1
  let main_v17 : IVec S_ 1 := (fun x v => Host.reduce IntOp.andi x v reducesTo_S10000x10000_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S10000x10000 .f32) (main_arg3 : FVec F S10000x10000 .f32) (main_arg4 : FVec F S128x128 .f32) (main_arg5 : FVec F S128x64 .f32) (main_arg6 : FVec F S128x64 .f32) (main_arg7 : FVec F S64 .f32) (main_arg8 : FVec F S64x64 .f32) (main_arg9 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S10000x10000 .f32 := Host.absf main_arg3
  let main_cst_4 : FVec F S_ .f32 := constant S_ .f32 0x7F800000#32
  let main_v15 : FVec F S10000x10000 .f32 := broadcastInDim S10000x10000 ![] bcast_S_S10000x10000 main_cst_4
  let main_v16 : IVec S10000x10000 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S1 : Shape := ⟨1, ![1]⟩
abbrev S1x1 : Shape := ⟨2, ![1, 1]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S10000 : Shape := ⟨1, ![10000]⟩
abbrev S10000x1 : Shape := ⟨2, ![10000, 1]⟩
abbrev S400x128 : Shape := ⟨2, ![400, 128]⟩
abbrev S200x10000 : Shape := ⟨2, ![200, 10000]⟩
abbrev S200x64 : Shape := ⟨2, ![200, 64]⟩
abbrev S200 : Shape := ⟨1, ![200]⟩
abbrev S200x1 : Shape := ⟨2, ![200, 1]⟩

abbrev nBuf : Space → Nat
  | .hbm => 15
  | .vmem => 23
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S10000x10000, .f32⟩
  | .hbm, ⟨4, _⟩ => ⟨S128x128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S1, .f32⟩
  | .hbm, ⟨10, _⟩ => ⟨S1x1, .f32⟩
  | .hbm, ⟨11, _⟩ => ⟨S1x64, .f32⟩
  | .hbm, ⟨12, _⟩ => ⟨S10000x64, .bf16⟩
  | .hbm, ⟨13, _⟩ => ⟨S10000x64, .bf16⟩
  | .hbm, ⟨14, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S64x64, .f32⟩
  | .local _ .vmem, ⟨8, _⟩ => ⟨S400x64, .bf16⟩
  | .local _ .vmem, ⟨9, _⟩ => ⟨S400x64, .bf16⟩
  | .local _ .vmem, ⟨10, _⟩ => ⟨S10000x64, .bf16⟩
  | .local _ .vmem, ⟨11, _⟩ => ⟨S10000x128, .bf16⟩
  | .local _ .vmem, ⟨12, _⟩ => ⟨S1x1, .f32⟩
  | .local _ .vmem, ⟨13, _⟩ => ⟨S200x10000, .f32⟩
  | .local _ .vmem, ⟨14, _⟩ => ⟨S200x10000, .f32⟩
  | .local _ .vmem, ⟨15, _⟩ => ⟨S200x10000, .f32⟩
  | .local _ .vmem, ⟨16, _⟩ => ⟨S200x10000, .f32⟩
  | .local _ .vmem, ⟨17, _⟩ => ⟨S200x10000, .f32⟩
  | .local _ .vmem, ⟨18, _⟩ => ⟨S200x10000, .f32⟩
  | .local _ .vmem, ⟨19, _⟩ => ⟨S10000x64, .bf16⟩
  | .local _ .vmem, ⟨20, _⟩ => ⟨S10000x64, .bf16⟩
  | .local _ .vmem, ⟨21, _⟩ => ⟨S200x64, .f32⟩
  | .local _ .vmem, ⟨22, _⟩ => ⟨S200x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2_0 : Ref sig .tc := ⟨.hbm, 12, rfl⟩
abbrev main_call0_v2_1 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S10000x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S200x10000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S10000x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S10000x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S200x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S1_S1x1 : S1.ShapeCasts S1x1
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  inb_S400x10000_S400x10000_0_0 : ∀ a, (![0, 0] : Fin 2 → Nat) a + S400x10000.size a ≤ S400x10000.size a
  h_S400x10000 : 0 < S400x10000.numel
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  inb_S200x10000_S200x10000_0_0 : ∀ a, (![0, 0] : Fin 2 → Nat) a + S200x10000.size a ≤ S200x10000.size a
  h_S200x10000 : 0 < S200x10000.numel
  shapeCasts_S10000x64_S10000x64 : S10000x64.ShapeCasts S10000x64
  reduces_S200x64_S200 : S200x64.Reduces [1] S200
  shapeCasts_S200_S200x1 : S200.ShapeCasts S200x1
  broadcasts_S200x1_S200x64 : S200x1.Broadcasts S200x64
  inb_S200x64_S200x64_0_0 : ∀ a, (![0, 0] : Fin 2 → Nat) a + S200x64.size a ≤ S200x64.size a
  h_S200x64 : 0 < S200x64.numel
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S200x10000_S10000x64_S200x64_1_0_0_1_n_n_wf : DotDims.WF S200x10000 S10000x64 S200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x64.size a ≤ S10000x64.size a
  hwx0_7 : ∀ i : grid0.Coords, EltTy.bits .bf16 = 32 ∨ (Rect.block (s := S10000x64) S400x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S10000x64.size a ≤ S10000x64.size a
  hwx0_8 : ∀ i : grid0.Coords, EltTy.bits .bf16 = 32 ∨ (Rect.block (s := S10000x64) S10000x64.size (cc0_transform_8 i) (hinb0_8 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .f32 = 32 ∨ (Rect.block (s := S1x1) S1x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x10000.size a ≤ S10000x10000.size a
  hwx1_2 : ∀ i : grid1.Coords, EltTy.bits .f32 = 32 ∨ (Rect.block (s := S10000x10000) S200x10000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x10000.size a ≤ S10000x10000.size a
  hwx1_3 : ∀ i : grid1.Coords, EltTy.bits .f32 = 32 ∨ (Rect.block (s := S10000x10000) S200x10000.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S10000x64.size a
  hwx1_4 : ∀ i : grid1.Coords, EltTy.bits .bf16 = 32 ∨ (Rect.block (s := S10000x64) S10000x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S10000x64.size a
  hwx1_5 : ∀ i : grid1.Coords, EltTy.bits .bf16 = 32 ∨ (Rect.block (s := S10000x64) S10000x64.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S200x64.size a ≤ S10000x64.size a
  hwx1_6 : ∀ i : grid1.Coords, EltTy.bits .f32 = 32 ∨ (Rect.block (s := S10000x64) S200x64.size (cc1_transform_6 i) (hinb1_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v2_0) S400x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v2_1) S10000x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond1 i == 1#1) | ⟨_ + 9, h⟩ => absurd h (Nat.not_lt.2 (Nat.le_add_left _ _))

abbrev win1_0 : Pipeline.Window sig grid1 :=
  Pipeline.Window.ofSpec (Memref.whole main_call0_v0) S1x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S200x10000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S200x10000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v2_0) S10000x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v2_1) S10000x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v0) S200x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S1 : Shape := ⟨1, ![1]⟩
abbrev S_ : Shape := ⟨0, ![]⟩
abbrev S10000x64 : Shape := ⟨2, ![10000, 64]⟩
abbrev S10000 : Shape := ⟨1, ![10000]⟩
abbrev S10000x1 : Shape := ⟨2, ![10000, 1]⟩
abbrev S1x64 : Shape := ⟨2, ![1, 64]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S10000x10000, .f32⟩
  | .hbm, ⟨4, _⟩ => ⟨S128x128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S1, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x64, .f32⟩
  | .hbm, ⟨16, _⟩ => ⟨S10000x64, .f32⟩
  | .hbm, ⟨17, _⟩ => ⟨S_, .f32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .f32⟩
  | .hbm, ⟨22, _⟩ => ⟨S10000x1, .f32⟩
  | .hbm, ⟨23, _⟩ => ⟨S10000x64, .f32⟩
  | .hbm, ⟨24, _⟩ => ⟨S10000x64, .f32⟩
  | .hbm, ⟨25, _⟩ => ⟨S10000x64, .f32⟩
  | .hbm, ⟨26, _⟩ => ⟨S_, .f32⟩
  | .hbm, ⟨27, _⟩ => ⟨S10000, .f32⟩
  | .hbm, ⟨28, _⟩ => ⟨S10000x1, .f32⟩
  | .hbm, ⟨29, _⟩ => ⟨S10000x64, .f32⟩
  | .hbm, ⟨30, _⟩ => ⟨S10000x64, .f32⟩
  | .hbm, ⟨31, _⟩ => ⟨S10000x64, .f32⟩
  | .hbm, ⟨32, _⟩ => ⟨S1x64, .f32⟩
  | .hbm, ⟨33, _⟩ => ⟨S10000x64, .f32⟩
  | .hbm, ⟨34, _⟩ => ⟨S10000x64, .f32⟩
  | .hbm, ⟨35, _⟩ => ⟨S_, .f32⟩
  | .hbm, ⟨36, _⟩ => ⟨S10000, .f32⟩
  | .hbm, ⟨37, _⟩ => ⟨S_, .f32⟩
  | .hbm, ⟨38, _⟩ => ⟨S10000, .f32⟩
  | .hbm, ⟨39, _⟩ => ⟨S10000, .f32⟩
  | .hbm, ⟨40, _⟩ => ⟨S10000x1, .f32⟩
  | .hbm, ⟨41, _⟩ => ⟨S10000x64, .f32⟩
  | .hbm, ⟨42, _⟩ => ⟨S10000x64, .f32⟩
  | .hbm, ⟨43, _⟩ => ⟨S10000x64, .f32⟩
  | .hbm, ⟨44, _⟩ => ⟨S_, .f32⟩
  | .hbm, ⟨45, _⟩ => ⟨S10000, .f32⟩
  | .hbm, ⟨46, _⟩ => ⟨S10000x1, .f32⟩
  | .hbm, ⟨47, _⟩ => ⟨S10000x64, .f32⟩
  | .hbm, ⟨48, _⟩ => ⟨S10000x64, .f32⟩
  | .hbm, ⟨49, _⟩ => ⟨S1, .f32⟩
  | .hbm, ⟨50, _⟩ => ⟨S1, .f32⟩
  | .hbm, ⟨51, _⟩ => ⟨S_, .f32⟩
  | .hbm, ⟨52, _⟩ => ⟨S1, .f32⟩
  | .hbm, ⟨53, _⟩ => ⟨S1, .f32⟩
  | .hbm, ⟨54, _⟩ => ⟨S_, .f32⟩
  | .hbm, ⟨55, _⟩ => ⟨S1, .f32⟩
  | .hbm, ⟨56, _⟩ => ⟨S1, .f32⟩
  | .hbm, ⟨57, _⟩ => ⟨S10000x64, .f32⟩
  | .hbm, ⟨58, _⟩ => ⟨S10000x64, .f32⟩
  | .hbm, ⟨59, _⟩ => ⟨S10000x64, .f32⟩
  | .hbm, ⟨60, _⟩ => ⟨S10000x64, .f32⟩
  | .hbm, ⟨61, _⟩ => ⟨S10000x64, .f32⟩
  | .hbm, ⟨62, _⟩ => ⟨S1x1, .f32⟩
  | .hbm, ⟨63, _⟩ => ⟨S10000x64, .f32⟩
  | .hbm, ⟨64, _⟩ => ⟨S10000x64, .f32⟩
  | .hbm, ⟨65, _⟩ => ⟨S_, .f32⟩
  | .hbm, ⟨66, _⟩ => ⟨S1, .f32⟩
  | .hbm, ⟨67, _⟩ => ⟨S1, .f32⟩
  | .hbm, ⟨68, _⟩ => ⟨S1x1, .f32⟩
  | .hbm, ⟨69, _⟩ => ⟨S10000x64, .f32⟩
  | .hbm, ⟨70, _⟩ => ⟨S10000x64, .f32⟩
  | .hbm, ⟨71, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S1 : S_.BroadcastsInDim S1 (![] : Fin 0 → Fin S1.rank)
  bcast_S1_S1x1_1 : S1.BroadcastsInDim S1x1 (![1] : Fin 1 → Fin S1x1.rank)
  bcast_S1x1_S10000x64_0_1 : S1x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.R0.lean ====
/-
  The first kernel (row blocks of 400 nodes, 25 grid points) as a pipeline region entered with the buffers at any
  contents V. At the first point the body fills a scratch buffer with x · W1 and the resident output window with the gate
  softmax (x · linW + b) · Wg; at every point it stores the row block's (adj · scratch)⁺ · W2 into the other output
  window. So the region's invariant carries the scratch: before the first point at anything, afterwards at x · W1; and the
  gate's window, stored at the first point only and written back after the last, holds the gate from the first point on.
-/
import proofs.«156757_g65309272703512_cont_9to1c4b_471_27_alg».proof.Proof.Gen.KernelIdeal.Launch
import proofs.«156757_g65309272703512_cont_9to1c4b_471_27_alg».proof.Proof.Gen.KernelIdeal.Skeleton
import proofs.«156757_g65309272703512_cont_9to1c4b_471_27_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev t0 : Fin cfg0.N := ⟨0, by decide⟩

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev ra400x10000 : Rect S400x10000 := Rect.unit (s := S400x10000) ![0, 0] S400x10000.size inb_S400x10000_S400x10000_0_0
abbrev ra10000x128 : Rect S10000x128 := Rect.unit (s := S10000x128) ![0, 0] S10000x128.size inb_S10000x128_S10000x128_0_0
abbrev ra128x128 : Rect S128x128 := Rect.unit (s := S128x128) ![0, 0] S128x128.size inb_S128x128_S128x128_0_0
abbrev ra128x64 : Rect S128x64 := Rect.unit (s := S128x64) ![0, 0] S128x64.size inb_S128x64_S128x64_0_0
abbrev ra1x64 : Rect S1x64 := Rect.unit (s := S1x64) ![0, 0] S1x64.size inb_S1x64_S1x64_0_0
abbrev ra64x64 : Rect S64x64 := Rect.unit (s := S64x64) ![0, 0] S64x64.size inb_S64x64_S64x64_0_0
abbrev ra400x64 : Rect S400x64 := Rect.unit (s := S400x64) ![0, 0] S400x64.size inb_S400x64_S400x64_0_0
abbrev ra10000x64 : Rect S10000x64 := Rect.unit (s := S10000x64) ![0, 0] S10000x64.size inb_S10000x64_S10000x64_0_0

/-- The scratch after the first point's store, from the blocks of x and W1: x · W1. -/
def scr0 (x : Vec F S10000x128 .f32) (w1 : Vec F S128x128 .f32) : Vec F S10000x128 .bf16 :=
  View.canon [⟨ra10000x128, k0_pay2 (View.ld x ra10000x128) (View.ld w1 ra128x128)⟩]

/-- The gate's window after the first point's store, from the blocks of x, linW, b, Wg. -/
def out0_8 (x : Vec F S10000x128 .f32) (lw : Vec F S128x64 .f32) (b : Vec F S1x64 .f32) (wg : Vec F S64x64 .f32) : Vec F S10000x64 .bf16 :=
  View.canon [⟨ra10000x64, k0_pay3 (View.ld x ra10000x128) (View.ld lw ra128x64) (View.ld b ra1x64) (View.ld wg ra64x64)⟩]

/-- The support's window after the body at any point, from the adjacency row block, the scratch's contents and W2. -/
def out0_7 (a : Vec F S400x10000 .f32) (s : Vec F S10000x128 .bf16) (w2 : Vec F S128x64 .f32) : Vec F S400x64 .bf16 :=
  View.canon [⟨ra400x64, k0_pay4 (View.ld a ra400x10000) (View.ld s ra10000x128) (View.ld w2 ra128x64)⟩]

/-- The scratch's contents from the first point on: x · W1 of the whole arrays' blocks. -/
def scrOf (c : Dev nD) : Vec F S10000x128 .bf16 := scr0 (iblk0 V c 1 t0) (iblk0 V c 2 t0)

/-- The gate window's contents from the first point on. -/
def gateOf (c : Dev nD) : Vec F S10000x64 .bf16 := out0_8 (iblk0 V c 1 t0) (iblk0 V c 4 t0) (iblk0 V c 5 t0) (iblk0 V c 6 t0)

/-- The scratch operand as a memref. -/
abbrev scM : Memref sig .tc .vmem S10000x128 .bf16 := Memref.whole cc0_scratch0

/-- The scoped buffers that are neither a staging buffer of this region nor its scratch, each at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The region's invariant before position n: before the first point the scratch at anything; afterwards at x · W1;
    beside the untouched rest and the generator register at some state. -/
def PhiS0 (c : Dev nD) : ℕ → sProp 𝕄
  | 0 => Pipeline.ΦA spec0 c
  | _ + 1 => iprop((owns (c : Thread nD τ) scM fullShare (scrOf V c) ∗ restS (F := F) c) ∗ (∃ r, prngReg c r))

/-- The untouched-rest invariant with the scratch named. -/
theorem PhiA0_eq (c : Dev nD) :
    (Pipeline.ΦA spec0 c : sProp 𝕄) = iprop(((∃ d, owns (c : Thread nD τ) scM fullShare d) ∗ restS (F := F) c) ∗ (∃ r, prngReg c r)) := by
  unfold Pipeline.ΦA restS; rw [scopedRest0_eq]; simp only [scM, owns_whole]; rfl

/-- The region's proof data on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (scrOf V c) (iblk0 V c 3 t)
    | ⟨8, _⟩ => gateOf V c
  Φ t := PhiS0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (scrOf V c) (iblk0 V c 3 t) := by dsimp only [dat0]
theorem after0_8 (c : Dev nD) (t : Fin cfg0.N) : (dat0 V c).after 8 t = gateOf V c := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- Each store covers its buffer. -/
theorem cover0_7 (p0 : Vec F S400x64 .bf16) (y : S400x64.Idx) :
    ∃ pc ∈ ([⟨ra400x64, p0⟩] : List (View.Piece (Elt F) S400x64 .bf16)), y ∈ pc.1.set :=
  View.cover_of_tiled [⟨ra400x64, p0⟩] S400x64.size (by rfl) y
theorem cover0_8 (p0 : Vec F S10000x64 .bf16) (y : S10000x64.Idx) :
    ∃ pc ∈ ([⟨ra10000x64, p0⟩] : List (View.Piece (Elt F) S10000x64 .bf16)), y ∈ pc.1.set :=
  View.cover_of_tiled [⟨ra10000x64, p0⟩] S10000x64.size (by rfl) y
theorem cover0_s (p0 : Vec F S10000x128 .bf16) (y : S10000x128.Idx) :
    ∃ pc ∈ ([⟨ra10000x128, p0⟩] : List (View.Piece (Elt F) S10000x128 .bf16)), y ∈ pc.1.set :=
  View.cover_of_tiled [⟨ra10000x128, p0⟩] S10000x128.size (by rfl) y

set_option maxHeartbeats 4000000 in
/-- The body at the first point, on whole staging memrefs: the inputs' at contents x0 … x6, the two outputs' and the
    scratch at anything. It fills the scratch with x · W1 and the gate's buffer with the gate, then reads the scratch
    back for the support's block: it runs to the continuation holding the inputs' as they were, the support's buffer
    at out0_7 over the filled scratch, the gate's at out0_8 and the scratch at scr0. -/
theorem sound_kernel0_first (c : Dev nD) (E : Set ℕ) (i : grid0.Coords) (hc : k0_cond1 i = 1#1)
    (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S400x64 .bf16) (harg8 : arg8.IsWhole) (arg9 : Memref sig .tc .vmem S10000x64 .bf16) (harg9 : arg9.IsWhole) (arg10 : Memref sig .tc .vmem S10000x128 .bf16) (harg10 : arg10.IsWhole)
    (x0 : Vec F S400x10000 .f32) (x1 : Vec F S10000x128 .f32) (x2 : Vec F S128x128 .f32) (x3 : Vec F S128x64 .f32) (x4 : Vec F S128x64 .f32) (x5 : Vec F S1x64 .f32) (x6 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 (scr0 x1 x2) x3) ∗ owns (c : Thread nD τ) arg9 fullShare (out0_8 x1 x4 x5 x6) ∗ owns (c : Thread nD τ) arg10 fullShare (scr0 x1 x2)) -∗ K ⟨⟩))
      ⊢ wp frame (wpE (defs₀ (F := F)) Variants.none c none) E (cc0__gc_kernel i arg1 harg1 arg2 harg2 arg3 harg3 arg4 harg4 arg5 harg5 arg6 harg6 arg7 harg7 arg8 harg8 arg9 harg9 arg10 harg10) K := by
  simp only [cc0__gc_kernel_eq_skeleton]; unfold cc0__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec (disch := exact hc)
  -- the scratch read back after its store is the stored product
  have hv5 : sound_kernel0_first.sl.v5 c arg2 arg3 arg10 f1 f2
      = View.ld (scr0 (View.read (Elt F) arg2.view f1) (View.read (Elt F) arg3.view f2)) ra10000x128 := by
    unfold sound_kernel0_first.sl.v5 sound_kernel0_first.sl.H9_1
    exact View.readCov_eq_canon_ld _ _ _ (cover0_s _)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover0_7 _)).trans ?_
    rw [hv5]; rfl
  isplitl [H8]
  · iexists _; isplitr
    swap; · iexact H8
    ipureintro
    exact View.read_writes_eq_canon _ _ _ (cover0_8 _)
  iexists _; isplitr
  swap; · iexact H9
  ipureintro
  unfold sound_kernel0_first.sl.H9_1
  exact View.read_writes_eq_canon _ _ _ (cover0_s _)

set_option maxHeartbeats 4000000 in
/-- The body at a later point: the inputs' memrefs at x0 … x6, the support's buffer at anything, the gate's at
    contents g it does not touch, the scratch at s. It runs to the continuation holding all of them as they were but
    the support's buffer, at out0_7 over s. -/
theorem sound_kernel0_rest (c : Dev nD) (E : Set ℕ) (i : grid0.Coords) (hc : ¬ k0_cond1 i = 1#1)
    (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S400x64 .bf16) (harg8 : arg8.IsWhole) (arg9 : Memref sig .tc .vmem S10000x64 .bf16) (harg9 : arg9.IsWhole) (arg10 : Memref sig .tc .vmem S10000x128 .bf16) (harg10 : arg10.IsWhole)
    (x0 : Vec F S400x10000 .f32) (x1 : Vec F S10000x128 .f32) (x2 : Vec F S128x128 .f32) (x3 : Vec F S128x64 .f32) (x4 : Vec F S128x64 .f32) (x5 : Vec F S1x64 .f32) (x6 : Vec F S64x64 .f32) (g : Vec F S10000x64 .bf16) (s : Vec F S10000x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare g ∗ owns (c : Thread nD τ) arg10 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 s x3) ∗ owns (c : Thread nD τ) arg9 fullShare g ∗ owns (c : Thread nD τ) arg10 fullShare s) -∗ K ⟨⟩))
      ⊢ wp frame (wpE (defs₀ (F := F)) Variants.none c none) E (cc0__gc_kernel i arg1 harg1 arg2 harg2 arg3 harg3 arg4 harg4 arg5 harg5 arg6 harg6 arg7 harg7 arg8 harg8 arg9 harg9 arg10 harg10) K := by
  simp only [cc0__gc_kernel_eq_skeleton]; unfold cc0__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf0; subst hf1; subst hf2; subst hf3; subst hf4; subst hf5; subst hf6; subst hf8; subst hf9
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists f8; isplitr; · ipureintro; rfl
    iexact H8
  iexists f9; isplitr; · ipureintro; rfl
  iexact H9

/-! ## The schedule of the gate's window, decided over the grid -/

/-- The gate's window is an output: never fetched. -/
theorem nofetch0_8 : ∀ t : Fin cfg0.N, (cfg0.win 8).fetch t = false :=
  (by decide +kernel : ∀ t : Fin grid0.N, win0_8.fetch t = false)
/-- The body's condition holds at the first point only. -/
theorem hcond0 : ∀ t : Fin cfg0.N, k0_cond1 (grid0.coords t) = 1#1 ↔ t.val = 0 :=
  (by decide +kernel : ∀ t : Fin grid0.N, k0_cond1 (grid0.coords t) = 1#1 ↔ t.val = 0)
/-- The gate's window is live at the first point and idle at the others; the support's window is never idle. -/
theorem live0_8 : ∀ t : Fin cfg0.N, t.val = 0 → cfg0.idle 8 (grid0.coords t) = false := by decide +kernel
theorem idle0_8 : ∀ t : Fin cfg0.N, t.val ≠ 0 → cfg0.idle 8 (grid0.coords t) = true := by decide +kernel
theorem live0_7 : ∀ t : Fin cfg0.N, cfg0.idle 7 (grid0.coords t) = false := by decide +kernel

/-- From the second point on the gate's staging buffer holds the gate: stored at the first point, the window idle
    afterwards and not written back before the last point. -/
theorem before0_8 (c : Dev nD) (t : Fin cfg0.N) (ht : t.val ≠ 0) (d) : (dat0 V c).before 8 t d = gateOf V c := by
  obtain ⟨n, hn⟩ := t
  induction n with
  | zero => exact absurd rfl ht
  | succ n ih =>
    have hN : n + 1 < 25 := lt_of_lt_of_eq hn (show cfg0.N = 25 from N_0)
    have key := Dat.before_of_pos (dat0 V c) 8 ⟨n + 1, hn⟩ (Nat.succ_ne_zero n) (nofetch0_8 _) d
    simp only [Nat.add_sub_cancel] at key
    have hfl : (cfg0.win 8).flush ⟨n, Nat.lt_of_succ_lt hn⟩ = false := by
      rw [← Bool.not_eq_true]; intro h
      have h' := (flush0_8 _).mp h
      dsimp only at h'; omega
    rw [hfl, if_neg Bool.false_ne_true] at key
    rw [key]
    unfold Dat.left
    by_cases hz : n = 0
    · subst hz
      rw [live0_8 ⟨0, Nat.lt_of_succ_lt hn⟩ rfl]
      show Dat.kept (dat0 V c) 8 ⟨0, Nat.lt_of_succ_lt hn⟩ d = gateOf V c
      unfold Dat.kept
      rw [Pipeline.fill_of_clip_none 8 _ (fun _ => rfl) d ((dat0 V c).after 8 _), Pipeline.Window.fill_cut]
      exact after0_8 V c _
    · rw [idle0_8 ⟨n, Nat.lt_of_succ_lt hn⟩ hz]
      exact ih (Nat.lt_of_succ_lt hn) hz

/-- The invariant from the second position on. -/
theorem PhiS0_pos (c : Dev nD) (n : ℕ) (hn : n ≠ 0) :
    PhiS0 V c n = iprop((owns (c : Thread nD τ) scM fullShare (scrOf V c) ∗ restS (F := F) c) ∗ (∃ r, prngReg c r)) := by
  cases n with
  | zero => exact absurd rfl hn
  | succ n => rfl

/-- At a point after the first the gate's buffer, holding the gate, is what the obligation asks of it: handed back as
    found where the window is idle and not written back, and at the last point, which writes it back, the gate. -/
theorem leaves0_8_of_pos (c : Dev nD) (t : Fin cfg0.N) (hz : t.val ≠ 0) :
    owns (c : Thread nD τ) (st0_8 t) fullShare (gateOf V c) ⊢ (dat0 V c).leavesExact 8 t := by
  have hN : t.val < 25 := lt_of_lt_of_eq t.isLt (show cfg0.N = 25 from N_0)
  by_cases h24 : t.val = 24
  · rw [show (dat0 V c).leavesExact 8 t = owns (c : Thread nD τ) (st0_8 t) fullShare ((dat0 V c).after 8 t) from by
      unfold Dat.leavesExact; rw [idle0_8 t hz, (flush0_8 t).mpr (by omega)], after0_8]
  · have hf : (cfg0.win 8).flush t = false := by
      rw [← Bool.not_eq_true]; intro h
      have h' := (flush0_8 t).mp h
      omega
    rw [Dat.leavesExact_idle (dat0 V c) 8 t (idle0_8 t hz) hf]
    simp only [before0_8 V c t hz]
    iintro H
    iexists (gateOf V c)
    iexact H

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ (dat0 V c).leavesExact 7 t
    ∗ (dat0 V c).leavesExact 8 t)

set_option maxHeartbeats 4000000 in
/-- The body at any point. At the first the invariant hands it the scratch at anything and takes it back at x · W1,
    and the gate's window, live there, is left at the gate. At a later point the invariant hands it the scratch at
    x · W1 and takes it back unchanged, and the gate's buffer, found at the gate, is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6]
  rw [show (dat0 V c).leavesExact 7 t = owns (c : Thread nD τ) (st0_7 t) fullShare ((dat0 V c).after 7 t) from by
    unfold Dat.leavesExact; rw [live0_7 t], after0_7]
  rw [show (dat0 V c).Φ t.succ = PhiS0 V c (t.val + 1) from rfl, PhiS0_pos V c (t.val + 1) (Nat.succ_ne_zero _),
    show (dat0 V c).Φ t.castSucc = PhiS0 V c t.val from rfl]
  by_cases hz : t.val = 0
  · have hc : k0_cond1 (grid0.coords t) = 1#1 := (hcond0 t).mpr hz
    rw [show (dat0 V c).leavesExact 8 t = owns (c : Thread nD τ) (st0_8 t) fullShare ((dat0 V c).after 8 t) from by
      unfold Dat.leavesExact; rw [live0_8 t hz], after0_8]
    rw [show PhiS0 V c t.val = Pipeline.ΦA spec0 c from by rw [hz]; rfl, PhiA0_eq]
    obtain rfl : t = t0 := Fin.ext hz
    unfold scrOf gateOf
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_first c Set.univ _ hc _ _ _ _ _ _ _ _ _ _ _ _ _ _ _ _ _ _ _ _ (iblk0 V c 0 t0) (iblk0 V c 1 t0) (iblk0 V c 2 t0) (iblk0 V c 3 t0) (iblk0 V c 4 t0) (iblk0 V c 5 t0) (iblk0 V c 6 t0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexists _; iexact HS
    iintro ⟨H0, H1, H2, H3, H4, H5, H6, H7, H8, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc : ¬ k0_cond1 (grid0.coords t) = 1#1 := fun h => hz ((hcond0 t).mp h)
    rw [PhiS0_pos V c t.val hz]
    simp only [before0_8 V c t hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_rest c Set.univ _ hc _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (gateOf V c) (scrOf V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexact HS
    iintro ⟨H0, H1, H2, H3, H4, H5, H6, H7, H8, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (leaves0_8_of_pos V c t hz)
    iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = Pipeline.ΦA spec0 c from rfl]
  try exact Idealize.SL.BI.Entails.refl _

/-- After the last point the invariant gives the untouched rest back: the scratch's contents are forgotten. -/
theorem hout0 (c : Dev nD) : (dat0 V c).Φ (Fin.last cfg0.N) ⊢ Pipeline.ΦA spec0 c := by
  rw [show (dat0 V c).Φ (Fin.last cfg0.N) = PhiS0 V c cfg0.N from rfl,
    PhiS0_pos V c cfg0.N (by have : cfg0.N = 25 := N_0; omega), PhiA0_eq]
  iintro ⟨⟨HS, HR⟩, Hg⟩
  isplitl [HS HR]
  · isplitl [HS]
    · iexists _; iexact HS
    iexact HR
  iexact Hg

end Region0

end Cert.KernelIdeal.Hand

end
-- ==== Proof.R1.lean ====
/-
  The second kernel (row blocks of 200 nodes, 50 grid points) as a pipeline region entered with the buffers at any
  contents V: what each window's staging buffer holds at a grid point. The six input windows hold their blocks of the
  arrays as the region finds them; the output window's buffer holds, after the body, the body's one store: the row
  block's softmax (adj · s2) + (q + a · (k - q)) · g computed from the input blocks. The body reads nothing it did
  not load and keeps nothing between points, so the region's invariant is the untouched rest.
-/
import proofs.«156757_g65309272703512_cont_9to1c4b_471_27_alg».proof.Proof.Gen.KernelIdeal.Launch
import proofs.«156757_g65309272703512_cont_9to1c4b_471_27_alg».proof.Proof.Gen.KernelIdeal.Skeleton
import proofs.«156757_g65309272703512_cont_9to1c4b_471_27_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rb1x1 : Rect S1x1 := Rect.unit (s := S1x1) ![0, 0] S1x1.size inb_S1x1_S1x1_0_0
abbrev rb200x10000 : Rect S200x10000 := Rect.unit (s := S200x10000) ![0, 0] S200x10000.size inb_S200x10000_S200x10000_0_0
abbrev rb10000x64 : Rect S10000x64 := Rect.unit (s := S10000x64) ![0, 0] S10000x64.size inb_S10000x64_S10000x64_0_0
abbrev rb200x64 : Rect S200x64 := Rect.unit (s := S200x64) ![0, 0] S200x64.size inb_S200x64_S200x64_0_0

/-- The output window's staging buffer after the body, from the input windows' blocks (α, adj, k, q, s2, g in window
    order): the body's one store. -/
def out1_6 (x0 : Vec F S1x1 .f32) (x1 x2 x3 : Vec F S200x10000 .f32) (x4 x5 : Vec F S10000x64 .bf16) : Vec F S200x64 .f32 :=
  View.canon [⟨rb200x64, k1_pay1 (View.ld x0 rb1x1) (View.ld x1 rb200x10000) (View.ld x4 rb10000x64) (View.ld x3 rb200x10000) (View.ld x2 rb200x10000) (View.ld x5 rb10000x64)⟩]

/-- The store covers the buffer. -/
theorem cover1_6 (p0 : Vec F S200x64 .f32) (y : S200x64.Idx) :
    ∃ pc ∈ ([⟨rb200x64, p0⟩] : List (View.Piece (Elt F) S200x64 .f32)), y ∈ pc.1.set :=
  View.cover_of_tiled [⟨rb200x64, p0⟩] S200x64.size (by rfl) y

set_option maxHeartbeats 2000000 in
/-- The body on whole staging memrefs, the inputs' at contents x0 … x5 and the output's at anything, runs to the
    continuation holding the inputs' as they were and the output's at out1_6 of them. -/
theorem sound_kernel1 (c : Dev nD) (E : Set ℕ) (i : grid1.Coords)
    (arg1 : Memref sig .tc .vmem S1x1 .f32) (harg1 : arg1.IsWhole) (arg2 : Memref sig .tc .vmem S200x10000 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S10000x64 .bf16) (harg5 : arg5.IsWhole) (arg6 : Memref sig .tc .vmem S10000x64 .bf16) (harg6 : arg6.IsWhole)
    (arg7 : Memref sig .tc .vmem S200x64 .f32) (harg7 : arg7.IsWhole)
    (x0 : Vec F S1x1 .f32) (x1 x2 x3 : Vec F S200x10000 .f32) (x4 x5 : Vec F S10000x64 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__emb_kernel i arg1 harg1 arg2 harg2 arg3 harg3 arg4 harg4 arg5 harg5 arg6 harg6 arg7 harg7) K := by
  simp only [cc1__emb_kernel_eq_skeleton]; unfold cc1__emb_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The region's proof data on core c: the arrays as the region finds them; after the body at point t each input's
    buffer at its block and the output's at out1_6 of the input blocks; the invariant the untouched rest; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
/-- The body at any point: the inputs' memrefs hold their blocks, so sound_kernel1 applies; the invariant and the
    core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Run.lean ====
/-
  The whole program as a run: the host's two reshapes, the first kernel's region, the second kernel's region. The
  buffers' contents at each boundary are a fold from the launch memory: after the reshapes; after the first region, its
  arrays at what its write-backs leave; after the second likewise. Every weakly fair execution ends with every unscoped
  buffer at the last fold's contents.
-/
import proofs.«156757_g65309272703512_cont_9to1c4b_471_27_alg».proof.Proof.R0
import proofs.«156757_g65309272703512_cont_9to1c4b_471_27_alg».proof.Proof.R1
import Idealize.ShloMosaic.Lib.Pipeline.Kit
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host's reshapes (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- The first region over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm 0).1
          ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h1.trans (hin0 (V1 m ρ) c)
  hout c := by
    rw [Pipeline.ownSems0_none]
    have h2 : (Pipeline.ΦA spec0 c : sProp 𝕄)
        ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (V1 m ρ) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at W2, left at W3. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
/-- The program is the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state has each unscoped buffer at the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.Hand

end
-- ==== Proof.Frames.lean ====
/-
  The argument arrays end as launched: no reshape and no region writes one (a region reads an argument through an input
  window, whose array the write-backs never touch, or passes it by), so the fold of the buffers' contents at an
  argument walks back to the launch memory. With the run, this is the frame of the program at any float instance.
-/
import proofs.«156757_g65309272703512_cont_9to1c4b_471_27_alg».proof.Proof.Run
import proofs.«156757_g65309272703512_cont_9to1c4b_471_27_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reshapes write only their own results. -/
theorem W1_arg (c : Dev nD) (b : Ref sig .tc) (h : b ∉ Gen.hostOps0_W) :
    W1 m ρ c (Proc.devRef .tc b) = m ((c : Thread nD τ).loc b) := Gen.V1_of m c b h
theorem W2_main_arg0 (c : Dev nD) : W2 m ρ c (Proc.devRef .tc main_arg0) = m ((c : Thread nD τ).loc main_arg0) :=
  ((W2_arr m ρ c 1).trans (((dat0 (V1 m ρ) c).arrAt_in 1 rfl _).trans (A_eq0 (V1 m ρ) c 1))).trans (W1_arg m ρ c main_arg0 (by decide))
theorem W3_main_arg0 (c : Dev nD) : W3 m ρ c (Proc.devRef .tc main_arg0) = m ((c : Thread nD τ).loc main_arg0) :=
  (W3_of_ne m ρ c main_arg0 (by decide)).trans (W2_main_arg0 m ρ c)
theorem W2_main_arg1 (c : Dev nD) : W2 m ρ c (Proc.devRef .tc main_arg1) = m ((c : Thread nD τ).loc main_arg1) :=
  ((W2_arr m ρ c 0).trans (((dat0 (V1 m ρ) c).arrAt_in 0 rfl _).trans (A_eq0 (V1 m ρ) c 0))).trans (W1_arg m ρ c main_arg1 (by decide))
theorem W3_main_arg1 (c : Dev nD) : W3 m ρ c (Proc.devRef .tc main_arg1) = m ((c : Thread nD τ).loc main_arg1) :=
  ((W3_arr m ρ c 1).trans (((dat1 (V2 m ρ) c).arrAt_in 1 rfl _).trans (A_eq1 (V2 m ρ) c 1))).trans (W2_main_arg1 m ρ c)
theorem W2_main_arg2 (c : Dev nD) : W2 m ρ c (Proc.devRef .tc main_arg2) = m ((c : Thread nD τ).loc main_arg2) :=
  (W2_of_ne m ρ c main_arg2 (by decide)).trans (W1_arg m ρ c main_arg2 (by decide))
theorem W3_main_arg2 (c : Dev nD) : W3 m ρ c (Proc.devRef .tc main_arg2) = m ((c : Thread nD τ).loc main_arg2) :=
  ((W3_arr m ρ c 3).trans (((dat1 (V2 m ρ) c).arrAt_in 3 rfl _).trans (A_eq1 (V2 m ρ) c 3))).trans (W2_main_arg2 m ρ c)
theorem W2_main_arg3 (c : Dev nD) : W2 m ρ c (Proc.devRef .tc main_arg3) = m ((c : Thread nD τ).loc main_arg3) :=
  (W2_of_ne m ρ c main_arg3 (by decide)).trans (W1_arg m ρ c main_arg3 (by decide))
theorem W3_main_arg3 (c : Dev nD) : W3 m ρ c (Proc.devRef .tc main_arg3) = m ((c : Thread nD τ).loc main_arg3) :=
  ((W3_arr m ρ c 2).trans (((dat1 (V2 m ρ) c).arrAt_in 2 rfl _).trans (A_eq1 (V2 m ρ) c 2))).trans (W2_main_arg3 m ρ c)
theorem W2_main_arg4 (c : Dev nD) : W2 m ρ c (Proc.devRef .tc main_arg4) = m ((c : Thread nD τ).loc main_arg4) :=
  ((W2_arr m ρ c 2).trans (((dat0 (V1 m ρ) c).arrAt_in 2 rfl _).trans (A_eq0 (V1 m ρ) c 2))).trans (W1_arg m ρ c main_arg4 (by decide))
theorem W3_main_arg4 (c : Dev nD) : W3 m ρ c (Proc.devRef .tc main_arg4) = m ((c : Thread nD τ).loc main_arg4) :=
  (W3_of_ne m ρ c main_arg4 (by decide)).trans (W2_main_arg4 m ρ c)
theorem W2_main_arg5 (c : Dev nD) : W2 m ρ c (Proc.devRef .tc main_arg5) = m ((c : Thread nD τ).loc main_arg5) :=
  ((W2_arr m ρ c 3).trans (((dat0 (V1 m ρ) c).arrAt_in 3 rfl _).trans (A_eq0 (V1 m ρ) c 3))).trans (W1_arg m ρ c main_arg5 (by decide))
theorem W3_main_arg5 (c : Dev nD) : W3 m ρ c (Proc.devRef .tc main_arg5) = m ((c : Thread nD τ).loc main_arg5) :=
  (W3_of_ne m ρ c main_arg5 (by decide)).trans (W2_main_arg5 m ρ c)
theorem W2_main_arg6 (c : Dev nD) : W2 m ρ c (Proc.devRef .tc main_arg6) = m ((c : Thread nD τ).loc main_arg6) :=
  ((W2_arr m ρ c 4).trans (((dat0 (V1 m ρ) c).arrAt_in 4 rfl _).trans (A_eq0 (V1 m ρ) c 4))).trans (W1_arg m ρ c main_arg6 (by decide))
theorem W3_main_arg6 (c : Dev nD) : W3 m ρ c (Proc.devRef .tc main_arg6) = m ((c : Thread nD τ).loc main_arg6) :=
  (W3_of_ne m ρ c main_arg6 (by decide)).trans (W2_main_arg6 m ρ c)
theorem W2_main_arg7 (c : Dev nD) : W2 m ρ c (Proc.devRef .tc main_arg7) = m ((c : Thread nD τ).loc main_arg7) :=
  (W2_of_ne m ρ c main_arg7 (by decide)).trans (W1_arg m ρ c main_arg7 (by decide))
theorem W3_main_arg7 (c : Dev nD) : W3 m ρ c (Proc.devRef .tc main_arg7) = m ((c : Thread nD τ).loc main_arg7) :=
  (W3_of_ne m ρ c main_arg7 (by decide)).trans (W2_main_arg7 m ρ c)
theorem W2_main_arg8 (c : Dev nD) : W2 m ρ c (Proc.devRef .tc main_arg8) = m ((c : Thread nD τ).loc main_arg8) :=
  ((W2_arr m ρ c 6).trans (((dat0 (V1 m ρ) c).arrAt_in 6 rfl _).trans (A_eq0 (V1 m ρ) c 6))).trans (W1_arg m ρ c main_arg8 (by decide))
theorem W3_main_arg8 (c : Dev nD) : W3 m ρ c (Proc.devRef .tc main_arg8) = m ((c : Thread nD τ).loc main_arg8) :=
  (W3_of_ne m ρ c main_arg8 (by decide)).trans (W2_main_arg8 m ρ c)
theorem W2_main_arg9 (c : Dev nD) : W2 m ρ c (Proc.devRef .tc main_arg9) = m ((c : Thread nD τ).loc main_arg9) :=
  (W2_of_ne m ρ c main_arg9 (by decide)).trans (W1_arg m ρ c main_arg9 (by decide))
theorem W3_main_arg9 (c : Dev nD) : W3 m ρ c (Proc.devRef .tc main_arg9) = m ((c : Thread nD τ).loc main_arg9) :=
  (W3_of_ne m ρ c main_arg9 (by decide)).trans (W2_main_arg9 m ρ c)

/-- The frame: every weakly fair execution terminates, nothing faulting, with the ten argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c)⟩) (run_all m ρ)

end Cert.KernelIdeal.Hand

end
-- ==== Proof.KR0.lean ====
/-
  The first kernel (row blocks of 400 nodes, 25 grid points) as a pipeline region entered with the buffers at any
  contents V. At the first point the body fills a scratch buffer with x · W1 and the resident output window with the gate
  softmax (x · linW + b) · Wg; at every point it stores the row block's (adj · scratch)⁺ · W2 into the other output
  window. So the region's invariant carries the scratch: before the first point at anything, afterwards at x · W1; and the
  gate's window, stored at the first point only and written back after the last, holds the gate from the first point on.
-/
import proofs.«156757_g65309272703512_cont_9to1c4b_471_27_alg».proof.Proof.Gen.Kernel.Launch
import proofs.«156757_g65309272703512_cont_9to1c4b_471_27_alg».proof.Proof.Gen.Kernel.Skeleton
import proofs.«156757_g65309272703512_cont_9to1c4b_471_27_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev t0 : Fin cfg0.N := ⟨0, by decide⟩

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev ra400x10000 : Rect S400x10000 := Rect.unit (s := S400x10000) ![0, 0] S400x10000.size inb_S400x10000_S400x10000_0_0
abbrev ra10000x128 : Rect S10000x128 := Rect.unit (s := S10000x128) ![0, 0] S10000x128.size inb_S10000x128_S10000x128_0_0
abbrev ra128x128 : Rect S128x128 := Rect.unit (s := S128x128) ![0, 0] S128x128.size inb_S128x128_S128x128_0_0
abbrev ra128x64 : Rect S128x64 := Rect.unit (s := S128x64) ![0, 0] S128x64.size inb_S128x64_S128x64_0_0
abbrev ra1x64 : Rect S1x64 := Rect.unit (s := S1x64) ![0, 0] S1x64.size inb_S1x64_S1x64_0_0
abbrev ra64x64 : Rect S64x64 := Rect.unit (s := S64x64) ![0, 0] S64x64.size inb_S64x64_S64x64_0_0
abbrev ra400x64 : Rect S400x64 := Rect.unit (s := S400x64) ![0, 0] S400x64.size inb_S400x64_S400x64_0_0
abbrev ra10000x64 : Rect S10000x64 := Rect.unit (s := S10000x64) ![0, 0] S10000x64.size inb_S10000x64_S10000x64_0_0

/-- The scratch after the first point's store, from the blocks of x and W1: x · W1. -/
def scr0 (x : Vec F S10000x128 .f32) (w1 : Vec F S128x128 .f32) : Vec F S10000x128 .bf16 :=
  View.canon [⟨ra10000x128, k0_pay2 (View.ld x ra10000x128) (View.ld w1 ra128x128)⟩]

/-- The gate's window after the first point's store, from the blocks of x, linW, b, Wg. -/
def out0_8 (x : Vec F S10000x128 .f32) (lw : Vec F S128x64 .f32) (b : Vec F S1x64 .f32) (wg : Vec F S64x64 .f32) : Vec F S10000x64 .bf16 :=
  View.canon [⟨ra10000x64, k0_pay3 (View.ld x ra10000x128) (View.ld lw ra128x64) (View.ld b ra1x64) (View.ld wg ra64x64)⟩]

/-- The support's window after the body at any point, from the adjacency row block, the scratch's contents and W2. -/
def out0_7 (a : Vec F S400x10000 .f32) (s : Vec F S10000x128 .bf16) (w2 : Vec F S128x64 .f32) : Vec F S400x64 .bf16 :=
  View.canon [⟨ra400x64, k0_pay4 (View.ld a ra400x10000) (View.ld s ra10000x128) (View.ld w2 ra128x64)⟩]

/-- The scratch's contents from the first point on: x · W1 of the whole arrays' blocks. -/
def scrOf (c : Dev nD) : Vec F S10000x128 .bf16 := scr0 (iblk0 V c 1 t0) (iblk0 V c 2 t0)

/-- The gate window's contents from the first point on. -/
def gateOf (c : Dev nD) : Vec F S10000x64 .bf16 := out0_8 (iblk0 V c 1 t0) (iblk0 V c 4 t0) (iblk0 V c 5 t0) (iblk0 V c 6 t0)

/-- The scratch operand as a memref. -/
abbrev scM : Memref sig .tc .vmem S10000x128 .bf16 := Memref.whole cc0_scratch0

/-- The scoped buffers that are neither a staging buffer of this region nor its scratch, each at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The region's invariant before position n: before the first point the scratch at anything; afterwards at x · W1;
    beside the untouched rest and the generator register at some state. -/
def PhiS0 (c : Dev nD) : ℕ → sProp 𝕄
  | 0 => Pipeline.ΦA spec0 c
  | _ + 1 => iprop((owns (c : Thread nD τ) scM fullShare (scrOf V c) ∗ restS (F := F) c) ∗ (∃ r, prngReg c r))

/-- The untouched-rest invariant with the scratch named. -/
theorem PhiA0_eq (c : Dev nD) :
    (Pipeline.ΦA spec0 c : sProp 𝕄) = iprop(((∃ d, owns (c : Thread nD τ) scM fullShare d) ∗ restS (F := F) c) ∗ (∃ r, prngReg c r)) := by
  unfold Pipeline.ΦA restS; rw [scopedRest0_eq]; simp only [scM, owns_whole]; rfl

/-- The region's proof data on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (scrOf V c) (iblk0 V c 3 t)
    | ⟨8, _⟩ => gateOf V c
  Φ t := PhiS0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (scrOf V c) (iblk0 V c 3 t) := by dsimp only [dat0]
theorem after0_8 (c : Dev nD) (t : Fin cfg0.N) : (dat0 V c).after 8 t = gateOf V c := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- Each store covers its buffer. -/
theorem cover0_7 (p0 : Vec F S400x64 .bf16) (y : S400x64.Idx) :
    ∃ pc ∈ ([⟨ra400x64, p0⟩] : List (View.Piece (Elt F) S400x64 .bf16)), y ∈ pc.1.set :=
  View.cover_of_tiled [⟨ra400x64, p0⟩] S400x64.size (by rfl) y
theorem cover0_8 (p0 : Vec F S10000x64 .bf16) (y : S10000x64.Idx) :
    ∃ pc ∈ ([⟨ra10000x64, p0⟩] : List (View.Piece (Elt F) S10000x64 .bf16)), y ∈ pc.1.set :=
  View.cover_of_tiled [⟨ra10000x64, p0⟩] S10000x64.size (by rfl) y
theorem cover0_s (p0 : Vec F S10000x128 .bf16) (y : S10000x128.Idx) :
    ∃ pc ∈ ([⟨ra10000x128, p0⟩] : List (View.Piece (Elt F) S10000x128 .bf16)), y ∈ pc.1.set :=
  View.cover_of_tiled [⟨ra10000x128, p0⟩] S10000x128.size (by rfl) y

set_option maxHeartbeats 4000000 in
/-- The body at the first point, on whole staging memrefs: the inputs' at contents x0 … x6, the two outputs' and the
    scratch at anything. It fills the scratch with x · W1 and the gate's buffer with the gate, then reads the scratch
    back for the support's block: it runs to the continuation holding the inputs' as they were, the support's buffer
    at out0_7 over the filled scratch, the gate's at out0_8 and the scratch at scr0. -/
theorem sound_kernel0_first (c : Dev nD) (E : Set ℕ) (i : grid0.Coords) (hc : k0_cond1 i = 1#1)
    (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S400x64 .bf16) (harg8 : arg8.IsWhole) (arg9 : Memref sig .tc .vmem S10000x64 .bf16) (harg9 : arg9.IsWhole) (arg10 : Memref sig .tc .vmem S10000x128 .bf16) (harg10 : arg10.IsWhole)
    (x0 : Vec F S400x10000 .f32) (x1 : Vec F S10000x128 .f32) (x2 : Vec F S128x128 .f32) (x3 : Vec F S128x64 .f32) (x4 : Vec F S128x64 .f32) (x5 : Vec F S1x64 .f32) (x6 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 (scr0 x1 x2) x3) ∗ owns (c : Thread nD τ) arg9 fullShare (out0_8 x1 x4 x5 x6) ∗ owns (c : Thread nD τ) arg10 fullShare (scr0 x1 x2)) -∗ K ⟨⟩))
      ⊢ wp frame (wpE (defs₀ (F := F)) Variants.none c none) E (cc0__gc_kernel i arg1 harg1 arg2 harg2 arg3 harg3 arg4 harg4 arg5 harg5 arg6 harg6 arg7 harg7 arg8 harg8 arg9 harg9 arg10 harg10) K := by
  simp only [cc0__gc_kernel_eq_skeleton]; unfold cc0__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec (disch := exact hc)
  -- the scratch read back after its store is the stored product
  have hv5 : sound_kernel0_first.sl.v5 c arg2 arg3 arg10 f1 f2
      = View.ld (scr0 (View.read (Elt F) arg2.view f1) (View.read (Elt F) arg3.view f2)) ra10000x128 := by
    unfold sound_kernel0_first.sl.v5 sound_kernel0_first.sl.H9_1
    exact View.readCov_eq_canon_ld _ _ _ (cover0_s _)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover0_7 _)).trans ?_
    rw [hv5]; rfl
  isplitl [H8]
  · iexists _; isplitr
    swap; · iexact H8
    ipureintro
    exact View.read_writes_eq_canon _ _ _ (cover0_8 _)
  iexists _; isplitr
  swap; · iexact H9
  ipureintro
  unfold sound_kernel0_first.sl.H9_1
  exact View.read_writes_eq_canon _ _ _ (cover0_s _)

set_option maxHeartbeats 4000000 in
/-- The body at a later point: the inputs' memrefs at x0 … x6, the support's buffer at anything, the gate's at
    contents g it does not touch, the scratch at s. It runs to the continuation holding all of them as they were but
    the support's buffer, at out0_7 over s. -/
theorem sound_kernel0_rest (c : Dev nD) (E : Set ℕ) (i : grid0.Coords) (hc : ¬ k0_cond1 i = 1#1)
    (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S400x64 .bf16) (harg8 : arg8.IsWhole) (arg9 : Memref sig .tc .vmem S10000x64 .bf16) (harg9 : arg9.IsWhole) (arg10 : Memref sig .tc .vmem S10000x128 .bf16) (harg10 : arg10.IsWhole)
    (x0 : Vec F S400x10000 .f32) (x1 : Vec F S10000x128 .f32) (x2 : Vec F S128x128 .f32) (x3 : Vec F S128x64 .f32) (x4 : Vec F S128x64 .f32) (x5 : Vec F S1x64 .f32) (x6 : Vec F S64x64 .f32) (g : Vec F S10000x64 .bf16) (s : Vec F S10000x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare g ∗ owns (c : Thread nD τ) arg10 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 s x3) ∗ owns (c : Thread nD τ) arg9 fullShare g ∗ owns (c : Thread nD τ) arg10 fullShare s) -∗ K ⟨⟩))
      ⊢ wp frame (wpE (defs₀ (F := F)) Variants.none c none) E (cc0__gc_kernel i arg1 harg1 arg2 harg2 arg3 harg3 arg4 harg4 arg5 harg5 arg6 harg6 arg7 harg7 arg8 harg8 arg9 harg9 arg10 harg10) K := by
  simp only [cc0__gc_kernel_eq_skeleton]; unfold cc0__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf0; subst hf1; subst hf2; subst hf3; subst hf4; subst hf5; subst hf6; subst hf8; subst hf9
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists f8; isplitr; · ipureintro; rfl
    iexact H8
  iexists f9; isplitr; · ipureintro; rfl
  iexact H9

/-! ## The schedule of the gate's window, decided over the grid -/

/-- The gate's window is an output: never fetched. -/
theorem nofetch0_8 : ∀ t : Fin cfg0.N, (cfg0.win 8).fetch t = false :=
  (by decide +kernel : ∀ t : Fin grid0.N, win0_8.fetch t = false)
/-- The body's condition holds at the first point only. -/
theorem hcond0 : ∀ t : Fin cfg0.N, k0_cond1 (grid0.coords t) = 1#1 ↔ t.val = 0 :=
  (by decide +kernel : ∀ t : Fin grid0.N, k0_cond1 (grid0.coords t) = 1#1 ↔ t.val = 0)
/-- The gate's window is live at the first point and idle at the others; the support's window is never idle. -/
theorem live0_8 : ∀ t : Fin cfg0.N, t.val = 0 → cfg0.idle 8 (grid0.coords t) = false := by decide +kernel
theorem idle0_8 : ∀ t : Fin cfg0.N, t.val ≠ 0 → cfg0.idle 8 (grid0.coords t) = true := by decide +kernel
theorem live0_7 : ∀ t : Fin cfg0.N, cfg0.idle 7 (grid0.coords t) = false := by decide +kernel

/-- From the second point on the gate's staging buffer holds the gate: stored at the first point, the window idle
    afterwards and not written back before the last point. -/
theorem before0_8 (c : Dev nD) (t : Fin cfg0.N) (ht : t.val ≠ 0) (d) : (dat0 V c).before 8 t d = gateOf V c := by
  obtain ⟨n, hn⟩ := t
  induction n with
  | zero => exact absurd rfl ht
  | succ n ih =>
    have hN : n + 1 < 25 := lt_of_lt_of_eq hn (show cfg0.N = 25 from N_0)
    have key := Dat.before_of_pos (dat0 V c) 8 ⟨n + 1, hn⟩ (Nat.succ_ne_zero n) (nofetch0_8 _) d
    simp only [Nat.add_sub_cancel] at key
    have hfl : (cfg0.win 8).flush ⟨n, Nat.lt_of_succ_lt hn⟩ = false := by
      rw [← Bool.not_eq_true]; intro h
      have h' := (flush0_8 _).mp h
      dsimp only at h'; omega
    rw [hfl, if_neg Bool.false_ne_true] at key
    rw [key]
    unfold Dat.left
    by_cases hz : n = 0
    · subst hz
      rw [live0_8 ⟨0, Nat.lt_of_succ_lt hn⟩ rfl]
      show Dat.kept (dat0 V c) 8 ⟨0, Nat.lt_of_succ_lt hn⟩ d = gateOf V c
      unfold Dat.kept
      rw [Pipeline.fill_of_clip_none 8 _ (fun _ => rfl) d ((dat0 V c).after 8 _), Pipeline.Window.fill_cut]
      exact after0_8 V c _
    · rw [idle0_8 ⟨n, Nat.lt_of_succ_lt hn⟩ hz]
      exact ih (Nat.lt_of_succ_lt hn) hz

/-- The invariant from the second position on. -/
theorem PhiS0_pos (c : Dev nD) (n : ℕ) (hn : n ≠ 0) :
    PhiS0 V c n = iprop((owns (c : Thread nD τ) scM fullShare (scrOf V c) ∗ restS (F := F) c) ∗ (∃ r, prngReg c r)) := by
  cases n with
  | zero => exact absurd rfl hn
  | succ n => rfl

/-- At a point after the first the gate's buffer, holding the gate, is what the obligation asks of it: handed back as
    found where the window is idle and not written back, and at the last point, which writes it back, the gate. -/
theorem leaves0_8_of_pos (c : Dev nD) (t : Fin cfg0.N) (hz : t.val ≠ 0) :
    owns (c : Thread nD τ) (st0_8 t) fullShare (gateOf V c) ⊢ (dat0 V c).leavesExact 8 t := by
  have hN : t.val < 25 := lt_of_lt_of_eq t.isLt (show cfg0.N = 25 from N_0)
  by_cases h24 : t.val = 24
  · rw [show (dat0 V c).leavesExact 8 t = owns (c : Thread nD τ) (st0_8 t) fullShare ((dat0 V c).after 8 t) from by
      unfold Dat.leavesExact; rw [idle0_8 t hz, (flush0_8 t).mpr (by omega)], after0_8]
  · have hf : (cfg0.win 8).flush t = false := by
      rw [← Bool.not_eq_true]; intro h
      have h' := (flush0_8 t).mp h
      omega
    rw [Dat.leavesExact_idle (dat0 V c) 8 t (idle0_8 t hz) hf]
    simp only [before0_8 V c t hz]
    iintro H
    iexists (gateOf V c)
    iexact H

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ (dat0 V c).leavesExact 7 t
    ∗ (dat0 V c).leavesExact 8 t)

set_option maxHeartbeats 4000000 in
/-- The body at any point. At the first the invariant hands it the scratch at anything and takes it back at x · W1,
    and the gate's window, live there, is left at the gate. At a later point the invariant hands it the scratch at
    x · W1 and takes it back unchanged, and the gate's buffer, found at the gate, is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6]
  rw [show (dat0 V c).leavesExact 7 t = owns (c : Thread nD τ) (st0_7 t) fullShare ((dat0 V c).after 7 t) from by
    unfold Dat.leavesExact; rw [live0_7 t], after0_7]
  rw [show (dat0 V c).Φ t.succ = PhiS0 V c (t.val + 1) from rfl, PhiS0_pos V c (t.val + 1) (Nat.succ_ne_zero _),
    show (dat0 V c).Φ t.castSucc = PhiS0 V c t.val from rfl]
  by_cases hz : t.val = 0
  · have hc : k0_cond1 (grid0.coords t) = 1#1 := (hcond0 t).mpr hz
    rw [show (dat0 V c).leavesExact 8 t = owns (c : Thread nD τ) (st0_8 t) fullShare ((dat0 V c).after 8 t) from by
      unfold Dat.leavesExact; rw [live0_8 t hz], after0_8]
    rw [show PhiS0 V c t.val = Pipeline.ΦA spec0 c from by rw [hz]; rfl, PhiA0_eq]
    obtain rfl : t = t0 := Fin.ext hz
    unfold scrOf gateOf
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_first c Set.univ _ hc _ _ _ _ _ _ _ _ _ _ _ _ _ _ _ _ _ _ _ _ (iblk0 V c 0 t0) (iblk0 V c 1 t0) (iblk0 V c 2 t0) (iblk0 V c 3 t0) (iblk0 V c 4 t0) (iblk0 V c 5 t0) (iblk0 V c 6 t0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexists _; iexact HS
    iintro ⟨H0, H1, H2, H3, H4, H5, H6, H7, H8, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc : ¬ k0_cond1 (grid0.coords t) = 1#1 := fun h => hz ((hcond0 t).mp h)
    rw [PhiS0_pos V c t.val hz]
    simp only [before0_8 V c t hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_rest c Set.univ _ hc _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (gateOf V c) (scrOf V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexact HS
    iintro ⟨H0, H1, H2, H3, H4, H5, H6, H7, H8, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (leaves0_8_of_pos V c t hz)
    iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = Pipeline.ΦA spec0 c from rfl]
  try exact Idealize.SL.BI.Entails.refl _

/-- After the last point the invariant gives the untouched rest back: the scratch's contents are forgotten. -/
theorem hout0 (c : Dev nD) : (dat0 V c).Φ (Fin.last cfg0.N) ⊢ Pipeline.ΦA spec0 c := by
  rw [show (dat0 V c).Φ (Fin.last cfg0.N) = PhiS0 V c cfg0.N from rfl,
    PhiS0_pos V c cfg0.N (by have : cfg0.N = 25 := N_0; omega), PhiA0_eq]
  iintro ⟨⟨HS, HR⟩, Hg⟩
  isplitl [HS HR]
  · isplitl [HS]
    · iexists _; iexact HS
    iexact HR
  iexact Hg

end Region0

end Cert.Kernel.Hand

end
-- ==== Proof.KR1.lean ====
/-
  The second kernel (row blocks of 200 nodes, 50 grid points) as a pipeline region entered with the buffers at any
  contents V: what each window's staging buffer holds at a grid point. The six input windows hold their blocks of the
  arrays as the region finds them; the output window's buffer holds, after the body, the body's one store: the row
  block's softmax (adj · s2) + (q + a · (k - q)) · g computed from the input blocks. The body reads nothing it did
  not load and keeps nothing between points, so the region's invariant is the untouched rest.
-/
import proofs.«156757_g65309272703512_cont_9to1c4b_471_27_alg».proof.Proof.Gen.Kernel.Launch
import proofs.«156757_g65309272703512_cont_9to1c4b_471_27_alg».proof.Proof.Gen.Kernel.Skeleton
import proofs.«156757_g65309272703512_cont_9to1c4b_471_27_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rb1x1 : Rect S1x1 := Rect.unit (s := S1x1) ![0, 0] S1x1.size inb_S1x1_S1x1_0_0
abbrev rb200x10000 : Rect S200x10000 := Rect.unit (s := S200x10000) ![0, 0] S200x10000.size inb_S200x10000_S200x10000_0_0
abbrev rb10000x64 : Rect S10000x64 := Rect.unit (s := S10000x64) ![0, 0] S10000x64.size inb_S10000x64_S10000x64_0_0
abbrev rb200x64 : Rect S200x64 := Rect.unit (s := S200x64) ![0, 0] S200x64.size inb_S200x64_S200x64_0_0

/-- The output window's staging buffer after the body, from the input windows' blocks (α, adj, k, q, s2, g in window
    order): the body's one store. -/
def out1_6 (x0 : Vec F S1x1 .f32) (x1 x2 x3 : Vec F S200x10000 .f32) (x4 x5 : Vec F S10000x64 .bf16) : Vec F S200x64 .f32 :=
  View.canon [⟨rb200x64, k1_pay1 (View.ld x0 rb1x1) (View.ld x1 rb200x10000) (View.ld x4 rb10000x64) (View.ld x3 rb200x10000) (View.ld x2 rb200x10000) (View.ld x5 rb10000x64)⟩]

/-- The store covers the buffer. -/
theorem cover1_6 (p0 : Vec F S200x64 .f32) (y : S200x64.Idx) :
    ∃ pc ∈ ([⟨rb200x64, p0⟩] : List (View.Piece (Elt F) S200x64 .f32)), y ∈ pc.1.set :=
  View.cover_of_tiled [⟨rb200x64, p0⟩] S200x64.size (by rfl) y

set_option maxHeartbeats 2000000 in
/-- The body on whole staging memrefs, the inputs' at contents x0 … x5 and the output's at anything, runs to the
    continuation holding the inputs' as they were and the output's at out1_6 of them. -/
theorem sound_kernel1 (c : Dev nD) (E : Set ℕ) (i : grid1.Coords)
    (arg1 : Memref sig .tc .vmem S1x1 .f32) (harg1 : arg1.IsWhole) (arg2 : Memref sig .tc .vmem S200x10000 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S10000x64 .bf16) (harg5 : arg5.IsWhole) (arg6 : Memref sig .tc .vmem S10000x64 .bf16) (harg6 : arg6.IsWhole)
    (arg7 : Memref sig .tc .vmem S200x64 .f32) (harg7 : arg7.IsWhole)
    (x0 : Vec F S1x1 .f32) (x1 x2 x3 : Vec F S200x10000 .f32) (x4 x5 : Vec F S10000x64 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__emb_kernel i arg1 harg1 arg2 harg2 arg3 harg3 arg4 harg4 arg5 harg5 arg6 harg6 arg7 harg7) K := by
  simp only [cc1__emb_kernel_eq_skeleton]; unfold cc1__emb_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The region's proof data on core c: the arrays as the region finds them; after the body at point t each input's
    buffer at its block and the output's at out1_6 of the input blocks; the invariant the untouched rest; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
/-- The body at any point: the inputs' memrefs hold their blocks, so sound_kernel1 applies; the invariant and the
    core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
/-
  The whole program as a run: the host's two reshapes, the first kernel's region, the second kernel's region. The
  buffers' contents at each boundary are a fold from the launch memory: after the reshapes; after the first region, its
  arrays at what its write-backs leave; after the second likewise. Every weakly fair execution ends with every unscoped
  buffer at the last fold's contents.
-/
import proofs.«156757_g65309272703512_cont_9to1c4b_471_27_alg».proof.Proof.KR0
import proofs.«156757_g65309272703512_cont_9to1c4b_471_27_alg».proof.Proof.KR1
import Idealize.ShloMosaic.Lib.Pipeline.Kit
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host's reshapes (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- The first region over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm 0).1
          ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h1.trans (hin0 (V1 m ρ) c)
  hout c := by
    rw [Pipeline.ownSems0_none]
    have h2 : (Pipeline.ΦA spec0 c : sProp 𝕄)
        ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (V1 m ρ) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at W2, left at W3. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
/-- The program is the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state has each unscoped buffer at the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.Kernel.Hand

end
-- ==== Proof.KFrames.lean ====
/-
  The argument arrays end as launched: no reshape and no region writes one (a region reads an argument through an input
  window, whose array the write-backs never touch, or passes it by), so the fold of the buffers' contents at an
  argument walks back to the launch memory. With the run, this is the frame of the program at any float instance.
-/
import proofs.«156757_g65309272703512_cont_9to1c4b_471_27_alg».proof.Proof.KRun
import proofs.«156757_g65309272703512_cont_9to1c4b_471_27_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reshapes write only their own results. -/
theorem W1_arg (c : Dev nD) (b : Ref sig .tc) (h : b ∉ Gen.hostOps0_W) :
    W1 m ρ c (Proc.devRef .tc b) = m ((c : Thread nD τ).loc b) := Gen.V1_of m c b h
theorem W2_main_arg0 (c : Dev nD) : W2 m ρ c (Proc.devRef .tc main_arg0) = m ((c : Thread nD τ).loc main_arg0) :=
  ((W2_arr m ρ c 1).trans (((dat0 (V1 m ρ) c).arrAt_in 1 rfl _).trans (A_eq0 (V1 m ρ) c 1))).trans (W1_arg m ρ c main_arg0 (by decide))
theorem W3_main_arg0 (c : Dev nD) : W3 m ρ c (Proc.devRef .tc main_arg0) = m ((c : Thread nD τ).loc main_arg0) :=
  (W3_of_ne m ρ c main_arg0 (by decide)).trans (W2_main_arg0 m ρ c)
theorem W2_main_arg1 (c : Dev nD) : W2 m ρ c (Proc.devRef .tc main_arg1) = m ((c : Thread nD τ).loc main_arg1) :=
  ((W2_arr m ρ c 0).trans (((dat0 (V1 m ρ) c).arrAt_in 0 rfl _).trans (A_eq0 (V1 m ρ) c 0))).trans (W1_arg m ρ c main_arg1 (by decide))
theorem W3_main_arg1 (c : Dev nD) : W3 m ρ c (Proc.devRef .tc main_arg1) = m ((c : Thread nD τ).loc main_arg1) :=
  ((W3_arr m ρ c 1).trans (((dat1 (V2 m ρ) c).arrAt_in 1 rfl _).trans (A_eq1 (V2 m ρ) c 1))).trans (W2_main_arg1 m ρ c)
theorem W2_main_arg2 (c : Dev nD) : W2 m ρ c (Proc.devRef .tc main_arg2) = m ((c : Thread nD τ).loc main_arg2) :=
  (W2_of_ne m ρ c main_arg2 (by decide)).trans (W1_arg m ρ c main_arg2 (by decide))
theorem W3_main_arg2 (c : Dev nD) : W3 m ρ c (Proc.devRef .tc main_arg2) = m ((c : Thread nD τ).loc main_arg2) :=
  ((W3_arr m ρ c 3).trans (((dat1 (V2 m ρ) c).arrAt_in 3 rfl _).trans (A_eq1 (V2 m ρ) c 3))).trans (W2_main_arg2 m ρ c)
theorem W2_main_arg3 (c : Dev nD) : W2 m ρ c (Proc.devRef .tc main_arg3) = m ((c : Thread nD τ).loc main_arg3) :=
  (W2_of_ne m ρ c main_arg3 (by decide)).trans (W1_arg m ρ c main_arg3 (by decide))
theorem W3_main_arg3 (c : Dev nD) : W3 m ρ c (Proc.devRef .tc main_arg3) = m ((c : Thread nD τ).loc main_arg3) :=
  ((W3_arr m ρ c 2).trans (((dat1 (V2 m ρ) c).arrAt_in 2 rfl _).trans (A_eq1 (V2 m ρ) c 2))).trans (W2_main_arg3 m ρ c)
theorem W2_main_arg4 (c : Dev nD) : W2 m ρ c (Proc.devRef .tc main_arg4) = m ((c : Thread nD τ).loc main_arg4) :=
  ((W2_arr m ρ c 2).trans (((dat0 (V1 m ρ) c).arrAt_in 2 rfl _).trans (A_eq0 (V1 m ρ) c 2))).trans (W1_arg m ρ c main_arg4 (by decide))
theorem W3_main_arg4 (c : Dev nD) : W3 m ρ c (Proc.devRef .tc main_arg4) = m ((c : Thread nD τ).loc main_arg4) :=
  (W3_of_ne m ρ c main_arg4 (by decide)).trans (W2_main_arg4 m ρ c)
theorem W2_main_arg5 (c : Dev nD) : W2 m ρ c (Proc.devRef .tc main_arg5) = m ((c : Thread nD τ).loc main_arg5) :=
  ((W2_arr m ρ c 3).trans (((dat0 (V1 m ρ) c).arrAt_in 3 rfl _).trans (A_eq0 (V1 m ρ) c 3))).trans (W1_arg m ρ c main_arg5 (by decide))
theorem W3_main_arg5 (c : Dev nD) : W3 m ρ c (Proc.devRef .tc main_arg5) = m ((c : Thread nD τ).loc main_arg5) :=
  (W3_of_ne m ρ c main_arg5 (by decide)).trans (W2_main_arg5 m ρ c)
theorem W2_main_arg6 (c : Dev nD) : W2 m ρ c (Proc.devRef .tc main_arg6) = m ((c : Thread nD τ).loc main_arg6) :=
  ((W2_arr m ρ c 4).trans (((dat0 (V1 m ρ) c).arrAt_in 4 rfl _).trans (A_eq0 (V1 m ρ) c 4))).trans (W1_arg m ρ c main_arg6 (by decide))
theorem W3_main_arg6 (c : Dev nD) : W3 m ρ c (Proc.devRef .tc main_arg6) = m ((c : Thread nD τ).loc main_arg6) :=
  (W3_of_ne m ρ c main_arg6 (by decide)).trans (W2_main_arg6 m ρ c)
theorem W2_main_arg7 (c : Dev nD) : W2 m ρ c (Proc.devRef .tc main_arg7) = m ((c : Thread nD τ).loc main_arg7) :=
  (W2_of_ne m ρ c main_arg7 (by decide)).trans (W1_arg m ρ c main_arg7 (by decide))
theorem W3_main_arg7 (c : Dev nD) : W3 m ρ c (Proc.devRef .tc main_arg7) = m ((c : Thread nD τ).loc main_arg7) :=
  (W3_of_ne m ρ c main_arg7 (by decide)).trans (W2_main_arg7 m ρ c)
theorem W2_main_arg8 (c : Dev nD) : W2 m ρ c (Proc.devRef .tc main_arg8) = m ((c : Thread nD τ).loc main_arg8) :=
  ((W2_arr m ρ c 6).trans (((dat0 (V1 m ρ) c).arrAt_in 6 rfl _).trans (A_eq0 (V1 m ρ) c 6))).trans (W1_arg m ρ c main_arg8 (by decide))
theorem W3_main_arg8 (c : Dev nD) : W3 m ρ c (Proc.devRef .tc main_arg8) = m ((c : Thread nD τ).loc main_arg8) :=
  (W3_of_ne m ρ c main_arg8 (by decide)).trans (W2_main_arg8 m ρ c)
theorem W2_main_arg9 (c : Dev nD) : W2 m ρ c (Proc.devRef .tc main_arg9) = m ((c : Thread nD τ).loc main_arg9) :=
  (W2_of_ne m ρ c main_arg9 (by decide)).trans (W1_arg m ρ c main_arg9 (by decide))
theorem W3_main_arg9 (c : Dev nD) : W3 m ρ c (Proc.devRef .tc main_arg9) = m ((c : Thread nD τ).loc main_arg9) :=
  (W3_of_ne m ρ c main_arg9 (by decide)).trans (W2_main_arg9 m ρ c)

/-- The frame: every weakly fair execution terminates, nothing faulting, with the ten argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c)⟩) (run_all m ρ)

end Cert.Kernel.Hand

end
-- ==== Proof.HostVals.lean ====
/-
  What the host's two reshapes leave: the one entry of α as a 1 × 1 array, and b as the one row of a 1 × 64 array.
-/
import proofs.«156757_g65309272703512_cont_9to1c4b_471_27_alg».proof.Proof.Run
import Idealize.ShloMosaic.Lib.ValueLayout
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem W1_call0_v0 (c : Dev nD) :
    (W1 m ρ c (Proc.devRef .tc main_call0_v0) : S1x1.Idx → Elt F .f32)
      = shapeCast S1x1 (m ((c : Thread nD τ).loc main_arg9) : S1.Idx → Elt F .f32) shapeCasts_S1_S1x1 := by
  dsimp only [W1, hostOps0]
  after_results
  rfl

theorem W1_call0_v1 (c : Dev nD) :
    (W1 m ρ c (Proc.devRef .tc main_call0_v1) : S1x64.Idx → Elt F .f32)
      = shapeCast S1x64 (m ((c : Thread nD τ).loc main_arg7) : S64.Idx → Elt F .f32) shapeCasts_S64_S1x64 := by
  dsimp only [W1, hostOps0]
  after_results
  rfl

end Cert.KernelIdeal.Hand

end
-- ==== Proof.LibMatOps.lean ====
/-
  Array functions over the extended reals, for any sizes, each stated at an index through its two coordinates: the
  matrix product entry by entry (mm), one row added to every row (addRow), the sums down each column of the entries
  (colSum) and of their squares (colSumSq) as one row, a scale and a shift applied column by column (affine), and the
  positive part (relu).  The lemmas named `_apply` read each at the index built from two literal coordinates, by
  definition.  A tiled kernel's closed form (a dense layer with a bias row, a column-sum accumulator, a column-wise
  normalisation) can be stated as one of these functions of its whole input arrays.
-/
import Idealize.ShloMosaic.Lib.ValueIdx
import Idealize.ShloMosaic.PureOps.Ideal

noncomputable section

open scoped BigOperators

namespace Cert.Spec

open Idealize.ShloMosaic Idealize.ShloMosaic.ValueIdx

variable {n k d : ℕ}

/-- An n × d array of extended reals. -/
abbrev Mat (n d : ℕ) : Type := (⟨2, ![n, d]⟩ : Shape).Idx → EReal

/-- The matrix product: entry (p, j) is the sum over q of X (p, q) · W (q, j). -/
def mm (X : Mat n k) (W : Mat k d) : Mat n d := fun i => ∑ q : Fin k, X (ix2 (i 0) q) * W (ix2 q (i 1))

theorem mm_apply (X : Mat n k) (W : Mat k d) (p : Fin n) (j : Fin d) :
    mm X W (ix2 p j) = ∑ q : Fin k, X (ix2 p q) * W (ix2 q j) := rfl

/-- The one row B added to every row of Y. -/
def addRow (Y : Mat n d) (B : Mat 1 d) : Mat n d := fun i => Y i + B (ix2 (0 : Fin 1) (i 1))

theorem addRow_apply (Y : Mat n d) (B : Mat 1 d) (p : Fin n) (j : Fin d) :
    addRow Y B (ix2 p j) = Y (ix2 p j) + B (ix2 (0 : Fin 1) j) := rfl

/-- The sum down each column, as one row. -/
def colSum (X : Mat n d) : Mat 1 d := fun i => ∑ p : Fin n, X (ix2 p (i 1))

theorem colSum_apply (X : Mat n d) (z : Fin 1) (j : Fin d) : colSum X (ix2 z j) = ∑ p : Fin n, X (ix2 p j) := rfl

/-- The sum of the squares down each column, as one row. -/
def colSumSq (X : Mat n d) : Mat 1 d := fun i => ∑ p : Fin n, X (ix2 p (i 1)) * X (ix2 p (i 1))

theorem colSumSq_apply (X : Mat n d) (z : Fin 1) (j : Fin d) :
    colSumSq X (ix2 z j) = ∑ p : Fin n, X (ix2 p j) * X (ix2 p j) := rfl

/-- Column j scaled by S j and shifted by T j. -/
def affine (X : Mat n d) (S T : Mat 1 d) : Mat n d :=
  fun i => X i * S (ix2 (0 : Fin 1) (i 1)) + T (ix2 (0 : Fin 1) (i 1))

theorem affine_apply (X : Mat n d) (S T : Mat 1 d) (p : Fin n) (j : Fin d) :
    affine X S T (ix2 p j) = X (ix2 p j) * S (ix2 (0 : Fin 1) j) + T (ix2 (0 : Fin 1) j) := rfl

/-- The positive part, entry by entry. -/
def relu (Y : Mat n d) : Mat n d := fun i => max (Y i) 0

theorem relu_apply (Y : Mat n d) (p : Fin n) (j : Fin d) : relu Y (ix2 p j) = max (Y (ix2 p j)) 0 := rfl

end Cert.Spec

end
-- ==== Proof.Spec.lean ====
/-
  The mathematics of the two programs, over the extended reals, as whole-array functions.

  Both programs compute, from node features x, an adjacency matrix adj, two diffusion matrices k and q and the weights:
    s2  = (adj · (x · W1))⁺ · W2                      two graph-convolution layers, the second without its product by adj
    x2  = softmax (adj · s2)                          row by row
    g   = softmax (x · linW + b) · Wg
    a   = 1 / (1 + e^(-α))
  and then the kernel   x2 + (q + a · (k - q)) · g   (one product, after mixing k and q entry by entry),
  the reference         a · (x2 + k · g) + (1 - a) · (x2 + q · g).
  The row-wise softmax is spelt as both programs spell it: the row's largest entry taken from -∞ (and once more
  against -∞), subtracted, the exponential, and the quotient by the row's sum of exponentials.
-/
import Idealize.ShloMosaic.Lib.ValueIdx
import Idealize.ShloMosaic.PureOps.Ideal
import proofs.«156757_g65309272703512_cont_9to1c4b_471_27_alg».proof.Proof.LibMatOps

noncomputable section

open scoped BigOperators

namespace Cert.Dgcn

open Idealize.ShloMosaic Idealize.ShloMosaic.ValueIdx Cert.Spec

variable {n d e : ℕ}

/-- The value of the f32 word of -∞ (kept as the word: both programs carry the same word). -/
abbrev negInf : EReal := Ideal.ofBits .f32 0xFF800000#32

/-- The largest entry of row p, taken from -∞, and once more against -∞. -/
def rowMax (X : Mat n d) (p : Fin n) : EReal :=
  max negInf ((Finset.univ : Finset (Fin d)).fold max negInf fun c => X (ix2 p c))

/-- e^(X (p, j) - rowMax X p). -/
def expShift (X : Mat n d) : Mat n d := fun i => Ideal.exp (X i - rowMax X (i 0))

theorem expShift_apply (X : Mat n d) (p : Fin n) (j : Fin d) :
    expShift X (ix2 p j) = Ideal.exp (X (ix2 p j) - rowMax X p) := rfl

/-- The row-wise softmax. -/
def softmax (X : Mat n d) : Mat n d := fun i => Ideal.div (expShift X i) (∑ c : Fin d, expShift X (ix2 (i 0) c))

theorem softmax_apply (X : Mat n d) (p : Fin n) (j : Fin d) :
    softmax X (ix2 p j) = Ideal.div (expShift X (ix2 p j)) (∑ c : Fin d, expShift X (ix2 p c)) := rfl

/-- Q + a · (K - Q), entry by entry. -/
def mix (a : EReal) (K Q : Mat n d) : Mat n d := fun i => Q i + a * (K i - Q i)

theorem mix_apply (a : EReal) (K Q : Mat n d) (i : (⟨2, ![n, d]⟩ : Shape).Idx) : mix a K Q i = Q i + a * (K i - Q i) := rfl

/-- A vector of d entries as the one row of a 1 × d matrix. -/
def rowOf (b : (⟨1, ![d]⟩ : Shape).Idx → EReal) : Mat 1 d := fun i => b (ix1 (i 1))

/-- The second-layer support  (adj · (x · W1))⁺ · W2. -/
def support2 {N f h : ℕ} (adj : Mat N N) (x : Mat N f) (W1 : Mat f h) (W2 : Mat h e) : Mat N e :=
  mm (relu (mm adj (mm x W1))) W2

/-- The gate  softmax (x · linW + b) · Wg. -/
def gate {N f : ℕ} (x : Mat N f) (linW : Mat f e) (b : Mat 1 e) (Wg : Mat e e) : Mat N e :=
  mm (softmax (addRow (mm x linW) b)) Wg

/-- What the second kernel computes from the arrays it is handed: softmax (adj · s2) + (q + a · (k - q)) · g with
    a the logistic function of the one entry of α. -/
def embOf {N : ℕ} (α : Mat 1 1) (adj k q : Mat N N) (s2 g : Mat N e) : Mat N e :=
  fun i => softmax (mm adj s2) i + mm (mix (Ideal.logistic (α (ix2 (0 : Fin 1) (0 : Fin 1)))) k q) g i

/-- The kernel's result as a function of the arguments. -/
def embK {N f h : ℕ} (x : Mat N f) (adj q k : Mat N N) (W1 : Mat f h) (W2 : Mat h e) (linW : Mat f e)
    (b : (⟨1, ![e]⟩ : Shape).Idx → EReal) (Wg : Mat e e) (α : (⟨1, ![1]⟩ : Shape).Idx → EReal) : Mat N e :=
  embOf (fun _ => α (ix1 (0 : Fin 1))) adj k q (support2 adj x W1 W2) (gate x linW (rowOf b) Wg)

/-- The reference's result as a function of the arguments. -/
def embR {N f h : ℕ} (x : Mat N f) (adj q k : Mat N N) (W1 : Mat f h) (W2 : Mat h e) (linW : Mat f e)
    (b : (⟨1, ![e]⟩ : Shape).Idx → EReal) (Wg : Mat e e) (α : (⟨1, ![1]⟩ : Shape).Idx → EReal) : Mat N e :=
  fun i =>
    Ideal.logistic (α (ix1 (0 : Fin 1))) * (softmax (mm adj (support2 adj x W1 W2)) i + mm k (gate x linW (rowOf b) Wg) i)
      + (1 - Ideal.logistic (α (ix1 (0 : Fin 1)))) * (softmax (mm adj (support2 adj x W1 W2)) i + mm q (gate x linW (rowOf b) Wg) i)

end Cert.Dgcn

end
-- ==== Proof.Glue.lean ====
/-
  The kernel's result as a function of the arguments, over the extended reals: the last fold's contents at the result
  buffer are what the second region's write-backs leave, computed from the arrays it was handed — the argument arrays
  as launched, α reshaped, and the first region's two results, themselves computed from the argument arrays and b
  reshaped. Each region's value is taken as a hypothesis here and supplied where the claim is assembled.
-/
import proofs.«156757_g65309272703512_cont_9to1c4b_471_27_alg».proof.Proof.Frames
import proofs.«156757_g65309272703512_cont_9to1c4b_471_27_alg».proof.Proof.HostVals
import proofs.«156757_g65309272703512_cont_9to1c4b_471_27_alg».proof.Proof.Spec
import Idealize.ShloMosaic.Lib.ValueLayout
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec Cert.Dgcn

variable (m : (ℓ : Loc nD τ sig) → Buf (Elt Ideal) ℓ) (ρ : Dev nD → PrngReg)

/-- b reshaped to one row is the row of b. -/
theorem reshape_row (b : S64.Idx → EReal) : (shapeCast S1x64 b shapeCasts_S64_S1x64 : S1x64.Idx → EReal) = rowOf b := by
  funext i
  obtain ⟨u, j, rfl⟩ : ∃ (u : Fin 1) (j : Fin 64), i = ix2 u j := ⟨i 0, i 1, eq_ix2 i⟩
  exact shapeCast_a_1a_apply b shapeCasts_S64_S1x64 u j

/-- α reshaped to 1 × 1 has α's one entry. -/
theorem reshape_one (α : S1.Idx → EReal) :
    (shapeCast S1x1 α shapeCasts_S1_S1x1 : S1x1.Idx → EReal) (ix2 (0 : Fin 1) (0 : Fin 1)) = α (ix1 (0 : Fin 1)) :=
  shapeCast_a_1a_apply α shapeCasts_S1_S1x1 0 0

/-- The second kernel's function reads its 1 × 1 argument at its one entry only. -/
theorem embOf_congr {N e : ℕ} (α β : Mat 1 1) (h : α (ix2 (0 : Fin 1) (0 : Fin 1)) = β (ix2 (0 : Fin 1) (0 : Fin 1)))
    (adj k q : Mat N N) (s2 g : Mat N e) : embOf α adj k q s2 g = embOf β adj k q s2 g := by
  unfold embOf; rw [h]

theorem result_of (c : Dev nD)
    (h16 : ∀ (V : (c : Dev nD) → (b : Ref sig .tc) → Buf (Elt Ideal) ((c : Thread nD τ).loc b)) (c : Dev nD),
      ((dat1 (F := Ideal) V c).arrAt 6 cfg1.N : S10000x64.Idx → EReal)
        = embOf (V c main_call0_v0) (V c main_arg1) (V c main_arg3) (V c main_arg2) (V c main_call0_v2_0) (V c main_call0_v2_1))
    (h07 : ∀ (V : (c : Dev nD) → (b : Ref sig .tc) → Buf (Elt Ideal) ((c : Thread nD τ).loc b)) (c : Dev nD),
      ((dat0 (F := Ideal) V c).arrAt 7 cfg0.N : S10000x64.Idx → EReal)
        = support2 (V c main_arg1) (V c main_arg0) (V c main_arg4) (V c main_arg5))
    (h08 : ∀ (V : (c : Dev nD) → (b : Ref sig .tc) → Buf (Elt Ideal) ((c : Thread nD τ).loc b)) (c : Dev nD),
      ((dat0 (F := Ideal) V c).arrAt 8 cfg0.N : S10000x64.Idx → EReal)
        = gate (V c main_arg0) (V c main_arg6) (V c main_call0_v1) (V c main_arg8)) :
    (W3 m ρ c (Proc.devRef .tc main_v0) : S10000x64.Idx → EReal)
      = embK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  have e0 : V2 m ρ c main_call0_v0 = shapeCast S1x1 (m ((c : Thread nD τ).loc main_arg9) : S1.Idx → EReal) shapeCasts_S1_S1x1 :=
    (W2_of_ne m ρ c main_call0_v0 (by decide)).trans (W1_call0_v0 m ρ c)
  have e1 : V2 m ρ c main_arg1 = m ((c : Thread nD τ).loc main_arg1) := W2_main_arg1 m ρ c
  have e2 : V2 m ρ c main_arg2 = m ((c : Thread nD τ).loc main_arg2) := W2_main_arg2 m ρ c
  have e3 : V2 m ρ c main_arg3 = m ((c : Thread nD τ).loc main_arg3) := W2_main_arg3 m ρ c
  have f0 : V1 m ρ c main_arg0 = m ((c : Thread nD τ).loc main_arg0) := W1_arg m ρ c main_arg0 (by decide)
  have f1 : V1 m ρ c main_arg1 = m ((c : Thread nD τ).loc main_arg1) := W1_arg m ρ c main_arg1 (by decide)
  have f4 : V1 m ρ c main_arg4 = m ((c : Thread nD τ).loc main_arg4) := W1_arg m ρ c main_arg4 (by decide)
  have f5 : V1 m ρ c main_arg5 = m ((c : Thread nD τ).loc main_arg5) := W1_arg m ρ c main_arg5 (by decide)
  have f6 : V1 m ρ c main_arg6 = m ((c : Thread nD τ).loc main_arg6) := W1_arg m ρ c main_arg6 (by decide)
  have f8 : V1 m ρ c main_arg8 = m ((c : Thread nD τ).loc main_arg8) := W1_arg m ρ c main_arg8 (by decide)
  have fb : (V1 m ρ c main_call0_v1 : S1x64.Idx → EReal) = rowOf (m ((c : Thread nD τ).loc main_arg7)) :=
    (W1_call0_v1 m ρ c).trans (reshape_row _)
  have e4 : (V2 m ρ c main_call0_v2_0 : S10000x64.Idx → EReal)
      = support2 (m ((c : Thread nD τ).loc main_arg1)) (m ((c : Thread nD τ).loc main_arg0)) (m ((c : Thread nD τ).loc main_arg4)) (m ((c : Thread nD τ).loc main_arg5)) := by
    refine ((W2_arr m ρ c 7).trans (h07 (V1 m ρ) c)).trans ?_
    rw [f0, f1, f4, f5]
  have e5 : (V2 m ρ c main_call0_v2_1 : S10000x64.Idx → EReal)
      = gate (m ((c : Thread nD τ).loc main_arg0)) (m ((c : Thread nD τ).loc main_arg6)) (rowOf (m ((c : Thread nD τ).loc main_arg7))) (m ((c : Thread nD τ).loc main_arg8)) := by
    refine ((W2_arr m ρ c 8).trans (h08 (V1 m ρ) c)).trans ?_
    rw [f0, f6, f8, fb]
  refine ((W3_arr m ρ c 6).trans (h16 (V2 m ρ) c)).trans ?_
  rw [e1, e2, e3, e4, e5, e0]
  unfold embK
  exact embOf_congr _ _ (reshape_one _) _ _ _ _ _

end Cert.KernelIdeal.Hand

end
-- ==== Proof.LibConsts.lean ====
/-
  The float literals both programs spell, as the extended reals their bit patterns denote, and small facts about the
  extended reals used to carry real-valued arrays through sums, products, quotients and square roots.
-/
import Idealize.ShloMosaic.PureOps.Ideal
import Idealize.ShloMosaic.PureOps.Ideal.Laws

noncomputable section

namespace Cert.Consts

open Idealize.ShloMosaic

theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
/-- 65536.0 = 32 · 2048, the number of (graph, node) rows. -/
theorem ofBits_rows : Ideal.ofBits .f32 0x47800000#32 = ((65536 : ℝ) : EReal) := by
  simp [Ideal.ofBits, Ideal.ieee, -EReal.coe_mul]; norm_num
/-- The variance's epsilon is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real is the real 1 / √r. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- Division by a nonzero real is real division. -/
theorem div_real (x : ℝ) {y : ℝ} (h : y ≠ 0) : Ideal.div (x : EReal) (y : EReal) = ((x / y : ℝ) : EReal) := by
  rw [Ideal.div_coe h, ← EReal.coe_mul]; congr 1; field_simp

end Cert.Consts

end
-- ==== Proof.Law.lean ====
/-
  The two programs agree over the extended reals once every argument entry is a real.

  On the extended reals a product does not distribute over a sum when an infinity is met, so the first part carries
  "every entry is a real" through each step: a matrix product, the positive part, a row added to every row, the
  row's largest entry (taken from -∞, which is the bottom element, over a row that has at least one entry), the
  exponential (a positive real), the row's sum of exponentials (a positive real, so the quotient is a real) and the
  logistic function.  With T the softmax entry, a the logistic value, and g the gate, all real,
      a (T + Σ k g) + (1 - a) (T + Σ q g) = T + Σ (q + a (k - q)) g
  is then an identity of real numbers.
-/
import Mathlib.Tactic.Ring
import Mathlib.Tactic.Positivity
import Idealize.ShloMosaic.Lib.ValueIdx
import Idealize.ShloMosaic.PureOps.Ideal
import proofs.«156757_g65309272703512_cont_9to1c4b_471_27_alg».proof.Proof.Spec
import proofs.«156757_g65309272703512_cont_9to1c4b_471_27_alg».proof.Proof.LibConsts

noncomputable section

open scoped BigOperators

namespace Cert.Dgcn

open Idealize.ShloMosaic Idealize.ShloMosaic.ValueIdx Cert.Spec

/-- An extended real that is a real. -/
def IsR (v : EReal) : Prop := ∃ r : ℝ, v = (r : EReal)

/-- Every entry is a real. -/
def IsReal {ι : Type*} (X : ι → EReal) : Prop := ∀ i, IsR (X i)

theorem IsR.add {u v : EReal} (hu : IsR u) (hv : IsR v) : IsR (u + v) := by
  obtain ⟨a, rfl⟩ := hu; obtain ⟨b, rfl⟩ := hv; exact ⟨a + b, (EReal.coe_add a b).symm⟩

theorem IsR.sub {u v : EReal} (hu : IsR u) (hv : IsR v) : IsR (u - v) := by
  obtain ⟨a, rfl⟩ := hu; obtain ⟨b, rfl⟩ := hv; exact ⟨a - b, (EReal.coe_sub a b).symm⟩

theorem IsR.mul {u v : EReal} (hu : IsR u) (hv : IsR v) : IsR (u * v) := by
  obtain ⟨a, rfl⟩ := hu; obtain ⟨b, rfl⟩ := hv; exact ⟨a * b, (EReal.coe_mul a b).symm⟩

theorem IsR.max {u v : EReal} (hu : IsR u) (hv : IsR v) : IsR (max u v) := by
  obtain ⟨a, rfl⟩ := hu; obtain ⟨b, rfl⟩ := hv; exact ⟨Max.max a b, (EReal.coe_strictMono.monotone.map_max).symm⟩

theorem IsR.zero : IsR 0 := ⟨0, EReal.coe_zero.symm⟩

theorem IsR.one : IsR 1 := ⟨1, EReal.coe_one.symm⟩

theorem IsR.sum {ι : Type*} (s : Finset ι) {f : ι → EReal} (h : ∀ i, IsR (f i)) : IsR (∑ i ∈ s, f i) := by
  choose g hg using h
  exact ⟨∑ i ∈ s, g i, by rw [Cert.Consts.coe_sum]; exact Finset.sum_congr rfl fun i _ => hg i⟩

/-- The logistic function of a real is a real. -/
theorem IsR.logistic {v : EReal} (hv : IsR v) : IsR (Ideal.logistic v) := by
  obtain ⟨a, rfl⟩ := hv; exact ⟨_, Ideal.logistic_coe a⟩

/-- The f32 word of -∞ is the bottom element. -/
theorem negInf_eq : negInf = ⊥ := by
  simp [negInf, Ideal.ofBits, Ideal.ieee]

variable {n m d : ℕ}

theorem isReal_mm {X : Mat n m} {W : Mat m d} (hX : IsReal X) (hW : IsReal W) : IsReal (mm X W) :=
  fun _ => IsR.sum _ fun _ => (hX _).mul (hW _)

theorem isReal_relu {Y : Mat n d} (hY : IsReal Y) : IsReal (relu Y) := fun i => (hY i).max IsR.zero

theorem isReal_addRow {Y : Mat n d} {B : Mat 1 d} (hY : IsReal Y) (hB : IsReal B) : IsReal (addRow Y B) :=
  fun i => (hY i).add (hB _)

theorem isReal_rowOf {b : (⟨1, ![d]⟩ : Shape).Idx → EReal} (hb : IsReal b) : IsReal (rowOf b) := fun _ => hb _

/-- The largest of finitely many reals, taken from the bottom element, is a real unless there are none. -/
theorem fold_max_bot {ι : Type*} [DecidableEq ι] (s : Finset ι) {f : ι → EReal} (h : ∀ i, IsR (f i)) :
    s = ∅ ∨ IsR (s.fold Max.max ⊥ f) := by
  induction s using Finset.induction_on with
  | empty => exact Or.inl rfl
  | insert a s ha ih =>
    refine Or.inr ?_
    rw [Finset.fold_insert ha]
    rcases ih with rfl | ih
    · rw [Finset.fold_empty, max_bot_right]; exact h a
    · exact (h a).max ih

/-- The largest entry of a row of reals that has an entry is a real. -/
theorem isR_rowMax {X : Mat n d} (hX : IsReal X) (p : Fin n) (c : Fin d) : IsR (rowMax X p) := by
  rw [rowMax, negInf_eq, max_bot_left]
  rcases fold_max_bot (Finset.univ : Finset (Fin d)) (f := fun c => X (ix2 p c)) (fun _ => hX _) with h | h
  · exact absurd (Finset.mem_univ c) (by rw [h]; exact Finset.notMem_empty c)
  · exact h

/-- Each shifted exponential of a real array is a positive real. -/
theorem expShift_pos {X : Mat n d} (hX : IsReal X) (i : (⟨2, ![n, d]⟩ : Shape).Idx) :
    ∃ r : ℝ, 0 < r ∧ expShift X i = (r : EReal) := by
  obtain ⟨a, ha⟩ := (hX i).sub (isR_rowMax hX (i 0) (i 1))
  exact ⟨Real.exp a, Real.exp_pos a, by rw [expShift, ha, Ideal.exp_coe]⟩

/-- The row-wise softmax of a real array is a real array. -/
theorem isReal_softmax {X : Mat n d} (hX : IsReal X) : IsReal (softmax X) := by
  intro i
  choose r hr0 hr using expShift_pos hX
  have hs : (∑ c : Fin d, expShift X (ix2 (i 0) c)) = ((∑ c : Fin d, r (ix2 (i 0) c) : ℝ) : EReal) := by
    rw [Cert.Consts.coe_sum]; exact Finset.sum_congr rfl fun c _ => hr _
  have hpos : 0 < ∑ c : Fin d, r (ix2 (i 0) c) :=
    Finset.sum_pos (fun c _ => hr0 _) ⟨i 1, Finset.mem_univ _⟩
  exact ⟨_, by rw [softmax, hs, hr i, Cert.Consts.div_real _ hpos.ne']⟩

theorem isReal_support2 {N f h e : ℕ} {adj : Mat N N} {x : Mat N f} {W1 : Mat f h} {W2 : Mat h e}
    (hadj : IsReal adj) (hx : IsReal x) (hW1 : IsReal W1) (hW2 : IsReal W2) : IsReal (support2 adj x W1 W2) :=
  isReal_mm (isReal_relu (isReal_mm hadj (isReal_mm hx hW1))) hW2

theorem isReal_gate {N f e : ℕ} {x : Mat N f} {linW : Mat f e} {b : Mat 1 e} {Wg : Mat e e}
    (hx : IsReal x) (hlinW : IsReal linW) (hb : IsReal b) (hWg : IsReal Wg) : IsReal (gate x linW b Wg) :=
  isReal_mm (isReal_softmax (isReal_addRow (isReal_mm hx hlinW) hb)) hWg

/-- The mixing identity at one entry, all quantities real:
    a (T + Σ k g) + (1 - a) (T + Σ q g) = T + Σ (q + a (k - q)) g. -/
theorem mix_law {N e : ℕ} {a T : EReal} {k q : Mat N N} {g : Mat N e} (ha : IsR a) (hT : IsR T)
    (hk : IsReal k) (hq : IsReal q) (hg : IsReal g) (p : Fin N) (c : Fin e) :
    a * (T + mm k g (ix2 p c)) + (1 - a) * (T + mm q g (ix2 p c)) = T + mm (mix a k q) g (ix2 p c) := by
  obtain ⟨ar, rfl⟩ := ha
  obtain ⟨t, rfl⟩ := hT
  choose kr hkr using hk
  choose qr hqr using hq
  choose gr hgr using hg
  have hK : mm k g (ix2 p c) = ((∑ j : Fin N, kr (ix2 p j) * gr (ix2 j c) : ℝ) : EReal) := by
    rw [mm_apply, Cert.Consts.coe_sum]
    exact Finset.sum_congr rfl fun j _ => by rw [hkr, hgr, EReal.coe_mul]
  have hQ : mm q g (ix2 p c) = ((∑ j : Fin N, qr (ix2 p j) * gr (ix2 j c) : ℝ) : EReal) := by
    rw [mm_apply, Cert.Consts.coe_sum]
    exact Finset.sum_congr rfl fun j _ => by rw [hqr, hgr, EReal.coe_mul]
  have hM : mm (mix (ar : EReal) k q) g (ix2 p c)
      = ((∑ j : Fin N, (qr (ix2 p j) + ar * (kr (ix2 p j) - qr (ix2 p j))) * gr (ix2 j c) : ℝ) : EReal) := by
    rw [mm_apply, Cert.Consts.coe_sum]
    exact Finset.sum_congr rfl fun j _ => by
      rw [mix_apply, hkr, hqr, hgr, ← EReal.coe_sub, ← EReal.coe_mul, ← EReal.coe_add, ← EReal.coe_mul]
  have hreal : ar * (t + ∑ j : Fin N, kr (ix2 p j) * gr (ix2 j c)) + (1 - ar) * (t + ∑ j : Fin N, qr (ix2 p j) * gr (ix2 j c))
      = t + ∑ j : Fin N, (qr (ix2 p j) + ar * (kr (ix2 p j) - qr (ix2 p j))) * gr (ix2 j c) := by
    have : ∀ j : Fin N, (qr (ix2 p j) + ar * (kr (ix2 p j) - qr (ix2 p j))) * gr (ix2 j c)
        = ar * (kr (ix2 p j) * gr (ix2 j c)) + (1 - ar) * (qr (ix2 p j) * gr (ix2 j c)) := fun j => by ring
    rw [Finset.sum_congr rfl fun j _ => this j, Finset.sum_add_distrib, ← Finset.mul_sum, ← Finset.mul_sum]
    ring
  rw [hK, hQ, hM, ← EReal.coe_one, ← EReal.coe_sub, ← EReal.coe_add, ← EReal.coe_add, ← EReal.coe_add, ← EReal.coe_mul,
    ← EReal.coe_mul, ← EReal.coe_add, hreal]

/-- The reference's result is the kernel's, once every argument entry is a real. -/
theorem embR_eq_embK {N f h e : ℕ} (x : Mat N f) (adj q k : Mat N N) (W1 : Mat f h) (W2 : Mat h e) (linW : Mat f e)
    (b : (⟨1, ![e]⟩ : Shape).Idx → EReal) (Wg : Mat e e) (α : (⟨1, ![1]⟩ : Shape).Idx → EReal)
    (hx : ∀ i, ∃ r : ℝ, x i = (r : EReal)) (hadj : ∀ i, ∃ r : ℝ, adj i = (r : EReal))
    (hq : ∀ i, ∃ r : ℝ, q i = (r : EReal)) (hk : ∀ i, ∃ r : ℝ, k i = (r : EReal))
    (hW1 : ∀ i, ∃ r : ℝ, W1 i = (r : EReal)) (hW2 : ∀ i, ∃ r : ℝ, W2 i = (r : EReal))
    (hlinW : ∀ i, ∃ r : ℝ, linW i = (r : EReal)) (hb : ∀ i, ∃ r : ℝ, b i = (r : EReal))
    (hWg : ∀ i, ∃ r : ℝ, Wg i = (r : EReal)) (hα : ∀ i, ∃ r : ℝ, α i = (r : EReal)) :
    embR x adj q k W1 W2 linW b Wg α = embK x adj q k W1 W2 linW b Wg α := by
  funext i
  have hs2 : IsReal (support2 adj x W1 W2) := isReal_support2 hadj hx hW1 hW2
  have hg : IsReal (gate x linW (rowOf b) Wg) := isReal_gate hx hlinW (isReal_rowOf hb) hWg
  have hT : IsR (softmax (mm adj (support2 adj x W1 W2)) i) := isReal_softmax (isReal_mm hadj hs2) i
  have ha : IsR (Ideal.logistic (α (ix1 (0 : Fin 1)))) := IsR.logistic (hα _)
  rw [eq_ix2 i] at hT ⊢
  exact mix_law ha hT hk hq hg (i 0) (i 1)

end Cert.Dgcn

end
-- ==== Proof.Algebraic.lean ====
/-
  The two idealized programs, run from memories that agree on the ten arguments, end with one result: the kernel's
  run ends with its result buffer at the kernel's function of the arguments, the reference's run with its result at the
  reference's function of them, and for arguments whose entries are all real numbers the two functions are equal.
  The values of the kernel's two regions, the reference's stages read back, and the arguments' finiteness under the
  precondition are hypotheses here; the claim's proof supplies them.
-/
import proofs.«156757_g65309272703512_cont_9to1c4b_471_27_alg».proof.Defs
import proofs.«156757_g65309272703512_cont_9to1c4b_471_27_alg».proof.Proof.Glue
import proofs.«156757_g65309272703512_cont_9to1c4b_471_27_alg».proof.Proof.Law
import proofs.«156757_g65309272703512_cont_9to1c4b_471_27_alg».proof.Proof.Gen.ReferenceIdeal.Read
import proofs.«156757_g65309272703512_cont_9to1c4b_471_27_alg».proof.Proof.Gen.KernelIdeal
import proofs.«156757_g65309272703512_cont_9to1c4b_471_27_alg».proof.Proof.Gen.ReferenceIdeal
import proofs.«156757_g65309272703512_cont_9to1c4b_471_27_alg».proof.Proof.Gen.Pre_finite_inputs

noncomputable section

namespace Cert.Proof

open Idealize.ShloMosaic Idealize.ShloMosaic.TcCoe Idealize.SL.Sem Cert.Dgcn Cert.KernelIdeal.Hand

set_option maxHeartbeats 1000000 in
theorem algebraic_of
    (h16 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      ((dat1 (F := Ideal) V c).arrAt 6 Cert.KernelIdeal.cfg1.N : Cert.KernelIdeal.S10000x64.Idx → EReal)
        = embOf (V c Cert.KernelIdeal.main_call0_v0) (V c Cert.KernelIdeal.main_arg1) (V c Cert.KernelIdeal.main_arg3) (V c Cert.KernelIdeal.main_arg2) (V c Cert.KernelIdeal.main_call0_v2_0) (V c Cert.KernelIdeal.main_call0_v2_1))
    (h07 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      ((dat0 (F := Ideal) V c).arrAt 7 Cert.KernelIdeal.cfg0.N : Cert.KernelIdeal.S10000x64.Idx → EReal)
        = support2 (V c Cert.KernelIdeal.main_arg1) (V c Cert.KernelIdeal.main_arg0) (V c Cert.KernelIdeal.main_arg4) (V c Cert.KernelIdeal.main_arg5))
    (h08 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      ((dat0 (F := Ideal) V c).arrAt 8 Cert.KernelIdeal.cfg0.N : Cert.KernelIdeal.S10000x64.Idx → EReal)
        = gate (V c Cert.KernelIdeal.main_arg0) (V c Cert.KernelIdeal.main_arg6) (V c Cert.KernelIdeal.main_call0_v1) (V c Cert.KernelIdeal.main_arg8))
    (href : ∀ (x0 : (⟨Cert.ReferenceIdeal.S10000x128, .f32⟩ : BufTy).Contents (Elt Ideal)) (x1 x2 x3 : (⟨Cert.ReferenceIdeal.S10000x10000, .f32⟩ : BufTy).Contents (Elt Ideal))
        (x4 : (⟨Cert.ReferenceIdeal.S128x128, .f32⟩ : BufTy).Contents (Elt Ideal)) (x5 x6 : (⟨Cert.ReferenceIdeal.S128x64, .f32⟩ : BufTy).Contents (Elt Ideal))
        (x7 : (⟨Cert.ReferenceIdeal.S64, .f32⟩ : BufTy).Contents (Elt Ideal)) (x8 : (⟨Cert.ReferenceIdeal.S64x64, .f32⟩ : BufTy).Contents (Elt Ideal))
        (x9 : (⟨Cert.ReferenceIdeal.S1, .f32⟩ : BufTy).Contents (Elt Ideal)),
      Cert.ReferenceIdeal.Read.val_main_v50 (F := Ideal) x0 x1 x2 x3 x4 x5 x6 x7 x8 x9 = embR x0 x1 x2 x3 x4 x5 x6 x7 x8 x9)
    (hfin : ∀ (m : (ℓ : Loc Cert.KernelIdeal.nD Cert.KernelIdeal.τ Cert.KernelIdeal.sig) → Buf (Elt Ideal) ℓ), Cert.Pre_KernelIdeal m → ∀ c : Dev Cert.KernelIdeal.nD,
      (∀ i, ∃ r : ℝ, (m ((c.tc : Thread Cert.KernelIdeal.nD Cert.KernelIdeal.τ).loc Cert.KernelIdeal.main_arg0)) i = (r : EReal))
      ∧ (∀ i, ∃ r : ℝ, (m ((c.tc : Thread Cert.KernelIdeal.nD Cert.KernelIdeal.τ).loc Cert.KernelIdeal.main_arg1)) i = (r : EReal))
      ∧ (∀ i, ∃ r : ℝ, (m ((c.tc : Thread Cert.KernelIdeal.nD Cert.KernelIdeal.τ).loc Cert.KernelIdeal.main_arg2)) i = (r : EReal))
      ∧ (∀ i, ∃ r : ℝ, (m ((c.tc : Thread Cert.KernelIdeal.nD Cert.KernelIdeal.τ).loc Cert.KernelIdeal.main_arg3)) i = (r : EReal))
      ∧ (∀ i, ∃ r : ℝ, (m ((c.tc : Thread Cert.KernelIdeal.nD Cert.KernelIdeal.τ).loc Cert.KernelIdeal.main_arg4)) i = (r : EReal))
      ∧ (∀ i, ∃ r : ℝ, (m ((c.tc : Thread Cert.KernelIdeal.nD Cert.KernelIdeal.τ).loc Cert.KernelIdeal.main_arg5)) i = (r : EReal))
      ∧ (∀ i, ∃ r : ℝ, (m ((c.tc : Thread Cert.KernelIdeal.nD Cert.KernelIdeal.τ).loc Cert.KernelIdeal.main_arg6)) i = (r : EReal))
      ∧ (∀ i, ∃ r : ℝ, (m ((c.tc : Thread Cert.KernelIdeal.nD Cert.KernelIdeal.τ).loc Cert.KernelIdeal.main_arg7)) i = (r : EReal))
      ∧ (∀ i, ∃ r : ℝ, (m ((c.tc : Thread Cert.KernelIdeal.nD Cert.KernelIdeal.τ).loc Cert.KernelIdeal.main_arg8)) i = (r : EReal))
      ∧ (∀ i, ∃ r : ℝ, (m ((c.tc : Thread Cert.KernelIdeal.nD Cert.KernelIdeal.τ).loc Cert.KernelIdeal.main_arg9)) i = (r : EReal))) :
    Cert.algebraic_KernelIdeal_ReferenceIdeal := by
  intro m ρ m' ρ' hpre hagree
  refine ⟨fun c => embK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(h c _ (mem_uc Cert.KernelIdeal.main_v0 (by decide))).trans (result_of m ρ c h16 h07 h08),
        (h c _ (mem_uc Cert.KernelIdeal.main_arg0 (by decide))).trans (W3_main_arg0 m ρ c),
        (h c _ (mem_uc Cert.KernelIdeal.main_arg1 (by decide))).trans (W3_main_arg1 m ρ c),
        (h c _ (mem_uc Cert.KernelIdeal.main_arg2 (by decide))).trans (W3_main_arg2 m ρ c),
        (h c _ (mem_uc Cert.KernelIdeal.main_arg3 (by decide))).trans (W3_main_arg3 m ρ c),
        (h c _ (mem_uc Cert.KernelIdeal.main_arg4 (by decide))).trans (W3_main_arg4 m ρ c),
        (h c _ (mem_uc Cert.KernelIdeal.main_arg5 (by decide))).trans (W3_main_arg5 m ρ c),
        (h c _ (mem_uc Cert.KernelIdeal.main_arg6 (by decide))).trans (W3_main_arg6 m ρ c),
        (h c _ (mem_uc Cert.KernelIdeal.main_arg7 (by decide))).trans (W3_main_arg7 m ρ c),
        (h c _ (mem_uc Cert.KernelIdeal.main_arg8 (by decide))).trans (W3_main_arg8 m ρ c),
        (h c _ (mem_uc Cert.KernelIdeal.main_arg9 (by decide))).trans (W3_main_arg9 m ρ c)⟩)
      (run_all m ρ)
  · refine (θ_run Cert.ReferenceIdeal.defs _ _).mono (fun r h c => ⟨?_, (h c).2⟩) (Cert.ReferenceIdeal.Value.run (F := Ideal) m' ρ')
    obtain ⟨a0, a1, a2, a3, a4, a5, a6, a7, a8, a9⟩ := hagree c
    obtain ⟨f0, f1, f2, f3, f4, f5, f6, f7, f8, f9⟩ := hfin m hpre c
    rw [(h c).1, Cert.ReferenceIdeal.Read.val_main_v50_eq, href, a0, a1, a2, a3, a4, a5, a6, a7, a8, a9]
    exact embR_eq_embK _ _ _ _ _ _ _ _ _ _ f0 f1 f2 f3 f4 f5 f6 f7 f8 f9

end Cert.Proof

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«156757_g65309272703512_cont_9to1c4b_471_27_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.LibGcn.lean ====
/-
  Graph-convolution layers over the extended reals, for any sizes.

  One layer of a graph convolution multiplies a feature matrix Y by the adjacency matrix A, keeps the positive part,
  and multiplies by the next layer's weights W:  layer A Y W = (A · Y)⁺ · W.  The last layer stops at (A · Y)⁺.
  Read at the exact extended reals, where a change of float format is the identity:
    * a matrix-unit product into the zero accumulator and a host `dot_general`, under dimension numbers that are the
      plain ones (rows × inner times inner × columns), are the matrix product `mm` as whole arrays;
    * the maximum with a splat of the zero word, and with a rank-0 zero constant broadcast in dimension, is `relu`;
    * so a kernel body  truncf (matmul (truncf (max (matmul A Y 0) 0)) W 0)  is `layer A Y W`, and the host's
      max (dot_general A (dot_general Z W)) 0  is `relu (mm A (mm Z W))`.
  Entry (p, j) of `layer A Y W` and of `relu (mm A Y)` reads row p of A only: a block of rows of A gives the same rows
  of the result (`layer_rows`, `last_rows`).
-/
import Idealize.ShloMosaic.Lib.ValueIdx
import Idealize.ShloMosaic.Lib.Pipeline.Value
import Idealize.ShloMosaic.PureOps.Ideal.Laws
import proofs.«156757_g65309272703512_cont_9to1c4b_471_27_alg».proof.Proof.LibPlainDot
import proofs.«156757_g65309272703512_cont_9to1c4b_471_27_alg».proof.Proof.LibMatOps

noncomputable section

open scoped BigOperators

namespace Cert.LibGcn

open Idealize.ShloMosaic Idealize.ShloMosaic.ValueIdx Cert.Spec

variable {r n h e N : ℕ}

/-- (A · Y)⁺ · W. -/
def layer (A : Mat r n) (Y : Mat n h) (W : Mat h e) : Mat r e := mm (relu (mm A Y)) W

/-- A change of float format is the identity on the extended reals. -/
theorem truncf_eq {s : Shape} {φ ψ : FTy} (x : FVec Ideal s φ) (hlt : ψ.bits < φ.bits) :
    (truncf ψ x hlt : FVec Ideal s ψ) = x := rfl

/-- A matrix-unit product into the zero accumulator is the matrix product. -/
theorem matmul_zero_eq_mm {φ₁ φ₂ : FTy} (D : DotDims ⟨2, ![r, n]⟩ ⟨2, ![n, h]⟩ ⟨2, ![r, h]⟩) (hD : D = DotDims.plain r n h)
    (prec : Option ContractPrecision) (A : FVec Ideal ⟨2, ![r, n]⟩ φ₁) (Y : FVec Ideal ⟨2, ![n, h]⟩ φ₂) :
    matmul D prec A Y (constant (F := Ideal) ⟨2, ![r, h]⟩ .f32 0x00000000#32) = mm A Y := by
  funext i
  obtain ⟨p, c, rfl⟩ : ∃ (p : Fin r) (c : Fin h), i = ix2 p c := ⟨i 0, i 1, eq_ix2 i⟩
  exact (Cert.LibPlainDot.matmul_zero_apply D hD prec A Y p c).trans (mm_apply A Y p c).symm

/-- A host `dot_general` is the matrix product. -/
theorem dotGeneral_eq_mm {φ₁ φ₂ : FTy} (D : DotDims ⟨2, ![r, n]⟩ ⟨2, ![n, h]⟩ ⟨2, ![r, h]⟩) (hD : D = DotDims.plain r n h)
    (prec : Option ContractPrecision) (A : FVec Ideal ⟨2, ![r, n]⟩ φ₁) (Y : FVec Ideal ⟨2, ![n, h]⟩ φ₂) :
    Host.dotGeneral D prec A Y = mm A Y := by
  funext i
  obtain ⟨p, c, rfl⟩ : ∃ (p : Fin r) (c : Fin h), i = ix2 p c := ⟨i 0, i 1, eq_ix2 i⟩
  exact (Cert.LibPlainDot.dotGeneral_apply D hD prec .single A Y p c).trans (mm_apply A Y p c).symm

/-- The maximum with a splat of the zero word is the positive part. -/
theorem max_splat_zero (X : FVec Ideal ⟨2, ![r, h]⟩ .f32) :
    maximumf X (broadcast ⟨2, ![r, h]⟩ (Scalar.ofBits .f32 0x00000000#32 : Ideal .f32)) = relu X := by
  funext i
  show max (X i) (Ideal.ofBits .f32 0x00000000#32) = max (X i) 0
  rw [Ideal.ofBits_zero_f32]

/-- The maximum with a zero constant of any shape broadcast in dimension is the positive part. -/
theorem max_bcast_zero {s0 : Shape} (dims : Fin s0.rank → Fin (⟨2, ![r, h]⟩ : Shape).rank)
    (hb : s0.BroadcastsInDim ⟨2, ![r, h]⟩ dims) (X : FVec Ideal ⟨2, ![r, h]⟩ .f32) :
    maximumf X (broadcastInDim ⟨2, ![r, h]⟩ dims hb (constant (F := Ideal) s0 .f32 0x00000000#32)) = relu X := by
  funext i
  show max (X i) (broadcastInDim ⟨2, ![r, h]⟩ dims hb (constant (F := Ideal) s0 .f32 0x00000000#32) i) = max (X i) 0
  unfold broadcastInDim
  show max (X i) (Ideal.ofBits .f32 0x00000000#32) = max (X i) 0
  rw [Ideal.ofBits_zero_f32]

/-- The fused body of a middle layer: two matrix-unit products around the positive part. -/
theorem body_layer (D1 : DotDims ⟨2, ![r, n]⟩ ⟨2, ![n, h]⟩ ⟨2, ![r, h]⟩) (hD1 : D1 = DotDims.plain r n h)
    (D2 : DotDims ⟨2, ![r, h]⟩ ⟨2, ![h, e]⟩ ⟨2, ![r, e]⟩) (hD2 : D2 = DotDims.plain r h e)
    {φ₁ φ₂ φ₃ : FTy} (A : FVec Ideal ⟨2, ![r, n]⟩ φ₁) (Y : FVec Ideal ⟨2, ![n, h]⟩ φ₂) (W : FVec Ideal ⟨2, ![h, e]⟩ φ₃) :
    matmul D2 none (maximumf (matmul D1 none A Y (constant (F := Ideal) ⟨2, ![r, h]⟩ .f32 0x00000000#32))
        (broadcast ⟨2, ![r, h]⟩ (Scalar.ofBits .f32 0x00000000#32 : Ideal .f32))) W
      (constant (F := Ideal) ⟨2, ![r, e]⟩ .f32 0x00000000#32) = layer A Y W := by
  rw [matmul_zero_eq_mm D1 hD1, max_splat_zero]
  exact matmul_zero_eq_mm D2 hD2 none (relu (mm A Y)) W

/-- The body of the last layer: one matrix-unit product and the positive part. -/
theorem body_last (D1 : DotDims ⟨2, ![r, n]⟩ ⟨2, ![n, h]⟩ ⟨2, ![r, h]⟩) (hD1 : D1 = DotDims.plain r n h)
    {φ₁ φ₂ : FTy} (A : FVec Ideal ⟨2, ![r, n]⟩ φ₁) (Y : FVec Ideal ⟨2, ![n, h]⟩ φ₂) :
    maximumf (matmul D1 none A Y (constant (F := Ideal) ⟨2, ![r, h]⟩ .f32 0x00000000#32))
        (broadcast ⟨2, ![r, h]⟩ (Scalar.ofBits .f32 0x00000000#32 : Ideal .f32)) = relu (mm A Y) := by
  rw [matmul_zero_eq_mm D1 hD1, max_splat_zero]

/-- One host layer: the product with the weights, the product with the adjacency matrix, the positive part. -/
theorem host_layer {s0 : Shape} (DW : DotDims ⟨2, ![N, h]⟩ ⟨2, ![h, e]⟩ ⟨2, ![N, e]⟩) (hDW : DW = DotDims.plain N h e)
    (DA : DotDims ⟨2, ![r, N]⟩ ⟨2, ![N, e]⟩ ⟨2, ![r, e]⟩) (hDA : DA = DotDims.plain r N e)
    (dims : Fin s0.rank → Fin (⟨2, ![r, e]⟩ : Shape).rank) (hb : s0.BroadcastsInDim ⟨2, ![r, e]⟩ dims)
    (A : FVec Ideal ⟨2, ![r, N]⟩ .f32) (Z : FVec Ideal ⟨2, ![N, h]⟩ .f32) (W : FVec Ideal ⟨2, ![h, e]⟩ .f32) :
    maximumf (Host.dotGeneral DA none A (Host.dotGeneral DW none Z W))
        (broadcastInDim ⟨2, ![r, e]⟩ dims hb (constant (F := Ideal) s0 .f32 0x00000000#32)) = relu (mm A (mm Z W)) := by
  rw [dotGeneral_eq_mm DW hDW, dotGeneral_eq_mm DA hDA]
  exact max_bcast_zero dims hb _

/-- Row p of the matrix product reads row p of the left factor only. -/
theorem mm_rows (A' : Mat r n) (A : Mat N n) (Y : Mat n h) (p : Fin r) (p' : Fin N) (j : Fin h)
    (hA : ∀ s : Fin n, A' (ix2 p s) = A (ix2 p' s)) : mm A' Y (ix2 p j) = mm A Y (ix2 p' j) := by
  rw [mm_apply, mm_apply]
  exact Finset.sum_congr rfl fun s _ => by rw [hA s]

/-- Row p of a layer's result reads row p of the adjacency block only. -/
theorem layer_rows (A' : Mat r n) (A : Mat N n) (Y : Mat n h) (W : Mat h e) (p : Fin r) (p' : Fin N) (j : Fin e)
    (hA : ∀ s : Fin n, A' (ix2 p s) = A (ix2 p' s)) : layer A' Y W (ix2 p j) = layer A Y W (ix2 p' j) := by
  unfold layer
  rw [mm_apply, mm_apply]
  refine Finset.sum_congr rfl fun q _ => ?_
  rw [relu_apply, relu_apply, mm_rows A' A Y p p' q hA]

/-- The same for the last layer. -/
theorem last_rows (A' : Mat r n) (A : Mat N n) (Y : Mat n h) (p : Fin r) (p' : Fin N) (j : Fin h)
    (hA : ∀ s : Fin n, A' (ix2 p s) = A (ix2 p' s)) : relu (mm A' Y) (ix2 p j) = relu (mm A Y) (ix2 p' j) := by
  rw [relu_apply, relu_apply, mm_rows A' A Y p p' j hA]

end Cert.LibGcn

end
-- ==== Proof.LibColumn.lean ====
/-
  Column vectors read at an index, for any sizes.

  A keepdims reduction leaves an `[a]` vector that is viewed as an `[a, 1]` column, a column is broadcast across `b`
  lanes, and a column is flattened back to `[a]`: each of these reads the operand at the row's one entry. A lane
  maximum of an `[a, b]` array from the word for -∞, at the extended reals, is the fold of `max` over the row's `b`
  entries from that word's value, and a lane sum from the zero word is the row's sum.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.LibColumn

open Idealize.ShloMosaic ValueIdx

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector viewed as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column flattened to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- Over result index `p`, the source index of a reduction of `[a, b]` along its lanes with lane coordinate `k` is `(p, k)`. -/
theorem lift_rows {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A lane maximum of an f32 `[a, b]` array from the word of -∞, at the extended reals: the fold of `max` over the row. -/
theorem rowMax_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  refine Finset.fold_congr fun k _ => ?_
  exact congrArg src (lift_rows h p k)

/-- A lane sum of an f32 `[a, b]` array from the zero word, at the extended reals: the row's sum. -/
theorem rowSum_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  exact Finset.sum_congr rfl fun k _ => congrArg src (lift_rows h p k)

end Idealize.ShloMosaic.LibColumn

end
-- ==== Proof.R0Pay.lean ====
/-
  The three values the first kernel's body stores, read at the exact extended reals as whole-array functions of the blocks
  it loads.  A change of float format is the identity there, so
    * the scratch's payload is the matrix product x · W1;
    * the support's payload is the layer (A · S)⁺ · W2 of the adjacency row block A and the scratch's contents S;
    * the gate's payload is softmax (x · linW + b) · Wg: the one row b is added to every row of x · linW, each row's
      largest entry (taken from -∞, and once more against -∞) is subtracted, the exponentials are divided by their row's
      sum, and the result is multiplied by Wg.
-/
import proofs.«156757_g65309272703512_cont_9to1c4b_471_27_alg».proof.Proof.Gen.KernelIdeal.Skeleton
import proofs.«156757_g65309272703512_cont_9to1c4b_471_27_alg».proof.Proof.Spec
import proofs.«156757_g65309272703512_cont_9to1c4b_471_27_alg».proof.Proof.LibGcn
import proofs.«156757_g65309272703512_cont_9to1c4b_471_27_alg».proof.Proof.LibColumn
import proofs.«156757_g65309272703512_cont_9to1c4b_471_27_alg».proof.Proof.LibConsts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen Cert.Spec

/-- The scratch's payload: x · W1. -/
theorem pay2_eq (x : Vec Ideal S10000x128 .f32) (w1 : Vec Ideal S128x128 .f32) :
    (k0_pay2 x w1 : S10000x128.Idx → EReal) = mm x w1 := by
  unfold k0_pay2 k0_pay1
  dsimp only
  rw [shapeCast_self]
  exact Cert.LibGcn.matmul_zero_eq_mm (φ₁ := .bf16) (φ₂ := .bf16) _ rfl none x w1

/-- The support's payload: the layer of the adjacency row block, the scratch and W2. -/
theorem pay4_eq (a : Vec Ideal S400x10000 .f32) (s : Vec Ideal S10000x128 .bf16) (w2 : Vec Ideal S128x64 .f32) :
    (k0_pay4 a s w2 : S400x64.Idx → EReal) = Cert.LibGcn.layer a s w2 := by
  unfold k0_pay4
  dsimp only
  exact Cert.LibGcn.body_layer _ rfl _ rfl (φ₁ := .bf16) (φ₂ := .bf16) (φ₃ := .bf16) a s w2

open Idealize.ShloMosaic.LibColumn Cert.Dgcn

/-- x · linW plus the one row b on every row. -/
theorem pre_eq (x : Vec Ideal S10000x128 .f32) (lw : Vec Ideal S128x64 .f32) (b : Vec Ideal S1x64 .f32)
    (hc : S1x64.ShapeCasts S1x64) (hb : S1x64.Broadcasts S10000x64) :
    (addf (matmul dot_S10000x128_S128x64_S10000x64_1_0_0_1_n_n none (truncf .bf16 x bitsLt_bf16_f32) (truncf .bf16 lw bitsLt_bf16_f32)
        (constant (F := Ideal) S10000x64 .f32 0x00000000#32))
      (broadcastTo S10000x64 (shapeCast S1x64 b hc) hb) : FVec Ideal S10000x64 .f32) = addRow (mm x lw) b := by
  rw [shapeCast_self]
  funext i
  obtain ⟨p, j, rfl⟩ : ∃ (p : Fin 10000) (j : Fin 64), i = ix2 p j := ⟨i 0, i 1, eq_ix2 i⟩
  rw [addf_apply, addRow_apply]
  exact congrArg₂ (· + ·)
    (congrFun (Cert.LibGcn.matmul_zero_eq_mm (φ₁ := .bf16) (φ₂ := .bf16) dot_S10000x128_S128x64_S10000x64_1_0_0_1_n_n rfl none x lw) (ix2 p j))
    (broadcastTo_1b_ab_apply b hb p j)

/-- The row maximum, as a column broadcast back over the lanes. -/
theorem rowMaxB_apply (X : FVec Ideal S10000x64 .f32) (hr : S10000x64.Reduces [1] S10000) (hφ : FKind.Formats .f32)
    (hacc : (0xFF800000#32 : BitVec 32) = 0xFF800000#32) (hc : S10000.ShapeCasts S10000x1) (hb : S10000x1.Broadcasts S10000x64)
    (p : Fin 10000) (c : Fin 64) :
    broadcastTo S10000x64 (shapeCast S10000x1 (maximumf (broadcast S10000 (Scalar.ofBits .f32 0xFF800000#32 : Ideal .f32))
      (multiReduction .maximumf [1] S10000 X 0xFF800000#32 hr hφ hacc)) hc) hb (ix2 p c) = rowMax X p := by
  refine (broadcastTo_a1_ab_apply _ hb p c).trans ?_
  refine (shapeCast_a_a1_apply _ hc p (0 : Fin 1)).trans ?_
  rw [maximumf_apply, broadcast_apply]
  exact congrArg (max _ ·) (rowMax_f32 X hr hφ hacc p)

/-- The exponentials of the entries less their row's maximum. -/
theorem expB_eq (X : FVec Ideal S10000x64 .f32) (hr : S10000x64.Reduces [1] S10000) (hφ : FKind.Formats .f32)
    (hacc : (0xFF800000#32 : BitVec 32) = 0xFF800000#32) (hc : S10000.ShapeCasts S10000x1) (hb : S10000x1.Broadcasts S10000x64) :
    (exp (subf X (broadcastTo S10000x64 (shapeCast S10000x1 (maximumf (broadcast S10000 (Scalar.ofBits .f32 0xFF800000#32 : Ideal .f32))
      (multiReduction .maximumf [1] S10000 X 0xFF800000#32 hr hφ hacc)) hc) hb)) : FVec Ideal S10000x64 .f32) = expShift X := by
  funext i
  obtain ⟨p, j, rfl⟩ : ∃ (p : Fin 10000) (j : Fin 64), i = ix2 p j := ⟨i 0, i 1, eq_ix2 i⟩
  rw [expShift_apply]
  show Ideal.exp (X (ix2 p j) - _) = _
  rw [rowMaxB_apply X hr hφ hacc hc hb p j]

/-- The row sum, as a column broadcast back over the lanes. -/
theorem rowSumB_apply (E : FVec Ideal S10000x64 .f32) (hr : S10000x64.Reduces [1] S10000) (hφ : FKind.Formats .f32)
    (hacc : (0x00000000#32 : BitVec 32) = 0x00000000#32) (hc : S10000.ShapeCasts S10000x1) (hb : S10000x1.Broadcasts S10000x64)
    (p : Fin 10000) (c : Fin 64) :
    broadcastTo S10000x64 (shapeCast S10000x1 (multiReduction .add [1] S10000 E 0x00000000#32 hr hφ hacc) hc) hb (ix2 p c)
      = ∑ k : Fin 64, E (ix2 p k) := by
  refine (broadcastTo_a1_ab_apply _ hb p c).trans ?_
  refine (shapeCast_a_a1_apply _ hc p (0 : Fin 1)).trans ?_
  exact rowSum_f32 E hr hφ hacc p

/-- The gate's payload as whole arrays. -/
theorem pay3_eq (x : Vec Ideal S10000x128 .f32) (lw : Vec Ideal S128x64 .f32) (b : Vec Ideal S1x64 .f32) (wg : Vec Ideal S64x64 .f32) :
    (k0_pay3 x lw b wg : S10000x64.Idx → EReal) = gate x lw b wg := by
  unfold k0_pay3 k0_pay1
  dsimp only
  rw [pre_eq, expB_eq]
  refine (Cert.LibGcn.matmul_zero_eq_mm (φ₁ := .bf16) (φ₂ := .bf16) _ rfl none _ wg).trans ?_
  unfold gate
  refine congrArg (mm · wg) ?_
  funext i
  obtain ⟨p, j, rfl⟩ : ∃ (p : Fin 10000) (j : Fin 64), i = ix2 p j := ⟨i 0, i 1, eq_ix2 i⟩
  rw [softmax_apply]
  show Ideal.div (expShift _ (ix2 p j)) _ = _
  rw [rowSumB_apply]

end Cert.KernelIdeal.Hand

end
-- ==== Proof.R0Value.lean ====
/-
  The two arrays the first kernel leaves, as functions of the arrays the region is entered with, at the exact extended reals.

  Each store of the body writes a whole staging buffer from whole buffers, so what it leaves is its payload: the scratch
  holds x · W1, the gate's window softmax (x · linW + b) · Wg, the support's window the layer (A · S)⁺ · W2 of the
  adjacency row block A and the scratch S.  Every window but the adjacency matrix's and the support's is its whole
  array; those two are at row block t at point t, 400 rows each.  Row p of a layer reads row p of the adjacency block
  only, so point t's block of the support is rows 400 t … 400 t + 399 of (adj · (x · W1))⁺ · W2, and row r of the array
  is written by point r / 400.  The gate's window is one block, the whole array, written back after the last point.
-/
import proofs.«156757_g65309272703512_cont_9to1c4b_471_27_alg».proof.Proof.R0
import proofs.«156757_g65309272703512_cont_9to1c4b_471_27_alg».proof.Proof.R0Pay
import proofs.«156757_g65309272703512_cont_9to1c4b_471_27_alg».proof.Proof.Spec
import proofs.«156757_g65309272703512_cont_9to1c4b_471_27_alg».proof.Proof.LibGcn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.Spec

/-- The zero offsets of a whole-buffer rectangle. -/
theorem hz2 : (![0, 0] : Fin 2 → Nat) = fun _ => 0 := funext fun a => by fin_cases a <;> rfl

/-! ## What the body's stores leave, as whole-array functions -/

/-- The scratch after the first point's store: x · W1. -/
theorem scr0_eq (x : Vec Ideal S10000x128 .f32) (w1 : Vec Ideal S128x128 .f32) :
    (scr0 x w1 : S10000x128.Idx → EReal) = mm x w1 := by
  unfold scr0
  rw [View.canon_unit_zero hz2]
  simp only [View.ld_unit_zero (S := S10000x128) hz2, View.ld_unit_zero (S := S128x128) hz2]
  exact pay2_eq x w1

/-- The gate's window after the first point's store: the gate. -/
theorem out0_8_eq (x : Vec Ideal S10000x128 .f32) (lw : Vec Ideal S128x64 .f32) (b : Vec Ideal S1x64 .f32) (wg : Vec Ideal S64x64 .f32) :
    (out0_8 x lw b wg : S10000x64.Idx → EReal) = Cert.Dgcn.gate x lw b wg := by
  unfold out0_8
  rw [View.canon_unit_zero hz2]
  simp only [View.ld_unit_zero (S := S10000x128) hz2, View.ld_unit_zero (S := S128x64) hz2, View.ld_unit_zero (S := S1x64) hz2,
    View.ld_unit_zero (S := S64x64) hz2]
  exact pay3_eq x lw b wg

/-- The support's window after the body: the layer of its adjacency block, the scratch and W2. -/
theorem out0_7_eq (a : Vec Ideal S400x10000 .f32) (s : Vec Ideal S10000x128 .bf16) (w2 : Vec Ideal S128x64 .f32) :
    (out0_7 a s w2 : S400x64.Idx → EReal) = Cert.LibGcn.layer a s w2 := by
  unfold out0_7
  rw [View.canon_unit_zero hz2]
  simp only [View.ld_unit_zero (S := S400x10000) hz2, View.ld_unit_zero (S := S10000x128) hz2, View.ld_unit_zero (S := S128x64) hz2]
  exact pay4_eq a s w2

/-! ## The blocks the body reads, as parts of the arrays the region is entered with -/

section Blocks
variable {F : FTy → Type} [FloatOps F]
variable (V : (c : Dev nD) → (b : Ref sig .tc) → Buf (Elt F) ((c : Thread nD τ).loc b))

/-- The printed index maps, decided once over the grid: the adjacency window and the support's window are at row block t,
    every other window at block (0, 0). -/
theorem idx_facts0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = 0 ∧ win0_8.index t (1 : Fin 2) = 0) :=
  (by decide +kernel : ∀ t : Fin grid0.N, _)

/-- The adjacency window's block at point t is rows 400 t … 400 t + 399 of the adjacency matrix. -/
theorem iblk0_0_apply (c : Dev nD) (t : Fin cfg0.N) (y : S400x10000.Idx) (k : S10000x10000.Idx)
    (hk0 : (k 0).val = 400 * t.val + (y 0).val) (hk1 : (k 1).val = (y 1).val) :
    (iblk0 V c 0 t : Vec F S400x10000 .f32) y = (V c main_arg1 : S10000x10000.Idx → Elt F .f32) k := by
  obtain ⟨⟨e0, e1⟩, -⟩ := idx_facts0 t
  unfold iblk0
  rw [View.read_apply]
  show V c main_arg1 _ = V c main_arg1 _
  congr 1
  funext a
  apply Fin.ext
  match a with
  | ⟨0, _⟩ => show win0_0.index t 0 * 400 + 1 * (y 0).val = (k 0).val; rw [e0, hk0]; omega
  | ⟨1, _⟩ => show win0_0.index t 1 * 10000 + 1 * (y 1).val = (k 1).val; rw [e1, hk1]; omega

/-- The window of x holds the whole array at every point. -/
theorem iblk0_1_eq (c : Dev nD) (t : Fin cfg0.N) : (iblk0 V c 1 t : Vec F S10000x128 .f32) = V c main_arg0 := by
  obtain ⟨e0, e1⟩ := (idx_facts0 t).2.1
  funext y
  unfold iblk0
  rw [View.read_apply]
  show V c main_arg0 _ = V c main_arg0 _
  congr 1
  funext a
  apply Fin.ext
  match a with
  | ⟨0, _⟩ => show win0_1.index t 0 * 10000 + 1 * (y 0).val = (y 0).val; rw [e0]; omega
  | ⟨1, _⟩ => show win0_1.index t 1 * 128 + 1 * (y 1).val = (y 1).val; rw [e1]; omega

/-- The window of W1 holds the whole array at every point. -/
theorem iblk0_2_eq (c : Dev nD) (t : Fin cfg0.N) : (iblk0 V c 2 t : Vec F S128x128 .f32) = V c main_arg4 := by
  obtain ⟨e0, e1⟩ := (idx_facts0 t).2.2.1
  funext y
  unfold iblk0
  rw [View.read_apply]
  show V c main_arg4 _ = V c main_arg4 _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- The window of W2 holds the whole array at every point. -/
theorem iblk0_3_eq (c : Dev nD) (t : Fin cfg0.N) : (iblk0 V c 3 t : Vec F S128x64 .f32) = V c main_arg5 := by
  obtain ⟨e0, e1⟩ := (idx_facts0 t).2.2.2.1
  funext y
  unfold iblk0
  rw [View.read_apply]
  show V c main_arg5 _ = V c main_arg5 _
  congr 1
  funext a
  apply Fin.ext
  match a with
  | ⟨0, _⟩ => show win0_3.index t 0 * 128 + 1 * (y 0).val = (y 0).val; rw [e0]; omega
  | ⟨1, _⟩ => show win0_3.index t 1 * 64 + 1 * (y 1).val = (y 1).val; rw [e1]; omega

/-- The window of linW holds the whole array at every point. -/
theorem iblk0_4_eq (c : Dev nD) (t : Fin cfg0.N) : (iblk0 V c 4 t : Vec F S128x64 .f32) = V c main_arg6 := by
  obtain ⟨e0, e1⟩ := (idx_facts0 t).2.2.2.2.1
  funext y
  unfold iblk0
  rw [View.read_apply]
  show V c main_arg6 _ = V c main_arg6 _
  congr 1
  funext a
  apply Fin.ext
  match a with
  | ⟨0, _⟩ => show win0_4.index t 0 * 128 + 1 * (y 0).val = (y 0).val; rw [e0]; omega
  | ⟨1, _⟩ => show win0_4.index t 1 * 64 + 1 * (y 1).val = (y 1).val; rw [e1]; omega

/-- The window of the row b holds the whole array at every point. -/
theorem iblk0_5_eq (c : Dev nD) (t : Fin cfg0.N) : (iblk0 V c 5 t : Vec F S1x64 .f32) = V c main_call0_v1 := by
  obtain ⟨e0, e1⟩ := (idx_facts0 t).2.2.2.2.2.1
  funext y
  unfold iblk0
  rw [View.read_apply]
  show V c main_call0_v1 _ = V c main_call0_v1 _
  congr 1
  funext a
  apply Fin.ext
  match a with
  | ⟨0, _⟩ => show win0_5.index t 0 * 1 + 1 * (y 0).val = (y 0).val; rw [e0]; omega
  | ⟨1, _⟩ => show win0_5.index t 1 * 64 + 1 * (y 1).val = (y 1).val; rw [e1]; omega

/-- The window of Wg holds the whole array at every point. -/
theorem iblk0_6_eq (c : Dev nD) (t : Fin cfg0.N) : (iblk0 V c 6 t : Vec F S64x64 .f32) = V c main_arg8 := by
  obtain ⟨e0, e1⟩ := (idx_facts0 t).2.2.2.2.2.2.1
  funext y
  unfold iblk0
  rw [View.read_apply]
  show V c main_arg8 _ = V c main_arg8 _
  congr 1
  funext a
  apply Fin.ext
  match a with
  | ⟨0, _⟩ => show win0_6.index t 0 * 64 + 1 * (y 0).val = (y 0).val; rw [e0]; omega
  | ⟨1, _⟩ => show win0_6.index t 1 * 64 + 1 * (y 1).val = (y 1).val; rw [e1]; omega

end Blocks

/-! ## From blocks to the arrays -/

/-- Row p of the layer of a block of 400 rows of the adjacency matrix is row 400 t + p of the layer of the whole matrix. -/
theorem layer_block (adj : Mat 10000 10000) (A' : Mat 400 10000) (Y : Mat 10000 128) (W : Mat 128 64) (tv : ℕ)
    (hA : ∀ (y : S400x10000.Idx) (k : S10000x10000.Idx), (k 0).val = 400 * tv + (y 0).val → (k 1).val = (y 1).val → A' y = adj k)
    (j : S400x64.Idx) (i : S10000x64.Idx) (hi0 : (i 0).val = 400 * tv + (j 0).val) (hi1 : (i 1).val = (j 1).val) :
    Cert.LibGcn.layer A' Y W j = Cert.LibGcn.layer adj Y W i := by
  obtain ⟨p, q, rfl⟩ : ∃ (p : Fin 400) (q : Fin 64), j = ix2 p q := ⟨j 0, j 1, eq_ix2 j⟩
  obtain ⟨p', q', rfl⟩ : ∃ (p' : Fin 10000) (q' : Fin 64), i = ix2 p' q' := ⟨i 0, i 1, eq_ix2 i⟩
  have hq : q' = q := Fin.ext hi1
  subst hq
  exact Cert.LibGcn.layer_rows A' adj Y W p p' q' (fun s => hA (ix2 p s) (ix2 p' s) hi0 rfl)

section Value
variable (V : (c : Dev nD) → (b : Ref sig .tc) → Buf (Elt Ideal) ((c : Thread nD τ).loc b))

/-- The scratch from the first point on: x · W1. -/
theorem scrOf_eq (c : Dev nD) :
    (scrOf V c : S10000x128.Idx → EReal) = mm (V c main_arg0 : Mat 10000 128) (V c main_arg4 : Mat 128 128) :=
  (scr0_eq (iblk0 V c 1 t0) (iblk0 V c 2 t0)).trans (by rw [iblk0_1_eq V c t0, iblk0_2_eq V c t0])

/-- The gate's window from the first point on: the gate. -/
theorem gateOf_eq (c : Dev nD) :
    (gateOf V c : S10000x64.Idx → EReal)
      = Cert.Dgcn.gate (V c main_arg0 : Mat 10000 128) (V c main_arg6 : Mat 128 64) (V c main_call0_v1 : Mat 1 64) (V c main_arg8 : Mat 64 64) :=
  (out0_8_eq (iblk0 V c 1 t0) (iblk0 V c 4 t0) (iblk0 V c 5 t0) (iblk0 V c 6 t0)).trans
    (by rw [iblk0_1_eq V c t0, iblk0_4_eq V c t0, iblk0_5_eq V c t0, iblk0_6_eq V c t0])

/-- What point t writes back of the support is block t of the support of the whole arrays. -/
theorem flushed7_eq (c : Dev nD) (t : Fin cfg0.N) :
    (dat0 V c).flushed 7 t = ((cfg0.win 7).blk t).view.read (Elt Ideal)
      (Cert.Dgcn.support2 (V c main_arg1 : Mat 10000 10000) (V c main_arg0 : Mat 10000 128) (V c main_arg4 : Mat 128 128)
        (V c main_arg5 : Mat 128 64) : S10000x64.Idx → EReal) := by
  show (cfg0.win 7).cut (grid0.coords t) ((dat0 V c).after 7 t) = _
  rw [after0_7]
  obtain ⟨e0, e1⟩ := (idx_facts0 t).2.2.2.2.2.2.2.1
  funext j
  show (out0_7 (iblk0 V c 0 t) (scrOf V c) (iblk0 V c 3 t) : S400x64.Idx → EReal) j
    = Cert.LibGcn.layer (V c main_arg1 : Mat 10000 10000) (mm (V c main_arg0 : Mat 10000 128) (V c main_arg4 : Mat 128 128))
        (V c main_arg5 : Mat 128 64) (((cfg0.win 7).blk t).view.emb j)
  refine (congrFun (out0_7_eq (iblk0 V c 0 t) (scrOf V c) (iblk0 V c 3 t)) j).trans ?_
  rw [scrOf_eq V c, iblk0_3_eq V c t]
  refine layer_block (V c main_arg1) (iblk0 V c 0 t) _ _ t.val (fun y k h0 h1 => iblk0_0_apply V c t y k h0 h1) j _ ?_ ?_
  · show win0_7.index t 0 * 400 + 1 * (j 0).val = 400 * t.val + (j 0).val; rw [e0]; omega
  · show win0_7.index t 1 * 64 + 1 * (j 1).val = (j 1).val; rw [e1]; omega

end Value

section Arrays
variable (V : (c : Dev nD) → (b : Ref sig .tc) → Buf (Elt Ideal) ((c : Thread nD τ).loc b))

/-- An index of the support's array is in point t's block iff each coordinate is in the block's range on its axis. -/
theorem mem_blk7 (t : Fin cfg0.N) (i : S10000x64.Idx) :
    i ∈ ((cfg0.win 7).blk t).view.set ↔ ∀ a : Fin 2, win0_7.index t a * S400x64.size a ≤ (i a).val ∧ (i a).val < win0_7.index t a * S400x64.size a + S400x64.size a := by
  show i ∈ ((View.whole main_call0_v2_0).slice (win0_7.rect t)).set ↔ _
  rw [View.set_slice_whole, Rect.mem_set_unit]
  exact Iff.rfl

/-- The support's array after the region: row r was written by point r / 400. -/
theorem arr0_7 (c : Dev nD) :
    ((dat0 V c).arrAt 7 cfg0.N : S10000x64.Idx → EReal)
      = Cert.Dgcn.support2 (V c main_arg1 : Mat 10000 10000) (V c main_arg0 : Mat 10000 128) (V c main_arg4 : Mat 128 128)
          (V c main_arg5 : Mat 128 64) :=
  (dat0 V c).arrAt_eq_of_cover 7 _ (fun t _ => flushed7_eq V c t) fun i => by
    have hi0 : (i 0).val < 10000 := (i 0).isLt
    have hi1 : (i 1).val < 64 := (i 1).isLt
    have hN : cfg0.N = 25 := N_0
    obtain ⟨t, ht⟩ : ∃ t : Fin cfg0.N, t.val = (i 0).val / 400 := ⟨⟨(i 0).val / 400, by omega⟩, rfl⟩
    obtain ⟨e0, e1⟩ := (idx_facts0 t).2.2.2.2.2.2.2.1
    refine ⟨t, flush0_7 t, ?_⟩
    rw [mem_blk7]
    intro a
    match a with
    | ⟨0, _⟩ => show win0_7.index t 0 * 400 ≤ (i 0).val ∧ (i 0).val < win0_7.index t 0 * 400 + 400; rw [e0]; omega
    | ⟨1, _⟩ => show win0_7.index t 1 * 64 ≤ (i 1).val ∧ (i 1).val < win0_7.index t 1 * 64 + 64; rw [e1]; omega

/-- What a point writes back of the gate's window is the gate of the whole arrays: the window's one block is the array. -/
theorem flushed8_eq (c : Dev nD) (t : Fin cfg0.N) :
    (dat0 V c).flushed 8 t = ((cfg0.win 8).blk t).view.read (Elt Ideal)
      (Cert.Dgcn.gate (V c main_arg0 : Mat 10000 128) (V c main_arg6 : Mat 128 64) (V c main_call0_v1 : Mat 1 64)
        (V c main_arg8 : Mat 64 64) : S10000x64.Idx → EReal) := by
  show (cfg0.win 8).cut (grid0.coords t) ((dat0 V c).after 8 t) = _
  rw [after0_8]
  obtain ⟨e0, e1⟩ := (idx_facts0 t).2.2.2.2.2.2.2.2
  funext j
  show (gateOf V c : S10000x64.Idx → EReal) j
    = Cert.Dgcn.gate (V c main_arg0 : Mat 10000 128) (V c main_arg6 : Mat 128 64) (V c main_call0_v1 : Mat 1 64)
        (V c main_arg8 : Mat 64 64) (((cfg0.win 8).blk t).view.emb j)
  rw [gateOf_eq V c]
  refine congrArg _ ?_
  funext a
  apply Fin.ext
  match a with
  | ⟨0, _⟩ => show (j 0).val = win0_8.index t 0 * 10000 + 1 * (j 0).val; rw [e0]; omega
  | ⟨1, _⟩ => show (j 1).val = win0_8.index t 1 * 64 + 1 * (j 1).val; rw [e1]; omega

/-- An index of the gate's array is in point t's block iff each coordinate is in the block's range on its axis. -/
theorem mem_blk8 (t : Fin cfg0.N) (i : S10000x64.Idx) :
    i ∈ ((cfg0.win 8).blk t).view.set ↔ ∀ a : Fin 2, win0_8.index t a * S10000x64.size a ≤ (i a).val ∧ (i a).val < win0_8.index t a * S10000x64.size a + S10000x64.size a := by
  show i ∈ ((View.whole main_call0_v2_1).slice (win0_8.rect t)).set ↔ _
  rw [View.set_slice_whole, Rect.mem_set_unit]
  exact Iff.rfl

/-- The gate's array after the region: written whole after the last point. -/
theorem arr0_8 (c : Dev nD) :
    ((dat0 V c).arrAt 8 cfg0.N : S10000x64.Idx → EReal)
      = Cert.Dgcn.gate (V c main_arg0 : Mat 10000 128) (V c main_arg6 : Mat 128 64) (V c main_call0_v1 : Mat 1 64)
          (V c main_arg8 : Mat 64 64) :=
  (dat0 V c).arrAt_eq_of_cover 8 _ (fun t _ => flushed8_eq V c t) fun i => by
    have hi0 : (i 0).val < 10000 := (i 0).isLt
    have hi1 : (i 1).val < 64 := (i 1).isLt
    have hN : cfg0.N = 25 := N_0
    obtain ⟨t, ht⟩ : ∃ t : Fin cfg0.N, t.val = 24 := ⟨⟨24, by omega⟩, rfl⟩
    obtain ⟨e0, e1⟩ := (idx_facts0 t).2.2.2.2.2.2.2.2
    refine ⟨t, (flush0_8 t).mpr (by omega), ?_⟩
    rw [mem_blk8]
    intro a
    match a with
    | ⟨0, _⟩ => show win0_8.index t 0 * 10000 ≤ (i 0).val ∧ (i 0).val < win0_8.index t 0 * 10000 + 10000; rw [e0]; omega
    | ⟨1, _⟩ => show win0_8.index t 1 * 64 ≤ (i 1).val ∧ (i 1).val < win0_8.index t 1 * 64 + 64; rw [e1]; omega

end Arrays

end Cert.KernelIdeal.Hand

end
-- ==== Proof.R1Pay.lean ====
/-
  The second kernel's arithmetic at the exact extended reals: from its six loaded vectors (α, the adjacency row block,
  s2, the q row block, the k row block, g) the body stores
      softmax (adj · s2) + (q + a · (k - q)) · g,        a = 1 / (1 + e^(-α)),
  the softmax row by row as the body spells it (the lane maximum from -∞, once more against -∞, subtracted, the
  exponential, the quotient by the lane sum), both products taken by the matrix unit into a zero accumulator, the
  changes of float format being the identity.
-/
import proofs.«156757_g65309272703512_cont_9to1c4b_471_27_alg».proof.Proof.Gen.KernelIdeal.Skeleton
import proofs.«156757_g65309272703512_cont_9to1c4b_471_27_alg».proof.Proof.Spec
import proofs.«156757_g65309272703512_cont_9to1c4b_471_27_alg».proof.Proof.LibGcn
import proofs.«156757_g65309272703512_cont_9to1c4b_471_27_alg».proof.Proof.LibColumn
import proofs.«156757_g65309272703512_cont_9to1c4b_471_27_alg».proof.Proof.LibConsts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.ValueIdx Idealize.ShloMosaic.LibColumn
open Cert.KernelIdeal Cert.KernelIdeal.Gen Cert.Spec Cert.Dgcn

/-- The printed dimension numbers of both products are the plain ones: rows × inner times inner × columns. -/
theorem dot1_plain : dot_S200x10000_S10000x64_S200x64_1_0_0_1_n_n = DotDims.plain 200 10000 64 := rfl

/-- The position (0, 0) of a 1 × 1 array. -/
theorem ix00 (h : ∀ a, (![0, 0] : Fin 2 → Nat) a < S1x1.size a) :
    (fun a => (⟨(![0, 0] : Fin 2 → Nat) a, h a⟩ : Fin (S1x1.size a))) = ix2 (0 : Fin 1) (0 : Fin 1) := by
  funext a; apply Fin.ext; fin_cases a <;> rfl

/-- The shifted exponentials as the body spells them: the lane maximum from -∞, once more against the splat of -∞,
    viewed as a column, broadcast across the lanes, subtracted, the exponential. -/
theorem expShift_spelt {a b : ℕ} (X : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hm : (0xFF800000#32 : BitVec 32) = 0xFF800000#32) :
    exp (subf X (broadcastTo ⟨2, ![a, b]⟩ (shapeCast ⟨2, ![a, 1]⟩
        (maximumf (broadcast ⟨1, ![a]⟩ (Scalar.ofBits .f32 0xFF800000#32 : Ideal .f32))
          (multiReduction .maximumf [1] ⟨1, ![a]⟩ X 0xFF800000#32 hr hφ hm)) hc) hb))
      = expShift X := by
  funext i
  obtain ⟨p, c, rfl⟩ : ∃ (p : Fin a) (c : Fin b), i = ix2 p c := ⟨i 0, i 1, eq_ix2 i⟩
  show Ideal.exp (X (ix2 p c) - broadcastTo ⟨2, ![a, b]⟩ _ hb (ix2 p c)) = Ideal.exp (X (ix2 p c) - rowMax X p)
  rw [broadcastTo_a1_ab_apply, shapeCast_a_a1_apply]
  show Ideal.exp (X (ix2 p c) - max (Ideal.ofBits .f32 0xFF800000#32)
    (multiReduction .maximumf [1] ⟨1, ![a]⟩ X 0xFF800000#32 hr hφ hm (ix1 p))) = _
  rw [rowMax_f32]
  rfl

/-- The quotient by the row's sum as the body spells it: the lane sum from zero, viewed as a column, broadcast across
    the lanes, the quotient. -/
theorem divRowSum_spelt {a b : ℕ} (E : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hs : (0x00000000#32 : BitVec 32) = 0x00000000#32) :
    divf E (broadcastTo ⟨2, ![a, b]⟩ (shapeCast ⟨2, ![a, 1]⟩
        (multiReduction .add [1] ⟨1, ![a]⟩ E 0x00000000#32 hr hφ hs) hc) hb)
      = fun i => Ideal.div (E i) (∑ c : Fin b, E (ix2 (i 0) c)) := by
  funext i
  obtain ⟨p, c, rfl⟩ : ∃ (p : Fin a) (c : Fin b), i = ix2 p c := ⟨i 0, i 1, eq_ix2 i⟩
  show Ideal.div (E (ix2 p c)) (broadcastTo ⟨2, ![a, b]⟩ _ hb (ix2 p c)) = Ideal.div (E (ix2 p c)) (∑ k : Fin b, E (ix2 p k))
  rw [broadcastTo_a1_ab_apply, shapeCast_a_a1_apply, rowSum_f32]

/-- The row-wise softmax as the body spells it. -/
theorem softmax_spelt {a b : ℕ} (X : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hm : (0xFF800000#32 : BitVec 32) = 0xFF800000#32) (hs : (0x00000000#32 : BitVec 32) = 0x00000000#32) :
    divf (exp (subf X (broadcastTo ⟨2, ![a, b]⟩ (shapeCast ⟨2, ![a, 1]⟩
        (maximumf (broadcast ⟨1, ![a]⟩ (Scalar.ofBits .f32 0xFF800000#32 : Ideal .f32))
          (multiReduction .maximumf [1] ⟨1, ![a]⟩ X 0xFF800000#32 hr hφ hm)) hc) hb)))
      (broadcastTo ⟨2, ![a, b]⟩ (shapeCast ⟨2, ![a, 1]⟩
        (multiReduction .add [1] ⟨1, ![a]⟩ (exp (subf X (broadcastTo ⟨2, ![a, b]⟩ (shapeCast ⟨2, ![a, 1]⟩
        (maximumf (broadcast ⟨1, ![a]⟩ (Scalar.ofBits .f32 0xFF800000#32 : Ideal .f32))
          (multiReduction .maximumf [1] ⟨1, ![a]⟩ X 0xFF800000#32 hr hφ hm)) hc) hb))) 0x00000000#32 hr hφ hs) hc) hb)
      = softmax X := by
  rw [expShift_spelt, divRowSum_spelt]
  rfl

/-- q + a · (k - q) as the body spells it, entry by entry. -/
theorem mix_spelt {n d : ℕ} (a : EReal) (K Q : FVec Ideal ⟨2, ![n, d]⟩ .f32) :
    addf Q (mulf (broadcast ⟨2, ![n, d]⟩ (a : Ideal .f32)) (subf K Q)) = mix a K Q := rfl

/-- The second kernel's payload from its six loaded vectors (α, the adjacency block, s2, the q block, the k block, g):
    softmax (adj · s2) + (q + a · (k - q)) · g with a the logistic function of α's one entry. -/
theorem pay1_eq (v0 : Vec Ideal S1x1 .f32) (v4 : Vec Ideal S200x10000 .f32) (v6 : Vec Ideal S10000x64 .bf16)
    (v9 v10 : Vec Ideal S200x10000 .f32) (v16 : Vec Ideal S10000x64 .bf16) :
    k1_pay1 (F := Ideal) v0 v4 v6 v9 v10 v16
      = fun i => softmax (mm v4 v6) i + mm (mix (Ideal.logistic (v0 (ix2 (0 : Fin 1) (0 : Fin 1)))) v10 v9) v16 i := by
  have hS : matmul dot_S200x10000_S10000x64_S200x64_1_0_0_1_n_n none (truncf .bf16 v4 bitsLt_bf16_f32)
      (shapeCast S10000x64 v6 shapeCasts_S10000x64_S10000x64 : FVec Ideal S10000x64 .bf16) (constant (F := Ideal) S200x64 .f32 0x00000000#32) = mm v4 v6 := by
    rw [shapeCast_self]
    exact Cert.LibGcn.matmul_zero_eq_mm _ dot1_plain none _ _
  have ha : extractAt ![0, 0] (logistic (shapeCast S1x1 v0 shapeCasts_S1x1_S1x1 : FVec Ideal S1x1 .f32)) inpos_S1x1_p0_0
      = Ideal.logistic (v0 (ix2 (0 : Fin 1) (0 : Fin 1))) := by
    rw [shapeCast_self]
    show Ideal.logistic (v0 _) = _
    rw [ix00]
  unfold k1_pay1
  dsimp only
  rw [hS, ha, softmax_spelt, mix_spelt, shapeCast_self]
  rw [Cert.LibGcn.matmul_zero_eq_mm _ dot1_plain]
  rfl

end Cert.KernelIdeal.Hand

end
-- ==== Proof.R1Value.lean ====
/-
  The second kernel's result array at the exact extended reals, as one function of the arrays the region finds
  (α, adj, k, q, s2, g), for any contents at the region's entry:
      softmax (adj · s2) + (q + a · (k - q)) · g,        a = 1 / (1 + e^(-α)).
  Each grid point t handles the 200 rows 200 t … 200 t + 199: its three row-block windows hold those rows of adj, k and
  q, its three whole windows hold α, s2 and g, and row p of the body's result reads row p of the row blocks only, so
  the block written back at point t is block t of the whole arrays' function. The 50 blocks cover the 10000 rows
  (row r lies in block r / 200), so the array ends holding that function.
-/
import proofs.«156757_g65309272703512_cont_9to1c4b_471_27_alg».proof.Proof.R1
import proofs.«156757_g65309272703512_cont_9to1c4b_471_27_alg».proof.Proof.R1Pay
import proofs.«156757_g65309272703512_cont_9to1c4b_471_27_alg».proof.Proof.Spec
import proofs.«156757_g65309272703512_cont_9to1c4b_471_27_alg».proof.Proof.LibGcn
import proofs.«156757_g65309272703512_cont_9to1c4b_471_27_alg».proof.Proof.LibColumn
import proofs.«156757_g65309272703512_cont_9to1c4b_471_27_alg».proof.Proof.LibConsts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.Spec Cert.Dgcn

theorem off00 : (![0, 0] : Fin 2 → Nat) = fun _ => 0 := funext fun a => by fin_cases a <;> rfl

/-- What the body leaves in the output window's staging buffer, from the six input blocks, at the exact extended
    reals: the whole-buffer loads read the blocks, the one whole-buffer store leaves the payload. -/
theorem out1_6_eq (x0 : Vec Ideal S1x1 .f32) (x1 x2 x3 : Vec Ideal S200x10000 .f32) (x4 x5 : Vec Ideal S10000x64 .bf16) :
    out1_6 (F := Ideal) x0 x1 x2 x3 x4 x5
      = fun i => softmax (mm x1 x4) i + mm (mix (Ideal.logistic (x0 (ix2 (0 : Fin 1) (0 : Fin 1)))) x2 x3) x5 i := by
  unfold out1_6
  rw [View.canon_unit_zero off00]
  simp only [View.ld_unit_zero (S := S1x1) off00, View.ld_unit_zero (S := S200x10000) off00,
    View.ld_unit_zero (S := S10000x64) off00]
  exact pay1_eq x0 x1 x4 x3 x2 x5

/-- Row p of the softmax reads row p of its argument only. -/
theorem softmax_rows {r N d : ℕ} (X' : Mat r d) (X : Mat N d) (p : Fin r) (p' : Fin N) (j : Fin d)
    (h : ∀ c : Fin d, X' (ix2 p c) = X (ix2 p' c)) : softmax X' (ix2 p j) = softmax X (ix2 p' j) := by
  have hm : rowMax X' p = rowMax X p' := by
    unfold rowMax
    rw [show (fun c => X' (ix2 p c)) = fun c => X (ix2 p' c) from funext h]
  have he : ∀ c, expShift X' (ix2 p c) = expShift X (ix2 p' c) := fun c => by
    rw [expShift_apply, expShift_apply, h c, hm]
  rw [softmax_apply, softmax_apply, he j]
  congr 1
  exact Finset.sum_congr rfl fun c _ => he c

/-- Row p of a row block's result is row p' of the whole arrays' result, when row p of each of the three row blocks
    is row p' of its array and the three whole windows hold their arrays. -/
theorem block_value (α : Mat 1 1) (adj k q : Mat 10000 10000) (s2 g : Mat 10000 64)
    (x0 : Mat 1 1) (x1 x2 x3 : Mat 200 10000) (x4 x5 : Mat 10000 64) (p : Fin 200) (p' : Fin 10000) (j : Fin 64)
    (h0 : x0 = α) (h4 : x4 = s2) (h5 : x5 = g)
    (h1 : ∀ s : Fin 10000, x1 (ix2 p s) = adj (ix2 p' s)) (h2 : ∀ s : Fin 10000, x2 (ix2 p s) = k (ix2 p' s))
    (h3 : ∀ s : Fin 10000, x3 (ix2 p s) = q (ix2 p' s)) :
    softmax (mm x1 x4) (ix2 p j) + mm (mix (Ideal.logistic (x0 (ix2 (0 : Fin 1) (0 : Fin 1)))) x2 x3) x5 (ix2 p j)
      = embOf α adj k q s2 g (ix2 p' j) := by
  subst h0 h4 h5
  show _ = softmax (mm adj x4) (ix2 p' j) + mm (mix (Ideal.logistic (x0 (ix2 (0 : Fin 1) (0 : Fin 1)))) k q) x5 (ix2 p' j)
  congr 1
  · exact softmax_rows _ _ p p' j fun c => Cert.LibGcn.mm_rows x1 adj x4 p p' c h1
  · exact Cert.LibGcn.mm_rows _ _ x5 p p' j fun s => by rw [mix_apply, mix_apply, h2 s, h3 s]

/-- The printed index maps over the grid: the three whole windows sit at block (0, 0), the four row-block windows at
    block (t, 0). -/
theorem idx1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section Value
variable (V : (c : Dev nD) → (b : Ref sig .tc) → Buf (Elt Ideal) ((c : Thread nD τ).loc b))

/-- Window 0's block is its whole array at every point. -/
theorem iblk1_0_eq (c : Dev nD) (t : Fin cfg1.N) :
    (iblk1 V c 0 t : S1x1.Idx → EReal) = (V c main_call0_v0 : S1x1.Idx → EReal) := by
  obtain ⟨e00, e01, e10, e11, e20, e21, e30, e31, e40, e41, e50, e51, e60, e61⟩ := idx1 t
  funext y
  unfold iblk1
  rw [View.read_apply]
  show V c main_call0_v0 _ = V c main_call0_v0 y
  congr 1
  funext a; apply Fin.ext
  match a with
  | ⟨0, _⟩ => show win1_0.index t (0 : Fin 2) * 1 + 1 * (y 0).val = (y 0).val; omega
  | ⟨1, _⟩ => show win1_0.index t (1 : Fin 2) * 1 + 1 * (y 1).val = (y 1).val; omega

/-- Window 4's block is its whole array at every point. -/
theorem iblk1_4_eq (c : Dev nD) (t : Fin cfg1.N) :
    (iblk1 V c 4 t : S10000x64.Idx → EReal) = (V c main_call0_v2_0 : S10000x64.Idx → EReal) := by
  obtain ⟨e00, e01, e10, e11, e20, e21, e30, e31, e40, e41, e50, e51, e60, e61⟩ := idx1 t
  funext y
  unfold iblk1
  rw [View.read_apply]
  show V c main_call0_v2_0 _ = V c main_call0_v2_0 y
  congr 1
  funext a; apply Fin.ext
  match a with
  | ⟨0, _⟩ => show win1_4.index t (0 : Fin 2) * 10000 + 1 * (y 0).val = (y 0).val; omega
  | ⟨1, _⟩ => show win1_4.index t (1 : Fin 2) * 64 + 1 * (y 1).val = (y 1).val; omega

/-- Window 5's block is its whole array at every point. -/
theorem iblk1_5_eq (c : Dev nD) (t : Fin cfg1.N) :
    (iblk1 V c 5 t : S10000x64.Idx → EReal) = (V c main_call0_v2_1 : S10000x64.Idx → EReal) := by
  obtain ⟨e00, e01, e10, e11, e20, e21, e30, e31, e40, e41, e50, e51, e60, e61⟩ := idx1 t
  funext y
  unfold iblk1
  rw [View.read_apply]
  show V c main_call0_v2_1 _ = V c main_call0_v2_1 y
  congr 1
  funext a; apply Fin.ext
  match a with
  | ⟨0, _⟩ => show win1_5.index t (0 : Fin 2) * 10000 + 1 * (y 0).val = (y 0).val; omega
  | ⟨1, _⟩ => show win1_5.index t (1 : Fin 2) * 64 + 1 * (y 1).val = (y 1).val; omega

/-- Row p of window 1's block at point t is row 200 t + p of its array. -/
theorem iblk1_1_apply (c : Dev nD) (t : Fin cfg1.N) (p : Fin 200) (s : Fin 10000) (hp : 200 * t.val + p.val < 10000) :
    (iblk1 V c 1 t : S200x10000.Idx → EReal) (ix2 p s)
      = (V c main_arg1 : S10000x10000.Idx → EReal) (ix2 (⟨200 * t.val + p.val, hp⟩ : Fin 10000) s) := by
  obtain ⟨e00, e01, e10, e11, e20, e21, e30, e31, e40, e41, e50, e51, e60, e61⟩ := idx1 t
  unfold iblk1
  rw [View.read_apply]
  show V c main_arg1 _ = V c main_arg1 _
  congr 1
  funext a; apply Fin.ext
  match a with
  | ⟨0, _⟩ => show win1_1.index t (0 : Fin 2) * 200 + 1 * p.val = 200 * t.val + p.val; omega
  | ⟨1, _⟩ => show win1_1.index t (1 : Fin 2) * 10000 + 1 * s.val = s.val; omega

/-- Row p of window 2's block at point t is row 200 t + p of its array. -/
theorem iblk1_2_apply (c : Dev nD) (t : Fin cfg1.N) (p : Fin 200) (s : Fin 10000) (hp : 200 * t.val + p.val < 10000) :
    (iblk1 V c 2 t : S200x10000.Idx → EReal) (ix2 p s)
      = (V c main_arg3 : S10000x10000.Idx → EReal) (ix2 (⟨200 * t.val + p.val, hp⟩ : Fin 10000) s) := by
  obtain ⟨e00, e01, e10, e11, e20, e21, e30, e31, e40, e41, e50, e51, e60, e61⟩ := idx1 t
  unfold iblk1
  rw [View.read_apply]
  show V c main_arg3 _ = V c main_arg3 _
  congr 1
  funext a; apply Fin.ext
  match a with
  | ⟨0, _⟩ => show win1_2.index t (0 : Fin 2) * 200 + 1 * p.val = 200 * t.val + p.val; omega
  | ⟨1, _⟩ => show win1_2.index t (1 : Fin 2) * 10000 + 1 * s.val = s.val; omega

/-- Row p of window 3's block at point t is row 200 t + p of its array. -/
theorem iblk1_3_apply (c : Dev nD) (t : Fin cfg1.N) (p : Fin 200) (s : Fin 10000) (hp : 200 * t.val + p.val < 10000) :
    (iblk1 V c 3 t : S200x10000.Idx → EReal) (ix2 p s)
      = (V c main_arg2 : S10000x10000.Idx → EReal) (ix2 (⟨200 * t.val + p.val, hp⟩ : Fin 10000) s) := by
  obtain ⟨e00, e01, e10, e11, e20, e21, e30, e31, e40, e41, e50, e51, e60, e61⟩ := idx1 t
  unfold iblk1
  rw [View.read_apply]
  show V c main_arg2 _ = V c main_arg2 _
  congr 1
  funext a; apply Fin.ext
  match a with
  | ⟨0, _⟩ => show win1_3.index t (0 : Fin 2) * 200 + 1 * p.val = 200 * t.val + p.val; omega
  | ⟨1, _⟩ => show win1_3.index t (1 : Fin 2) * 10000 + 1 * s.val = s.val; omega

/-- The second kernel's result as one function of the arrays the region finds. -/
abbrev G1 (c : Dev nD) : S10000x64.Idx → EReal :=
  embOf (V c main_call0_v0) (V c main_arg1) (V c main_arg3) (V c main_arg2) (V c main_call0_v2_0) (V c main_call0_v2_1)

/-- What point t writes back is block t of that function. -/
theorem flushed1_6_eq (c : Dev nD) (t : Fin cfg1.N) :
    (dat1 (F := Ideal) V c).flushed 6 t = ((cfg1.win 6).blk t).view.read (Elt Ideal) (G1 V c) := by
  show (cfg1.win 6).cut (grid1.coords t) ((dat1 (F := Ideal) V c).after 6 t) = _
  rw [after1_6]
  rw [out1_6_eq (iblk1 V c 0 t) (iblk1 V c 1 t) (iblk1 V c 2 t) (iblk1 V c 3 t) (iblk1 V c 4 t) (iblk1 V c 5 t)]
  obtain ⟨e00, e01, e10, e11, e20, e21, e30, e31, e40, e41, e50, e51, e60, e61⟩ := idx1 t
  have hN : cfg1.N = 50 := N_1
  funext y
  obtain ⟨p, j, rfl⟩ : ∃ (p : Fin 200) (j : Fin 64), y = ix2 p j := ⟨y 0, y 1, eq_ix2 y⟩
  have hp : 200 * t.val + p.val < 10000 := by have := t.isLt; have := p.isLt; omega
  have hemb : ((cfg1.win 6).blk t).view.emb (ix2 p j) = ix2 (⟨200 * t.val + p.val, hp⟩ : Fin 10000) j := by
    funext a; apply Fin.ext
    match a with
    | ⟨0, _⟩ => show win1_6.index t (0 : Fin 2) * 200 + 1 * p.val = 200 * t.val + p.val; omega
    | ⟨1, _⟩ => show win1_6.index t (1 : Fin 2) * 64 + 1 * j.val = j.val; omega
  show softmax (mm (iblk1 V c 1 t) (iblk1 V c 4 t)) (ix2 p j)
      + mm (mix (Ideal.logistic (iblk1 V c 0 t (ix2 (0 : Fin 1) (0 : Fin 1)))) (iblk1 V c 2 t) (iblk1 V c 3 t)) (iblk1 V c 5 t) (ix2 p j)
    = G1 V c (((cfg1.win 6).blk t).view.emb (ix2 p j))
  rw [hemb]
  exact block_value (V c main_call0_v0) (V c main_arg1) (V c main_arg3) (V c main_arg2) (V c main_call0_v2_0) (V c main_call0_v2_1)
    (iblk1 V c 0 t) (iblk1 V c 1 t) (iblk1 V c 2 t) (iblk1 V c 3 t) (iblk1 V c 4 t) (iblk1 V c 5 t) p ⟨200 * t.val + p.val, hp⟩ j
    (iblk1_0_eq V c t) (iblk1_4_eq V c t) (iblk1_5_eq V c t)
    (fun s => iblk1_1_apply V c t p s hp) (fun s => iblk1_2_apply V c t p s hp) (fun s => iblk1_3_apply V c t p s hp)

/-- Row r of the result array lies in the block of point r / 200. -/
theorem cover1_6_arr (i : S10000x64.Idx) :
    ∃ t : Fin cfg1.N, (cfg1.win 6).flush t = true ∧ i ∈ ((cfg1.win 6).blk t).view.set := by
  have hN : cfg1.N = 50 := N_1
  have hi0 : (i 0).val < 10000 := (i 0).isLt
  have hi1 : (i 1).val < 64 := (i 1).isLt
  let t : Fin cfg1.N := ⟨(i 0).val / 200, by omega⟩
  obtain ⟨e00, e01, e10, e11, e20, e21, e30, e31, e40, e41, e50, e51, e60, e61⟩ := idx1 t
  have ht : t.val = (i 0).val / 200 := rfl
  refine ⟨t, flush1_6 t, ?_⟩
  show i ∈ ((View.whole main_v0).slice (win1_6.rect t)).set
  rw [View.set_slice_whole, Rect.mem_set_unit]
  intro a
  match a with
  | ⟨0, _⟩ =>
    show win1_6.index t (0 : Fin 2) * 200 ≤ (i 0).val ∧ (i 0).val < win1_6.index t (0 : Fin 2) * 200 + 200
    omega
  | ⟨1, _⟩ =>
    show win1_6.index t (1 : Fin 2) * 64 ≤ (i 1).val ∧ (i 1).val < win1_6.index t (1 : Fin 2) * 64 + 64
    omega

/-- The result array after the region: the second kernel's function of the arrays the region finds. -/
theorem arr1_6 (c : Dev nD) :
    ((dat1 (F := Ideal) V c).arrAt 6 cfg1.N : S10000x64.Idx → EReal)
      = embOf (V c main_call0_v0) (V c main_arg1) (V c main_arg3) (V c main_arg2) (V c main_call0_v2_0) (V c main_call0_v2_1) :=
  (dat1 (F := Ideal) V c).arrAt_eq_of_cover 6 (G1 V c) (fun t _ => flushed1_6_eq V c t) (cover1_6_arr)

end Value

end Cert.KernelIdeal.Hand

end
-- ==== Proof.RefIsSpec.lean ====
/-
  The reference program's result, as a function of its ten argument arrays over the extended reals, is the
  whole-array function embR.

  Read one operation at a time:
    * the two graph-convolution layers:  s2 = (adj · (x · W1))⁺ · W2,  and the product  adj · s2;
    * the row-wise softmax, twice (of adj · s2 and of x · linW + b): the row's largest entry taken from -∞ and once
      more against -∞, the shift by it, the exponential, the row's sum from 0, the quotient;
    * the gate  g = softmax (x · linW + b) · Wg;
    * the mixing weight  1 / (1 + e^(-α)),  the logistic function of the one entry of α;
    * the result  a · (softmax (adj · s2) + k · g) + (1 - a) · (softmax (adj · s2) + q · g),  where k is the
      fourth argument array and q the third.
-/
import proofs.«156757_g65309272703512_cont_9to1c4b_471_27_alg».proof.Proof.Gen.ReferenceIdeal.Read
import proofs.«156757_g65309272703512_cont_9to1c4b_471_27_alg».proof.Proof.Spec
import proofs.«156757_g65309272703512_cont_9to1c4b_471_27_alg».proof.Proof.LibGcn
import proofs.«156757_g65309272703512_cont_9to1c4b_471_27_alg».proof.Proof.LibColumn
import proofs.«156757_g65309272703512_cont_9to1c4b_471_27_alg».proof.Proof.LibConsts

noncomputable section

open scoped BigOperators

namespace Cert.Dgcn.Ref

open Cert.ReferenceIdeal Cert.ReferenceIdeal.Gen Cert.ReferenceIdeal.Read Idealize.ShloMosaic Idealize.ShloMosaic.ValueIdx Cert.Spec Cert.Dgcn

/-- The host's maximum along the rows of an a × b array, at row p: the fold of max over the row from the initial value. -/
theorem hostRowMax {a b : ℕ} (src : FVec Ideal ⟨2, ![a, b]⟩ .f32) (init : (⟨0, ![]⟩ : Shape).Idx → EReal)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := .f32)) src init h' hu (ix1 p)
      = (Finset.univ : Finset (Fin b)).fold max (init (Shape.Idx.first hu)) (fun k => src (ix2 p k)) := by
  refine (Host.reduce_eq_fold_single (max : EReal → EReal → EReal) src init h' h hu (ix1 p)).trans ?_
  show (Finset.univ : Finset (Fin b)).fold max _ (src ∘ h.lift (ix1 p)) = _
  refine Finset.fold_congr fun k _ => ?_
  exact congrArg src (Idealize.ShloMosaic.LibColumn.lift_rows h p k)

theorem reduces_rows : S10000x64.Reduces [1] S10000 := by decide

/-! ## The graph-convolution chain -/

/-- The two layers' support and the product with the adjacency matrix. -/
theorem v4_eq (x0 : (⟨S10000x128, .f32⟩ : BufTy).Contents (Elt Ideal)) (x1 : (⟨S10000x10000, .f32⟩ : BufTy).Contents (Elt Ideal)) (x4 : (⟨S128x128, .f32⟩ : BufTy).Contents (Elt Ideal)) (x5 : (⟨S128x64, .f32⟩ : BufTy).Contents (Elt Ideal)) :
    val_main_v4 (F := Ideal) x0 x1 x4 x5 = mm x1 (support2 x1 x0 x4 x5) := by
  unfold val_main_v4 val_main_v3
  have h2 : val_main_v2 (F := Ideal) x0 x1 x4 = relu (mm x1 (mm x0 x4)) :=
    Cert.LibGcn.host_layer _ rfl _ rfl _ _ x1 x0 x4
  rw [h2, Cert.LibGcn.dotGeneral_eq_mm dot_S10000x128_S128x64_S10000x64_1_0_0_1_n_n rfl,
    Cert.LibGcn.dotGeneral_eq_mm dot_S10000x10000_S10000x64_S10000x64_1_0_0_1_n_n rfl]
  rfl

/-- The row maxima: the reduction from -∞, and the maximum with -∞ once more. -/
theorem v7_at (x0 : (⟨S10000x128, .f32⟩ : BufTy).Contents (Elt Ideal)) (x1 : (⟨S10000x10000, .f32⟩ : BufTy).Contents (Elt Ideal)) (x4 : (⟨S128x128, .f32⟩ : BufTy).Contents (Elt Ideal)) (x5 : (⟨S128x64, .f32⟩ : BufTy).Contents (Elt Ideal)) (p : Fin 10000) :
    val_main_v7 (F := Ideal) x0 x1 x4 x5 (ix1 p) = rowMax (val_main_v4 (F := Ideal) x0 x1 x4 x5) p := by
  rw [val_main_v7_apply, val_main_v6_apply, val_main_cst_0_apply]
  show max negInf (val_main_v5 (F := Ideal) x0 x1 x4 x5 (ix1 p)) = max negInf _
  refine congrArg (max negInf) ?_
  exact hostRowMax (val_main_v4 (F := Ideal) x0 x1 x4 x5) _ reducesTo_S10000x64_S10000_d1 reduces_rows h_S_ p

/-- The shifted entries. -/
theorem v10_at (x0 : (⟨S10000x128, .f32⟩ : BufTy).Contents (Elt Ideal)) (x1 : (⟨S10000x10000, .f32⟩ : BufTy).Contents (Elt Ideal)) (x4 : (⟨S128x128, .f32⟩ : BufTy).Contents (Elt Ideal)) (x5 : (⟨S128x64, .f32⟩ : BufTy).Contents (Elt Ideal)) (p : Fin 10000) (j : Fin 64) :
    val_main_v10 (F := Ideal) x0 x1 x4 x5 (ix2 p j)
      = val_main_v4 (F := Ideal) x0 x1 x4 x5 (ix2 p j) - rowMax (val_main_v4 (F := Ideal) x0 x1 x4 x5) p := by
  rw [val_main_v10_apply, val_main_v9_apply, val_main_v8_apply]
  have e : idx_main_v8 (idx_main_v9 (ix2 p j)) = ix1 p := funext fun a => Fin.ext (by match a with | ⟨0, _⟩ => rfl)
  rw [e, v7_at]
  rfl

/-- The exponentials of the shifted entries. -/
theorem v11_eq (x0 : (⟨S10000x128, .f32⟩ : BufTy).Contents (Elt Ideal)) (x1 : (⟨S10000x10000, .f32⟩ : BufTy).Contents (Elt Ideal)) (x4 : (⟨S128x128, .f32⟩ : BufTy).Contents (Elt Ideal)) (x5 : (⟨S128x64, .f32⟩ : BufTy).Contents (Elt Ideal)) :
    val_main_v11 (F := Ideal) x0 x1 x4 x5 = expShift (val_main_v4 (F := Ideal) x0 x1 x4 x5) := by
  funext i
  obtain ⟨p, j, rfl⟩ : ∃ (p : Fin 10000) (j : Fin 64), i = ix2 p j := ⟨i 0, i 1, eq_ix2 i⟩
  rw [val_main_v11_apply, v10_at, expShift_apply]
  rfl

/-- The row sums of the exponentials, across the row. -/
theorem v14_at (x0 : (⟨S10000x128, .f32⟩ : BufTy).Contents (Elt Ideal)) (x1 : (⟨S10000x10000, .f32⟩ : BufTy).Contents (Elt Ideal)) (x4 : (⟨S128x128, .f32⟩ : BufTy).Contents (Elt Ideal)) (x5 : (⟨S128x64, .f32⟩ : BufTy).Contents (Elt Ideal)) (p : Fin 10000) (j : Fin 64) :
    val_main_v14 (F := Ideal) x0 x1 x4 x5 (ix2 p j)
      = ∑ c : Fin 64, expShift (val_main_v4 (F := Ideal) x0 x1 x4 x5) (ix2 p c) := by
  rw [val_main_v14_apply, val_main_v13_apply, val_main_v12_apply, val_main_cst_1_apply, v11_eq]
  show Ideal.ofBits .f32 0x00000000#32 + _ = _
  rw [Ideal.ofBits_zero_f32, zero_add]
  refine Finset.sum_congr rfl fun c _ => congrArg _ ?_
  exact funext fun a => Fin.ext (by match a with | ⟨0, _⟩ => rfl | ⟨1, _⟩ => rfl)

/-- The quotients: the row-wise softmax. -/
theorem v15_eq (x0 : (⟨S10000x128, .f32⟩ : BufTy).Contents (Elt Ideal)) (x1 : (⟨S10000x10000, .f32⟩ : BufTy).Contents (Elt Ideal)) (x4 : (⟨S128x128, .f32⟩ : BufTy).Contents (Elt Ideal)) (x5 : (⟨S128x64, .f32⟩ : BufTy).Contents (Elt Ideal)) :
    val_main_v15 (F := Ideal) x0 x1 x4 x5 = softmax (val_main_v4 (F := Ideal) x0 x1 x4 x5) := by
  funext i
  obtain ⟨p, j, rfl⟩ : ∃ (p : Fin 10000) (j : Fin 64), i = ix2 p j := ⟨i 0, i 1, eq_ix2 i⟩
  rw [val_main_v15_apply, v14_at, v11_eq, softmax_apply]
  rfl

/-! ## The gate -/

/-- The linear layer with its bias row. -/
theorem v19_eq (x0 : (⟨S10000x128, .f32⟩ : BufTy).Contents (Elt Ideal)) (x6 : (⟨S128x64, .f32⟩ : BufTy).Contents (Elt Ideal)) (x7 : (⟨S64, .f32⟩ : BufTy).Contents (Elt Ideal)) :
    val_main_v19 (F := Ideal) x0 x6 x7 = addRow (mm x0 x6) (rowOf x7) := by
  funext i
  obtain ⟨p, j, rfl⟩ : ∃ (p : Fin 10000) (j : Fin 64), i = ix2 p j := ⟨i 0, i 1, eq_ix2 i⟩
  rw [val_main_v19_apply, val_main_v18_apply, val_main_v17_apply]
  have h16 : val_main_v16 (F := Ideal) x0 x6 = mm x0 x6 := Cert.LibGcn.dotGeneral_eq_mm _ rfl none x0 x6
  have e : idx_main_v17 (idx_main_v18 (ix2 p j)) = ix1 j := funext fun a => Fin.ext (by match a with | ⟨0, _⟩ => rfl)
  rw [h16, e, addRow_apply]
  rfl

/-- The row maxima: the reduction from -∞, and the maximum with -∞ once more. -/
theorem v22_at (x0 : (⟨S10000x128, .f32⟩ : BufTy).Contents (Elt Ideal)) (x6 : (⟨S128x64, .f32⟩ : BufTy).Contents (Elt Ideal)) (x7 : (⟨S64, .f32⟩ : BufTy).Contents (Elt Ideal)) (p : Fin 10000) :
    val_main_v22 (F := Ideal) x0 x6 x7 (ix1 p) = rowMax (val_main_v19 (F := Ideal) x0 x6 x7) p := by
  rw [val_main_v22_apply, val_main_v21_apply, val_main_cst_3_apply]
  show max negInf (val_main_v20 (F := Ideal) x0 x6 x7 (ix1 p)) = max negInf _
  refine congrArg (max negInf) ?_
  exact hostRowMax (val_main_v19 (F := Ideal) x0 x6 x7) _ reducesTo_S10000x64_S10000_d1 reduces_rows h_S_ p

/-- The shifted entries. -/
theorem v25_at (x0 : (⟨S10000x128, .f32⟩ : BufTy).Contents (Elt Ideal)) (x6 : (⟨S128x64, .f32⟩ : BufTy).Contents (Elt Ideal)) (x7 : (⟨S64, .f32⟩ : BufTy).Contents (Elt Ideal)) (p : Fin 10000) (j : Fin 64) :
    val_main_v25 (F := Ideal) x0 x6 x7 (ix2 p j)
      = val_main_v19 (F := Ideal) x0 x6 x7 (ix2 p j) - rowMax (val_main_v19 (F := Ideal) x0 x6 x7) p := by
  rw [val_main_v25_apply, val_main_v24_apply, val_main_v23_apply]
  have e : idx_main_v23 (idx_main_v24 (ix2 p j)) = ix1 p := funext fun a => Fin.ext (by match a with | ⟨0, _⟩ => rfl)
  rw [e, v22_at]
  rfl

/-- The exponentials of the shifted entries. -/
theorem v26_eq (x0 : (⟨S10000x128, .f32⟩ : BufTy).Contents (Elt Ideal)) (x6 : (⟨S128x64, .f32⟩ : BufTy).Contents (Elt Ideal)) (x7 : (⟨S64, .f32⟩ : BufTy).Contents (Elt Ideal)) :
    val_main_v26 (F := Ideal) x0 x6 x7 = expShift (val_main_v19 (F := Ideal) x0 x6 x7) := by
  funext i
  obtain ⟨p, j, rfl⟩ : ∃ (p : Fin 10000) (j : Fin 64), i = ix2 p j := ⟨i 0, i 1, eq_ix2 i⟩
  rw [val_main_v26_apply, v25_at, expShift_apply]
  rfl

/-- The row sums of the exponentials, across the row. -/
theorem v29_at (x0 : (⟨S10000x128, .f32⟩ : BufTy).Contents (Elt Ideal)) (x6 : (⟨S128x64, .f32⟩ : BufTy).Contents (Elt Ideal)) (x7 : (⟨S64, .f32⟩ : BufTy).Contents (Elt Ideal)) (p : Fin 10000) (j : Fin 64) :
    val_main_v29 (F := Ideal) x0 x6 x7 (ix2 p j)
      = ∑ c : Fin 64, expShift (val_main_v19 (F := Ideal) x0 x6 x7) (ix2 p c) := by
  rw [val_main_v29_apply, val_main_v28_apply, val_main_v27_apply, val_main_cst_4_apply, v26_eq]
  show Ideal.ofBits .f32 0x00000000#32 + _ = _
  rw [Ideal.ofBits_zero_f32, zero_add]
  refine Finset.sum_congr rfl fun c _ => congrArg _ ?_
  exact funext fun a => Fin.ext (by match a with | ⟨0, _⟩ => rfl | ⟨1, _⟩ => rfl)

/-- The quotients: the row-wise softmax. -/
theorem v30_eq (x0 : (⟨S10000x128, .f32⟩ : BufTy).Contents (Elt Ideal)) (x6 : (⟨S128x64, .f32⟩ : BufTy).Contents (Elt Ideal)) (x7 : (⟨S64, .f32⟩ : BufTy).Contents (Elt Ideal)) :
    val_main_v30 (F := Ideal) x0 x6 x7 = softmax (val_main_v19 (F := Ideal) x0 x6 x7) := by
  funext i
  obtain ⟨p, j, rfl⟩ : ∃ (p : Fin 10000) (j : Fin 64), i = ix2 p j := ⟨i 0, i 1, eq_ix2 i⟩
  rw [val_main_v30_apply, v29_at, v26_eq, softmax_apply]
  rfl

/-- The gate: the softmax of the linear layer times the gate's weights. -/
theorem v37_eq (x0 : (⟨S10000x128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) :
    val_main_v37 (F := Ideal) x0 x6 x7 x8 = gate x0 x6 (rowOf x7) x8 := by
  unfold val_main_v37
  rw [v30_eq, v19_eq, Cert.LibGcn.dotGeneral_eq_mm dot_S10000x64_S64x64_S10000x64_1_0_0_1_n_n rfl]
  rfl

/-! ## The mixing weight -/

/-- 1 / (1 + e^(-α)) is the logistic function of α. -/
theorem v36_at (x9 : (⟨S1, .f32⟩ : BufTy).Contents (Elt Ideal)) (i : S1.Idx) : val_main_v36 (F := Ideal) x9 i = Ideal.logistic (x9 i) := by
  rw [val_main_v36_apply, val_main_v35_apply, val_main_cst_6_apply, val_main_v34_apply, val_main_v33_apply,
    val_main_cst_5_apply, val_main_v32_apply, val_main_v31_apply]
  show Ideal.div (Ideal.ofBits .f32 0x3F800000#32) (Ideal.ofBits .f32 0x3F800000#32 + Ideal.exp (-(x9 i))) = Ideal.div 1 (1 + Ideal.exp (-(x9 i)))
  rw [Cert.Consts.ofBits_one, EReal.coe_one]

/-! ## The result -/

/-- The reference's result is embR of the ten argument arrays. -/
theorem ref_eq (x0 : (⟨S10000x128, .f32⟩ : BufTy).Contents (Elt Ideal)) (x1 x2 x3 : (⟨S10000x10000, .f32⟩ : BufTy).Contents (Elt Ideal)) (x4 : (⟨S128x128, .f32⟩ : BufTy).Contents (Elt Ideal)) (x5 x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S1, .f32⟩ : BufTy).Contents (Elt Ideal)) :
    val_main_v50 (F := Ideal) x0 x1 x2 x3 x4 x5 x6 x7 x8 x9 = embR x0 x1 x2 x3 x4 x5 x6 x7 x8 x9 := by
  funext i
  rw [val_main_v50_apply, val_main_v44_apply, val_main_v49_apply, val_main_v43_apply, val_main_v42_apply,
    val_main_v48_apply, val_main_v47_apply, val_main_v46_apply, val_main_v45_apply, val_main_cst_7_apply,
    val_main_v39_apply, val_main_v41_apply, v36_at, v15_eq, v4_eq]
  have h38 : val_main_v38 (F := Ideal) x0 x3 x6 x7 x8 = mm x3 (gate x0 x6 (rowOf x7) x8) := by
    unfold val_main_v38
    rw [v37_eq, Cert.LibGcn.dotGeneral_eq_mm dot_S10000x10000_S10000x64_S10000x64_1_0_0_1_n_n rfl]
  have h40 : val_main_v40 (F := Ideal) x0 x2 x6 x7 x8 = mm x2 (gate x0 x6 (rowOf x7) x8) := by
    unfold val_main_v40
    rw [v37_eq, Cert.LibGcn.dotGeneral_eq_mm dot_S10000x10000_S10000x64_S10000x64_1_0_0_1_n_n rfl]
  have e1 : idx_main_v42 (idx_main_v43 i) = ix1 (0 : Fin 1) := funext fun a => Fin.ext (by match a with | ⟨0, _⟩ => rfl)
  rw [h38, h40, e1]
  show _ * _ + (Ideal.ofBits .f32 0x3F800000#32 - _) * _ = _
  rw [Cert.Consts.ofBits_one, EReal.coe_one]
  rfl

end Cert.Dgcn.Ref

end
-- ==== Proof.FiniteArgs.lean ====
/-
  What the precondition gives: every entry of every argument array is a real.

  The precondition is the conjunction, over the ten argument arrays, of "every entry has |x| < +∞".  A conjunction
  of one-bit words that is 1 has every conjunct 1; an all-of over an array that is 1 has every entry's test 1;
  and over the extended reals |x| = max x (-x) is below +∞ exactly when x is neither infinity, that is, a real.
-/
import Idealize.ShloMosaic.Lib.ReduceAll
import Idealize.ShloMosaic.Lib.ValueIdx
import Idealize.ShloMosaic.PureOps.Ideal
import proofs.«156757_g65309272703512_cont_9to1c4b_471_27_alg».proof.Pre_finite_inputs

noncomputable section

namespace Cert.FiniteArgs

open Idealize.ShloMosaic Idealize.ShloMosaic.ValueIdx Cert.Pre_finite_inputs

/-- The scalar shape has one index. -/
instance : Subsingleton S_.Idx := ⟨fun _ _ => funext fun d => d.elim0⟩

/-- The f32 word 0x7F800000 is +∞. -/
theorem ofBits_posInf : Ideal.ofBits .f32 0x7F800000#32 = ⊤ := by
  simp [Ideal.ofBits, Ideal.ieee]

/-- An extended real whose absolute value is below +∞ is a real. -/
theorem real_of_abs_lt (v : EReal)
    (h : Ideal.cmp .olt (max v (-v)) (Ideal.ofBits .f32 0x7F800000#32) = 1#1) : ∃ r : ℝ, v = (r : EReal) := by
  rw [ofBits_posInf] at h
  induction v using EReal.rec with
  | bot => simp [Ideal.cmp] at h
  | coe r => exact ⟨r, rfl⟩
  | top => simp [Ideal.cmp] at h

/-- One all-of test: if "|x| < +∞ everywhere" came out 1 then every entry of x is a real. -/
theorem all_real {s : Shape} {axes : List (Fin s.rank)} (hb : S_.BroadcastsInDim s (![] : Fin 0 → Fin s.rank))
    (hr : s.ReducesTo axes S_) (hu : 0 < S_.numel) (x : FVec Ideal s .f32)
    (e : Host.reduce IntOp.andi (cmpf .olt (Host.absf x) (broadcastInDim s ![] hb (constant S_ .f32 0x7F800000#32)))
      (constantI S_ 1 1#1) hr hu ix0 = 1#1) : ∀ i, ∃ r : ℝ, x i = (r : EReal) := fun i =>
  real_of_abs_lt (x i) (Host.reduce_andi_all _ _ hr hu ix0 e i)

/-- The precondition makes every entry of each of the ten argument arrays a real. -/
theorem finite_args [hP : Cert.Pre_finite_inputs.Facts] (a0 : FVec Ideal S10000x128 .f32) (a1 : FVec Ideal S10000x10000 .f32) (a2 : FVec Ideal S10000x10000 .f32) (a3 : FVec Ideal S10000x10000 .f32) (a4 : FVec Ideal S128x128 .f32) (a5 : FVec Ideal S128x64 .f32) (a6 : FVec Ideal S128x64 .f32) (a7 : FVec Ideal S64 .f32) (a8 : FVec Ideal S64x64 .f32) (a9 : FVec Ideal S1 .f32)
    (h : Cert.Pre_finite_inputs.fn (F := Ideal) a0 a1 a2 a3 a4 a5 a6 a7 a8 a9 = (fun _ => 1#1)) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal)) := by
  have h0 := congrFun h ix0
  dsimp only [Cert.Pre_finite_inputs.fn, Cert.Pre_finite_inputs.fn_part1, Cert.Pre_finite_inputs.fn_part2,
    Idealize.ShloMosaic.andi] at h0
  simp only [IntOp.andi_eq_one] at h0
  obtain ⟨⟨⟨⟨⟨⟨⟨⟨⟨e0, e1⟩, e2⟩, e3⟩, e4⟩, e5⟩, e6⟩, e7⟩, e8⟩, e9⟩ := h0
  exact ⟨all_real _ _ _ a0 e0, all_real _ _ _ a1 e1, all_real _ _ _ a2 e2, all_real _ _ _ a3 e3, all_real _ _ _ a4 e4,
    all_real _ _ _ a5 e5, all_real _ _ _ a6 e6, all_real _ _ _ a7 e7, all_real _ _ _ a8 e8, all_real _ _ _ a9 e9⟩

end Cert.FiniteArgs

end
-- ==== Proof.FiniteArgsAt.lean ====
/-
  The precondition read at the kernel's own argument arrays: on every device, every entry of each of the ten
  argument arrays held in the initial memory is a real.
-/
import proofs.«156757_g65309272703512_cont_9to1c4b_471_27_alg».proof.Proof.FiniteArgs
import proofs.«156757_g65309272703512_cont_9to1c4b_471_27_alg».proof.Defs
import proofs.«156757_g65309272703512_cont_9to1c4b_471_27_alg».proof.Proof.Gen.Pre_finite_inputs

noncomputable section

namespace Cert.FiniteArgs

open Idealize.ShloMosaic Idealize.SL.Sem

/-- The precondition makes every entry of each argument array of the initial memory a real, on every device. -/
theorem finite_args_at (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (m ((c.tc : Thread Cert.KernelIdeal.nD Cert.KernelIdeal.τ).loc Cert.KernelIdeal.main_arg0)) i = (r : EReal))
      ∧ (∀ i, ∃ r : ℝ, (m ((c.tc : Thread Cert.KernelIdeal.nD Cert.KernelIdeal.τ).loc Cert.KernelIdeal.main_arg1)) i = (r : EReal))
      ∧ (∀ i, ∃ r : ℝ, (m ((c.tc : Thread Cert.KernelIdeal.nD Cert.KernelIdeal.τ).loc Cert.KernelIdeal.main_arg2)) i = (r : EReal))
      ∧ (∀ i, ∃ r : ℝ, (m ((c.tc : Thread Cert.KernelIdeal.nD Cert.KernelIdeal.τ).loc Cert.KernelIdeal.main_arg3)) i = (r : EReal))
      ∧ (∀ i, ∃ r : ℝ, (m ((c.tc : Thread Cert.KernelIdeal.nD Cert.KernelIdeal.τ).loc Cert.KernelIdeal.main_arg4)) i = (r : EReal))
      ∧ (∀ i, ∃ r : ℝ, (m ((c.tc : Thread Cert.KernelIdeal.nD Cert.KernelIdeal.τ).loc Cert.KernelIdeal.main_arg5)) i = (r : EReal))
      ∧ (∀ i, ∃ r : ℝ, (m ((c.tc : Thread Cert.KernelIdeal.nD Cert.KernelIdeal.τ).loc Cert.KernelIdeal.main_arg6)) i = (r : EReal))
      ∧ (∀ i, ∃ r : ℝ, (m ((c.tc : Thread Cert.KernelIdeal.nD Cert.KernelIdeal.τ).loc Cert.KernelIdeal.main_arg7)) i = (r : EReal))
      ∧ (∀ i, ∃ r : ℝ, (m ((c.tc : Thread Cert.KernelIdeal.nD Cert.KernelIdeal.τ).loc Cert.KernelIdeal.main_arg8)) i = (r : EReal))
      ∧ (∀ i, ∃ r : ℝ, (m ((c.tc : Thread Cert.KernelIdeal.nD Cert.KernelIdeal.τ).loc Cert.KernelIdeal.main_arg9)) i = (r : EReal)) :=
  Cert.FiniteArgs.finite_args _ _ _ _ _ _ _ _ _ _ (hpre c)

end Cert.FiniteArgs

end
-- ==== Proof.lean ====
/-
  The certificate of the graph-convolution kernel against its reference.

  The kernel is two grid regions. The first, over row blocks of 400 nodes, fills a scratch buffer with x · W1 and a resident
  output with the gate softmax (x · linW + b) · Wg at its first point, and stores (adj · (x · W1))⁺ · W2 row block by row
  block; the second, over row blocks of 200 nodes, stores softmax (adj · s2) + (q + a · (k - q)) · g with a the logistic
  function of α. The frames of both printed programs are one argument at any float instance: the regions' proof data name
  what every staging buffer holds at every grid point, the scratch is carried by the first region's invariant, and the
  buffers' contents at each boundary of the program are a fold from the launch memory in which no argument is ever
  written. At the exact extended reals the same fold names the result buffer's contents as a function of the arguments;
  the reference's sixty-one host operations read back to a + b form of the same function, a · (x2 + k · g) + (1 - a) · (x2 + q · g),
  and for arguments whose entries are all real — which is the precondition — the two forms are equal.
-/
import proofs.«156757_g65309272703512_cont_9to1c4b_471_27_alg».proof.Defs
import proofs.«156757_g65309272703512_cont_9to1c4b_471_27_alg».proof.Proof.Frames
import proofs.«156757_g65309272703512_cont_9to1c4b_471_27_alg».proof.Proof.KFrames
import proofs.«156757_g65309272703512_cont_9to1c4b_471_27_alg».proof.Proof.Algebraic
import proofs.«156757_g65309272703512_cont_9to1c4b_471_27_alg».proof.Proof.R0Value
import proofs.«156757_g65309272703512_cont_9to1c4b_471_27_alg».proof.Proof.R1Value
import proofs.«156757_g65309272703512_cont_9to1c4b_471_27_alg».proof.Proof.RefIsSpec
import proofs.«156757_g65309272703512_cont_9to1c4b_471_27_alg».proof.Proof.FiniteArgsAt
import proofs.«156757_g65309272703512_cont_9to1c4b_471_27_alg».proof.Proof.Gen.ReferenceIdeal.Run
import proofs.«156757_g65309272703512_cont_9to1c4b_471_27_alg».proof.Proof.Gen.Kernel
import proofs.«156757_g65309272703512_cont_9to1c4b_471_27_alg».proof.Proof.Gen.KernelIdeal
import proofs.«156757_g65309272703512_cont_9to1c4b_471_27_alg».proof.Proof.Gen.ReferenceIdeal
import proofs.«156757_g65309272703512_cont_9to1c4b_471_27_alg».proof.Proof.Gen.Pre_finite_inputs
import Idealize.ShloMosaic.Adequacy
import Idealize.ShloMosaic.Init

noncomputable section

namespace Cert.Proof

open Idealize.ShloMosaic Idealize.SL.Sem

/-- The printed kernel's frame: the hand frame at the word-level instance. -/
theorem frame_k : Cert.frame_Kernel := fun m ρ _ => Cert.Kernel.Hand.frame_all m ρ

/-- The idealized kernel's frame: the same argument at the extended reals. -/
theorem frame_ki : Cert.frame_KernelIdeal := fun m ρ _ => Cert.KernelIdeal.Hand.frame_all m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with one result. -/
theorem algebraic : Cert.algebraic_KernelIdeal_ReferenceIdeal :=
  algebraic_of Cert.KernelIdeal.Hand.arr1_6 Cert.KernelIdeal.Hand.arr0_7 Cert.KernelIdeal.Hand.arr0_8 Cert.Dgcn.Ref.ref_eq
    Cert.FiniteArgs.finite_args_at

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
